-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8 : Shape := ⟨1, ![8]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) (main_arg2 : IVec S8 32) (main_arg3 : IVec S8 32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8 : Shape := ⟨1, ![8]⟩
abbrev S4096 : Shape := ⟨1, ![4096]⟩
abbrev S1x4096 : Shape := ⟨2, ![1, 4096]⟩
abbrev S8x1 : Shape := ⟨2, ![8, 1]⟩
abbrev S8x4096 : Shape := ⟨2, ![8, 4096]⟩
abbrev S_ : Shape := ⟨0, ![]⟩
abbrev S8x512x3 : Shape := ⟨3, ![8, 512, 3]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩

abbrev nBuf : Space → Nat
  | .hbm => 71
  | .vmem => 18
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .i32⟩
  | .hbm, ⟨3, _⟩ => ⟨S8, .i32⟩
  | .hbm, ⟨4, _⟩ => ⟨S4096, .i32⟩
  | .hbm, ⟨5, _⟩ => ⟨S1x4096, .i32⟩
  | .hbm, ⟨6, _⟩ => ⟨S8x1, .i32⟩
  | .hbm, ⟨7, _⟩ => ⟨S8x4096, .i32⟩
  | .hbm, ⟨8, _⟩ => ⟨S8x4096, .i32⟩
  | .hbm, ⟨9, _⟩ => ⟨S8x4096, .i1⟩
  | .hbm, ⟨10, _⟩ => ⟨S_, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096, .f32⟩
  | .hbm, ⟨15, _⟩ => ⟨S8x4096, .f32⟩
  | .hbm, ⟨16, _⟩ => ⟨S4096, .i32⟩
  | .hbm, ⟨17, _⟩ => ⟨S1x4096, .i32⟩
  | .hbm, ⟨18, _⟩ => ⟨S8x1, .i32⟩
  | .hbm, ⟨19, _⟩ => ⟨S8x4096, .i32⟩
  | .hbm, ⟨20, _⟩ => ⟨S8x4096, .i32⟩
  | .hbm, ⟨21, _⟩ => ⟨S8x4096, .i1⟩
  | .hbm, ⟨22, _⟩ => ⟨S_, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S8, .f32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .i32⟩
  | .hbm, ⟨38, _⟩ => ⟨S1x4096, .i32⟩
  | .hbm, ⟨39, _⟩ => ⟨S8x1, .i32⟩
  | .hbm, ⟨40, _⟩ => ⟨S8x4096, .i32⟩
  | .hbm, ⟨41, _⟩ => ⟨S8x4096, .i32⟩
  | .hbm, ⟨42, _⟩ => ⟨S8x4096, .i1⟩
  | .hbm, ⟨43, _⟩ => ⟨S_, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096, .f32⟩
  | .hbm, ⟨49, _⟩ => ⟨S4096, .i32⟩
  | .hbm, ⟨50, _⟩ => ⟨S1x4096, .i32⟩
  | .hbm, ⟨51, _⟩ => ⟨S8x1, .i32⟩
  | .hbm, ⟨52, _⟩ => ⟨S8x4096, .i32⟩
  | .hbm, ⟨53, _⟩ => ⟨S8x4096, .i32⟩
  | .hbm, ⟨54, _⟩ => ⟨S8x4096, .i1⟩
  | .hbm, ⟨55, _⟩ => ⟨S_, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S_, .f32⟩
  | .hbm, ⟨60, _⟩ => ⟨S8, .f32⟩
  | .hbm, ⟨61, _⟩ => ⟨S_, .i32⟩
  | .hbm, ⟨62, _⟩ => ⟨S8, .i32⟩
  | .hbm, ⟨63, _⟩ => ⟨S8, .i32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512x3, .f32⟩
  | .local _ .vmem, ⟨10, _⟩ => ⟨S8x512x3, .f32⟩
  | .local _ .vmem, ⟨11, _⟩ => ⟨S8x512x3, .f32⟩
  | .local _ .vmem, ⟨12, _⟩ => ⟨S8x512x3, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_cst_6 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_16 : BitVec 32 := 0#32
  let v33 : BitVec 1 := Scalar.cmpi .ne v32 c0_i32_16
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_16 : BitVec 32 := 0#32
  let v33 : BitVec 1 := Scalar.cmpi .ne v32 c0_i32_16
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  bcast_S_S8x4096 : S_.BroadcastsInDim S8x4096 (![] : Fin 0 → Fin S8x4096.rank)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  reduces_S8x512x3_S8x512 : S8x512x3.Reduces [2] S8x512
  bitsLt_bf16_f32 : FTy.bits .bf16 < FTy.bits .f32
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x4096.size a
  hwx0_3 : ∀ i : grid0.Coords, EltTy.bits .f32 = 32 ∨ (Rect.block (s := S8x4096) S8x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512.size a ≤ S8x4096.size a
  hwx1_3 : ∀ i : grid1.Coords, EltTy.bits .f32 = 32 ∨ (Rect.block (s := S8x4096) S8x512.size (cc1_transform_3 i) (hinb1_3 i)).WholeWords (EltTy.packing .f32)

variable [Facts₀]

def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S8x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8 : Shape := ⟨1, ![8]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096 : Shape := ⟨1, ![4096]⟩
abbrev S1x4096 : Shape := ⟨2, ![1, 4096]⟩
abbrev S8x1 : Shape := ⟨2, ![8, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .i32⟩
  | .hbm, ⟨3, _⟩ => ⟨S8, .i32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x3, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S1x4096, .i32⟩
  | .hbm, ⟨22, _⟩ => ⟨S8x1, .i32⟩
  | .hbm, ⟨23, _⟩ => ⟨S8x4096, .i32⟩
  | .hbm, ⟨24, _⟩ => ⟨S8x4096, .i32⟩
  | .hbm, ⟨25, _⟩ => ⟨S8x4096, .i1⟩
  | .hbm, ⟨26, _⟩ => ⟨S8x1x4096, .i1⟩
  | .hbm, ⟨27, _⟩ => ⟨S_, .f32⟩
  | .hbm, ⟨28, _⟩ => ⟨S_, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S4096, .i32⟩
  | .hbm, ⟨35, _⟩ => ⟨S1x4096, .i32⟩
  | .hbm, ⟨36, _⟩ => ⟨S8x1, .i32⟩
  | .hbm, ⟨37, _⟩ => ⟨S8x4096, .i32⟩
  | .hbm, ⟨38, _⟩ => ⟨S8x4096, .i32⟩
  | .hbm, ⟨39, _⟩ => ⟨S8x4096, .i1⟩
  | .hbm, ⟨40, _⟩ => ⟨S_, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S_, .f32⟩
  | .hbm, ⟨45, _⟩ => ⟨S8, .f32⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x4096x3, .f32⟩
  | .hbm, ⟨56, _⟩ => ⟨S_, .f32⟩
  | .hbm, ⟨57, _⟩ => ⟨S8x4096, .f32⟩
  | .hbm, ⟨58, _⟩ => ⟨S8x4096x3, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x1x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S4096, .i32⟩
  | .hbm, ⟨72, _⟩ => ⟨S1x4096, .i32⟩
  | .hbm, ⟨73, _⟩ => ⟨S8x1, .i32⟩
  | .hbm, ⟨74, _⟩ => ⟨S8x4096, .i32⟩
  | .hbm, ⟨75, _⟩ => ⟨S8x4096, .i32⟩
  | .hbm, ⟨76, _⟩ => ⟨S8x4096, .i1⟩
  | .hbm, ⟨77, _⟩ => ⟨S8x1x4096, .i1⟩
  | .hbm, ⟨78, _⟩ => ⟨S_, .f32⟩
  | .hbm, ⟨79, _⟩ => ⟨S_, .f32⟩
  | .hbm, ⟨80, _⟩ => ⟨S8x4096x4096, .i1⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S4096, .i32⟩
  | .hbm, ⟨86, _⟩ => ⟨S1x4096, .i32⟩
  | .hbm, ⟨87, _⟩ => ⟨S8x1, .i32⟩
  | .hbm, ⟨88, _⟩ => ⟨S8x4096, .i32⟩
  | .hbm, ⟨89, _⟩ => ⟨S8x4096, .i32⟩
  | .hbm, ⟨90, _⟩ => ⟨S8x4096, .i1⟩
  | .hbm, ⟨91, _⟩ => ⟨S_, .f32⟩
  | .hbm, ⟨92, _⟩ => ⟨S_, .f32⟩
  | .hbm, ⟨93, _⟩ => ⟨S8x4096, .f32⟩
  | .hbm, ⟨94, _⟩ => ⟨S8x4096, .f32⟩
  | .hbm, ⟨95, _⟩ => ⟨S_, .f32⟩
  | .hbm, ⟨96, _⟩ => ⟨S8, .f32⟩
  | .hbm, ⟨97, _⟩ => ⟨S_, .i32⟩
  | .hbm, ⟨98, _⟩ => ⟨S8, .i32⟩
  | .hbm, ⟨99, _⟩ => ⟨S8, .i32⟩
  | .hbm, ⟨100, _⟩ => ⟨S8, .f32⟩
  | .hbm, ⟨101, _⟩ => ⟨S8, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_call3_v0 : Ref sig .tc := ⟨.hbm, 92, rfl⟩
abbrev main_call3_v1 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_cst_17 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  reducesTo_S8x4096x4096_S8x4096_d2 : S8x4096x4096.ReducesTo [2] S8x4096
  bcast_S_S8x4096 : S_.BroadcastsInDim S8x4096 (![] : Fin 0 → Fin S8x4096.rank)
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KB_Shared.lean ====
/-
  What the per-case runs of the two nearest-neighbour kernels are stated over: each window's block at a grid point, that an
  input's staging buffer holds its block at every point, the two branch conditions of the body decided over the
  8 × 8 grid (a point is 8·(query tile) + (key tile): the first branch at key tile 0, the second at key tile 7), where
  the output window is idle, and names for the staging and scratch memrefs.
-/
import proofs.«150336_j34505767256624_1_alg».proof.Proof.Gen.Kernel.Launch
import proofs.«150336_j34505767256624_1_alg».proof.Proof.Gen.Kernel.Skeleton
import proofs.«150336_j34505767256624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its runs are stated over -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not
    (unfetched, its index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first branch of the body (the running minimum is reset): taken when the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second branch (the running minimum is written out): taken when the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle; the output window is idle, and not written back, except where the
    second branch is taken. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The output window's contents are stated through one of its staging buffers, the scratch's through its own. -/
abbrev VO0 : View sig .tc .vmem S8x512 .f32 := (Memref.whole cc0_stg3_0 : Memref sig .tc .vmem S8x512 .f32).view
abbrev ms0_0 (t : Fin cfg0.N) : Memref sig .tc .vmem S8x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev scM0 : Memref sig .tc .vmem S8x512 .f32 := Memref.whole cc0_scratch0
abbrev VS0 : View sig .tc .vmem S8x512 .f32 := scM0.view

/-! # Region 1: what its runs are stated over -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not
    (unfetched, its index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first branch of the body (the running minimum is reset): taken when the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (the running minimum is written out): taken when the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, except where the
    second branch is taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The output window's contents are stated through one of its staging buffers, the scratch's through its own. -/
abbrev VO1 : View sig .tc .vmem S8x512 .f32 := (Memref.whole cc1_stg3_0 : Memref sig .tc .vmem S8x512 .f32).view
abbrev ms1_0 (t : Fin cfg1.N) : Memref sig .tc .vmem S8x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x512 .f32 := win1_3.stage (cfg1.slots t 3)
abbrev hs1_3 (t : Fin cfg1.N) : (ms1_3 t).IsWhole := hstage1_3 ((cfg1.slots t 3).cast nbuf1_3)
abbrev scM1 : Memref sig .tc .vmem S8x512 .f32 := Memref.whole cc1_scratch0
abbrev VS1 : View sig .tc .vmem S8x512 .f32 := scM1.view

end Cert.Kernel.Fr

end
-- ==== Proof.KB_Run0A.lean ====
/-
  The whole-body run of the nearest-neighbour kernel of region 0 in case A of its two branches.
-/
import proofs.«150336_j34505767256624_1_alg».proof.Proof.KB_Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of region 0's body (key tile 0: the running minimum is reset, then lowered by this tile's minimum; nothing is written out):
    on whole memrefs — the three inputs at their contents, the output handed back untouched, the scratch at anything —
    the body runs to the continuation holding the inputs as they were and each buffer it stored into with its stores
    written, as pieces (last first) that the symbolic run finds. -/
noncomputable def kernelRun0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i)
    (x0 x1 : Vec F S8x512x3 .f32) (x2 : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__nn_min_kernel i arg2 harg2 arg3 harg3 arg4 harg4 arg5 harg5 arg6 harg6) K } := by
  refine ⟨[], ?_, fun xi3 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%f3, %hf3, H3⟩, ⟨%d6, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.KB_Run0B.lean ====
/-
  The whole-body run of the nearest-neighbour kernel of region 0 in case B of its two branches.
-/
import proofs.«150336_j34505767256624_1_alg».proof.Proof.KB_Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of region 0's body (a middle key tile: the running minimum is lowered by this tile's minimum; nothing is written out):
    on whole memrefs — the three inputs at their contents, the output handed back untouched, the scratch at what the point before left —
    the body runs to the continuation holding the inputs as they were and each buffer it stored into with its stores
    written, as pieces (last first) that the symbolic run finds. -/
noncomputable def kernelRun0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__nn_min_kernel i arg2 harg2 arg3 harg3 arg4 harg4 arg5 harg5 arg6 harg6) K } := by
  refine ⟨[], ?_, fun xi3 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.KB_Run0C.lean ====
/-
  The whole-body run of the nearest-neighbour kernel of region 0 in case C of its two branches.
-/
import proofs.«150336_j34505767256624_1_alg».proof.Proof.KB_Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of region 0's body (the last key tile: the running minimum is lowered by this tile's minimum and written out):
    on whole memrefs — the three inputs at their contents, the output at anything, the scratch at what the point before left —
    the body runs to the continuation holding the inputs as they were and each buffer it stored into with its stores
    written, as pieces (last first) that the symbolic run finds. -/
noncomputable def kernelRun0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__nn_min_kernel i arg2 harg2 arg3 harg3 arg4 harg4 arg5 harg5 arg6 harg6) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Fr

end
-- ==== Proof.KB_Data0.lean ====
/-
  Region 0's proof data: what each case of the body leaves in the output's staging buffer and in the scratch that
  carries the running minimum (the pieces its run found, read back), the accumulation of these over the grid's
  points in order, the invariant that holds the scratch at what the point before left, and the record the
  pipeline's launch theorem takes.
-/
import proofs.«150336_j34505767256624_1_alg».proof.Proof.KB_Run0A
import proofs.«150336_j34505767256624_1_alg».proof.Proof.KB_Run0B
import proofs.«150336_j34505767256624_1_alg».proof.Proof.KB_Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 -/

/-! ## What each case leaves in the output's buffer and in the scratch: its pieces read back -/

def out0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i) (x0 x1 : Vec F S8x512x3 .f32) (x2 : Vec F S8x512 .f32) : Vec F S8x512 .f32 :=
  VO0.read (Elt F) (VO0.writes (Elt F) VO0.junk (kernelRun0_A c i arg2 harg2 arg3 harg3 arg4 harg4 arg5 harg5 arg6 harg6 hc0 hc1 x0 x1 x2).1)
theorem scover0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i) (x0 x1 : Vec F S8x512x3 .f32) (x2 : Vec F S8x512 .f32) (y : S8x512.Idx) : ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S8x512.size (by sl_kernel_rfl) y
def sout0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i) (x0 x1 : Vec F S8x512x3 .f32) (x2 : Vec F S8x512 .f32) : Vec F S8x512 .f32 :=
  VS0.read (Elt F) (VS0.writes (Elt F) VS0.junk (kernelRun0_A c i arg2 harg2 arg3 harg3 arg4 harg4 arg5 harg5 arg6 harg6 hc0 hc1 x0 x1 x2).2.1)

def out0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i) (x0 x1 : Vec F S8x512x3 .f32) (x2 : Vec F S8x512 .f32) (xs : Vec F S8x512 .f32) : Vec F S8x512 .f32 :=
  VO0.read (Elt F) (VO0.writes (Elt F) VO0.junk (kernelRun0_B c i arg2 harg2 arg3 harg3 arg4 harg4 arg5 harg5 arg6 harg6 hc0 hc1 x0 x1 x2 xs).1)
theorem scover0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i) (x0 x1 : Vec F S8x512x3 .f32) (x2 : Vec F S8x512 .f32) (xs : Vec F S8x512 .f32) (y : S8x512.Idx) : ∃ pc ∈ (kernelRun0_B c i arg2 harg2 arg3 harg3 arg4 harg4 arg5 harg5 arg6 harg6 hc0 hc1 x0 x1 x2 xs).2.1, y ∈ pc.1.set :=
  View.cover_of_tiledL (kernelRun0_B c i arg2 harg2 arg3 harg3 arg4 harg4 arg5 harg5 arg6 harg6 hc0 hc1 x0 x1 x2 xs).2.1 S8x512.size (by sl_kernel_rfl) y
def sout0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i) (x0 x1 : Vec F S8x512x3 .f32) (x2 : Vec F S8x512 .f32) (xs : Vec F S8x512 .f32) : Vec F S8x512 .f32 :=
  VS0.read (Elt F) (VS0.writes (Elt F) VS0.junk (kernelRun0_B c i arg2 harg2 arg3 harg3 arg4 harg4 arg5 harg5 arg6 harg6 hc0 hc1 x0 x1 x2 xs).2.1)

theorem cover0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) (y : S8x512.Idx) : ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S8x512.size (by sl_kernel_rfl) y
def out0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) : Vec F S8x512 .f32 :=
  VO0.read (Elt F) (VO0.writes (Elt F) VO0.junk (kernelRun0_C c i arg2 harg2 arg3 harg3 arg4 harg4 arg5 harg5 arg6 harg6 hc0 hc1 x0 x1 x2 xs).1)
theorem scover0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) (y : S8x512.Idx) : ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S8x512.size (by sl_kernel_rfl) y
def sout0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) : Vec F S8x512 .f32 :=
  VS0.read (Elt F) (VS0.writes (Elt F) VS0.junk (kernelRun0_C c i arg2 harg2 arg3 harg3 arg4 harg4 arg5 harg5 arg6 harg6 hc0 hc1 x0 x1 x2 xs).2.1)

/-- The first branch is never taken together with the second: key tile 0 is not key tile 7. -/
theorem excl0 : ∀ t : Fin cfg0.N, cond0_0 (grid0.coords t) → ¬cond0_1 (grid0.coords t) := by decide +kernel

section Region0
variable (V : (c : Dev nD) → (b : Ref sig .tc) → Buf (Elt F) ((c : Thread nD τ).loc b))

/-! ## What the output's buffer and the scratch hold after each point -/

/-- One point: the case its coordinates select, run at the point's memrefs and input blocks, over what the
    point before left in the scratch (`prev`; unused where the running minimum is reset). The pair is
    (the output's staging buffer, the scratch). -/
def step0 (c : Dev nD) (t : Fin cfg0.N) (prev : Vec F S8x512 .f32) : Vec F S8x512 .f32 × Vec F S8x512 .f32 :=
  if h0 : cond0_0 (grid0.coords t) then
    (out0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t))
  else if h1 : cond0_1 (grid0.coords t) then
    (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev)
  else
    (out0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev)

/-- The accumulation over the grid's points in order. -/
def outsAt0 (c : Dev nD) : (n : ℕ) → n < cfg0.N → Vec F S8x512 .f32 × Vec F S8x512 .f32
  | 0, hn => step0 V c ⟨0, hn⟩ (VS0.read (Elt F) VS0.junk)
  | n + 1, hn => step0 V c ⟨n + 1, hn⟩ (outsAt0 c n (Nat.lt_of_succ_lt hn)).2

theorem outsAt0_zero (c : Dev nD) (hn : 0 < cfg0.N) : outsAt0 V c 0 hn = step0 V c ⟨0, hn⟩ (VS0.read (Elt F) VS0.junk) := rfl
theorem outsAt0_succ (c : Dev nD) (n : ℕ) (hn : n + 1 < cfg0.N) :
    outsAt0 V c (n + 1) hn = step0 V c ⟨n + 1, hn⟩ (outsAt0 V c n (Nat.lt_of_succ_lt hn)).2 := rfl
/-- At a point that is not the first the step runs over what the point before left. -/
theorem outsAt0_pos (c : Dev nD) (t : Fin cfg0.N) (hz : t.val ≠ 0) :
    outsAt0 V c t.val t.isLt = step0 V c t (outsAt0 V c (t.val - 1) (Nat.lt_of_le_of_lt (Nat.sub_le _ _) t.isLt)).2 := by
  obtain ⟨n, hn⟩ := t
  cases n with
  | zero => exact absurd rfl hz
  | succ n => rfl

theorem step0_A (c : Dev nD) (t : Fin cfg0.N) (prev : Vec F S8x512 .f32) (h0 : cond0_0 (grid0.coords t)) :
    step0 V c t prev = (out0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t)) := by
  unfold step0; exact dif_pos h0
theorem step0_C (c : Dev nD) (t : Fin cfg0.N) (prev : Vec F S8x512 .f32) (h0 : ¬cond0_0 (grid0.coords t)) (h1 : cond0_1 (grid0.coords t)) :
    step0 V c t prev = (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev) := by
  unfold step0; exact (dif_neg h0).trans (dif_pos h1)
theorem step0_B (c : Dev nD) (t : Fin cfg0.N) (prev : Vec F S8x512 .f32) (h0 : ¬cond0_0 (grid0.coords t)) (h1 : ¬cond0_1 (grid0.coords t)) :
    step0 V c t prev = (out0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev) := by
  unfold step0; exact (dif_neg h0).trans (dif_neg h1)

/-! ## The region's invariant: the scratch at what the point before left -/

/-- The core's scoped buffers other than this region's staging buffers and its scratch, each whole at some contents. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Before the first point the scratch holds anything; after point `n` what that point left in it. The other scoped
    buffers and the generator register ride along untouched. -/
def PhiS0 (c : Dev nD) : (n : ℕ) → n ≤ cfg0.N → sProp 𝕄
  | 0, _ => iprop((∃ d, owns (c : Thread nD τ) scM0 fullShare d) ∗ Rest0 c ∗ (∃ r, prngReg c r))
  | n + 1, hn => iprop(owns (c : Thread nD τ) scM0 fullShare ((outsAt0 V c n hn).2) ∗ Rest0 c ∗ (∃ r, prngReg c r))

theorem PhiS0_zero (c : Dev nD) (n : ℕ) (h : n ≤ cfg0.N) (hz : n = 0) :
    PhiS0 V c n h = iprop((∃ d, owns (c : Thread nD τ) scM0 fullShare d) ∗ Rest0 c ∗ (∃ r, prngReg c r)) := by
  subst hz; rfl
theorem PhiS0_succ (c : Dev nD) (n : ℕ) (hn : n < cfg0.N) :
    PhiS0 V c (n + 1) hn = iprop(owns (c : Thread nD τ) scM0 fullShare ((outsAt0 V c n hn).2) ∗ Rest0 c ∗ (∃ r, prngReg c r)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ Rest0 c ∗ (∃ r, prngReg c r)) := by
  cases n with
  | zero => exact absurd rfl hz
  | succ n => rfl

/-- What the launch hands the region — the generator register and the scoped buffers no window stages — is the
    invariant before the first point. -/
theorem PhiS0_in (c : Dev nD) (h : 0 ≤ cfg0.N) :
    iprop((∃ r, prngReg c r) ∗ Pipeline.scopedRest (Ix := Unit) (Name := ℕ) (U := UR sig nD τ) (Lvl := ℕ) (Val := Elt F) spec0 c) ⊢ PhiS0 V c 0 h := by
  rw [PhiS0_zero V c 0 h rfl, scopedRest0_eq]
  simp only [scM0, owns_whole]
  iintro ⟨Hp, ⟨HS, Hb1, Hb2, Hb3, Hb4, Hb5, Hb6, Hb7, Hb8, Hb9⟩⟩
  isplitl [HS]; · iexact HS
  isplitr [Hp]
  swap; · iexact Hp
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexact Hb9

/-- After any point the invariant gives them back, the scratch's named contents forgotten. -/
theorem PhiS0_out (c : Dev nD) (n : ℕ) (h : n ≤ cfg0.N) (hz : n ≠ 0) :
    PhiS0 V c n h ⊢ iprop((∃ r, prngReg c r) ∗ Pipeline.scopedRest (Ix := Unit) (Name := ℕ) (U := UR sig nD τ) (Lvl := ℕ) (Val := Elt F) spec0 c) := by
  rw [PhiS0_pos V c n h hz, scopedRest0_eq]
  simp only [scM0, owns_whole]
  iintro ⟨HS', ⟨Hb1, Hb2, Hb3, Hb4, Hb5, Hb6, Hb7, Hb8, Hb9⟩, Hp⟩
  isplitl [Hp]; · iexact Hp
  isplitl [HS']; · iexists _; iexact HS'
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexact Hb9

/-! ## The proof data -/

/-- The arrays as the region finds them; after the body at point `t` each input's buffer at its block and the output's at
    the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.Kernel.Fr

end
-- ==== Proof.KB_Body0.lean ====
/-
  Region 0's body obligation: at every grid point the kernel body, called with the windows' staging buffers and the
  region's invariant, runs to the same with each buffer at what the proof data say it holds after the point.
-/
import proofs.«150336_j34505767256624_1_alg».proof.Proof.KB_Data0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The accumulation at a point, by the point's case -/

theorem outsAt0_A (c : Dev nD) (t : Fin cfg0.N) (h0 : cond0_0 (grid0.coords t)) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t)) := by
  obtain ⟨n, hn⟩ := t
  cases n with
  | zero => exact step0_A V c ⟨0, hn⟩ _ h0
  | succ n => exact step0_A V c ⟨n + 1, hn⟩ _ h0
theorem outsAt0_B (c : Dev nD) (t : Fin cfg0.N) (h0 : ¬cond0_0 (grid0.coords t)) (h1 : ¬cond0_1 (grid0.coords t)) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd ((hcond0_0 ⟨0, hn⟩).mpr rfl) h0
  | succ n => exact step0_B V c ⟨n + 1, hn⟩ _ h0 h1
theorem outsAt0_C (c : Dev nD) (t : Fin cfg0.N) (h0 : ¬cond0_0 (grid0.coords t)) (h1 : cond0_1 (grid0.coords t)) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd ((hcond0_0 ⟨0, hn⟩).mpr rfl) h0
  | succ n => exact step0_C V c ⟨n + 1, hn⟩ _ h0 h1

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's coordinates select the case; the invariant hands
    the body the scratch at what the point before left (at anything before the first point) and takes it back at this
    point's contents; where the second branch is not taken the output's buffer goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS0_castSucc V c t]
  by_cases h0 : cond0_0 (grid0.coords t)
  · have h1 := excl0 t h0
    rw [Dat.leavesExact_idle (dat0 V c) 3 t (idleAt0_3 t h1) (noFlush0_3 t h1)]
    rw [outsAt0_A V c t h0]
    unfold sout0_A; (try dsimp only)
    by_cases hz : t.val = 0
    · rw [PhiS0_zero V c _ _ hz]
      iintro ⟨⟨HS, HR, Hg⟩, Ho, ⟨%d0, H0⟩, ⟨%d1, H1⟩, ⟨%d2, H2⟩, ⟨%d3, H3⟩⟩
      iapply ((kernelRun0_A c (grid0.coords t) _ _ _ _ _ _ _ _ _ _ h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover0_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
    · rw [PhiS0_pos V c _ _ hz]
      iintro ⟨⟨HS, HR, Hg⟩, Ho, ⟨%d0, H0⟩, ⟨%d1, H1⟩, ⟨%d2, H2⟩, ⟨%d3, H3⟩⟩
      iapply ((kernelRun0_A c (grid0.coords t) _ _ _ _ _ _ _ _ _ _ h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover0_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 ((hcond0_0 t).mpr (by rw [hz]))
    by_cases h1 : cond0_1 (grid0.coords t)
    · rw [show (dat0 V c).leavesExact 3 t = owns (c : Thread nD τ) (ms0_3 t) fullShare ((dat0 V c).after 3 t) from by
        unfold Dat.leavesExact; rw [liveAt0_3 t h1], after0_3]
      rw [outsAt0_C V c t h0 h1]
      unfold out0_C sout0_C; (try dsimp only)
      rw [PhiS0_pos V c _ _ hz]
      iintro ⟨⟨HS, HR, Hg⟩, Ho, ⟨%d0, H0⟩, ⟨%d1, H1⟩, ⟨%d2, H2⟩, ⟨%d3, H3⟩⟩
      iapply ((kernelRun0_C c (grid0.coords t) _ _ _ _ _ _ _ _ _ _ h0 h1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS]
        · unfold owns; iexists _; isplitr
          swap; · iexact HS
          ipureintro; exact View.read_writes_of_cover _ _ _ _ _ (scover0_C c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t h1) (noFlush0_3 t h1)]
      rw [outsAt0_B V c t h0 h1]
      unfold sout0_B; (try dsimp only)
      rw [PhiS0_pos V c _ _ hz]
      iintro ⟨⟨HS, HR, Hg⟩, Ho, ⟨%d0, H0⟩, ⟨%d1, H1⟩, ⟨%d2, H2⟩, ⟨%d3, H3⟩⟩
      iapply ((kernelRun0_B c (grid0.coords t) _ _ _ _ _ _ _ _ _ _ h0 h1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover0_B c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KB_Run1A.lean ====
/-
  The whole-body run of the nearest-neighbour kernel of region 1 in case A of its two branches.
-/
import proofs.«150336_j34505767256624_1_alg».proof.Proof.KB_Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of region 1's body (key tile 0: the running minimum is reset, then lowered by this tile's minimum; nothing is written out):
    on whole memrefs — the three inputs at their contents, the output handed back untouched, the scratch at anything —
    the body runs to the continuation holding the inputs as they were and each buffer it stored into with its stores
    written, as pieces (last first) that the symbolic run finds. -/
noncomputable def kernelRun1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i)
    (x0 x1 : Vec F S8x512x3 .f32) (x2 : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__nn_min_kernel i arg2 harg2 arg3 harg3 arg4 harg4 arg5 harg5 arg6 harg6) K } := by
  refine ⟨[], ?_, fun xi3 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%f3, %hf3, H3⟩, ⟨%d6, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.KB_Run1B.lean ====
/-
  The whole-body run of the nearest-neighbour kernel of region 1 in case B of its two branches.
-/
import proofs.«150336_j34505767256624_1_alg».proof.Proof.KB_Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of region 1's body (a middle key tile: the running minimum is lowered by this tile's minimum; nothing is written out):
    on whole memrefs — the three inputs at their contents, the output handed back untouched, the scratch at what the point before left —
    the body runs to the continuation holding the inputs as they were and each buffer it stored into with its stores
    written, as pieces (last first) that the symbolic run finds. -/
noncomputable def kernelRun1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__nn_min_kernel i arg2 harg2 arg3 harg3 arg4 harg4 arg5 harg5 arg6 harg6) K } := by
  refine ⟨[], ?_, fun xi3 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.KB_Run1C.lean ====
/-
  The whole-body run of the nearest-neighbour kernel of region 1 in case C of its two branches.
-/
import proofs.«150336_j34505767256624_1_alg».proof.Proof.KB_Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of region 1's body (the last key tile: the running minimum is lowered by this tile's minimum and written out):
    on whole memrefs — the three inputs at their contents, the output at anything, the scratch at what the point before left —
    the body runs to the continuation holding the inputs as they were and each buffer it stored into with its stores
    written, as pieces (last first) that the symbolic run finds. -/
noncomputable def kernelRun1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__nn_min_kernel i arg2 harg2 arg3 harg3 arg4 harg4 arg5 harg5 arg6 harg6) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Fr

end
-- ==== Proof.KB_Data1.lean ====
/-
  Region 1's proof data: what each case of the body leaves in the output's staging buffer and in the scratch that
  carries the running minimum (the pieces its run found, read back), the accumulation of these over the grid's
  points in order, the invariant that holds the scratch at what the point before left, and the record the
  pipeline's launch theorem takes.
-/
import proofs.«150336_j34505767256624_1_alg».proof.Proof.KB_Run1A
import proofs.«150336_j34505767256624_1_alg».proof.Proof.KB_Run1B
import proofs.«150336_j34505767256624_1_alg».proof.Proof.KB_Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 -/

/-! ## What each case leaves in the output's buffer and in the scratch: its pieces read back -/

def out1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i) (x0 x1 : Vec F S8x512x3 .f32) (x2 : Vec F S8x512 .f32) : Vec F S8x512 .f32 :=
  VO1.read (Elt F) (VO1.writes (Elt F) VO1.junk (kernelRun1_A c i arg2 harg2 arg3 harg3 arg4 harg4 arg5 harg5 arg6 harg6 hc0 hc1 x0 x1 x2).1)
theorem scover1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i) (x0 x1 : Vec F S8x512x3 .f32) (x2 : Vec F S8x512 .f32) (y : S8x512.Idx) : ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S8x512.size (by sl_kernel_rfl) y
def sout1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i) (x0 x1 : Vec F S8x512x3 .f32) (x2 : Vec F S8x512 .f32) : Vec F S8x512 .f32 :=
  VS1.read (Elt F) (VS1.writes (Elt F) VS1.junk (kernelRun1_A c i arg2 harg2 arg3 harg3 arg4 harg4 arg5 harg5 arg6 harg6 hc0 hc1 x0 x1 x2).2.1)

def out1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i) (x0 x1 : Vec F S8x512x3 .f32) (x2 : Vec F S8x512 .f32) (xs : Vec F S8x512 .f32) : Vec F S8x512 .f32 :=
  VO1.read (Elt F) (VO1.writes (Elt F) VO1.junk (kernelRun1_B c i arg2 harg2 arg3 harg3 arg4 harg4 arg5 harg5 arg6 harg6 hc0 hc1 x0 x1 x2 xs).1)
theorem scover1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i) (x0 x1 : Vec F S8x512x3 .f32) (x2 : Vec F S8x512 .f32) (xs : Vec F S8x512 .f32) (y : S8x512.Idx) : ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S8x512.size (by sl_kernel_rfl) y
def sout1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i) (x0 x1 : Vec F S8x512x3 .f32) (x2 : Vec F S8x512 .f32) (xs : Vec F S8x512 .f32) : Vec F S8x512 .f32 :=
  VS1.read (Elt F) (VS1.writes (Elt F) VS1.junk (kernelRun1_B c i arg2 harg2 arg3 harg3 arg4 harg4 arg5 harg5 arg6 harg6 hc0 hc1 x0 x1 x2 xs).2.1)

theorem cover1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) (y : S8x512.Idx) : ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S8x512.size (by sl_kernel_rfl) y
def out1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) : Vec F S8x512 .f32 :=
  VO1.read (Elt F) (VO1.writes (Elt F) VO1.junk (kernelRun1_C c i arg2 harg2 arg3 harg3 arg4 harg4 arg5 harg5 arg6 harg6 hc0 hc1 x0 x1 x2 xs).1)
theorem scover1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) (y : S8x512.Idx) : ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S8x512.size (by sl_kernel_rfl) y
def sout1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) : Vec F S8x512 .f32 :=
  VS1.read (Elt F) (VS1.writes (Elt F) VS1.junk (kernelRun1_C c i arg2 harg2 arg3 harg3 arg4 harg4 arg5 harg5 arg6 harg6 hc0 hc1 x0 x1 x2 xs).2.1)

/-- The first branch is never taken together with the second: key tile 0 is not key tile 7. -/
theorem excl1 : ∀ t : Fin cfg1.N, cond1_0 (grid1.coords t) → ¬cond1_1 (grid1.coords t) := by decide +kernel

section Region1
variable (V : (c : Dev nD) → (b : Ref sig .tc) → Buf (Elt F) ((c : Thread nD τ).loc b))

/-! ## What the output's buffer and the scratch hold after each point -/

/-- One point: the case its coordinates select, run at the point's memrefs and input blocks, over what the
    point before left in the scratch (`prev`; unused where the running minimum is reset). The pair is
    (the output's staging buffer, the scratch). -/
def step1 (c : Dev nD) (t : Fin cfg1.N) (prev : Vec F S8x512 .f32) : Vec F S8x512 .f32 × Vec F S8x512 .f32 :=
  if h0 : cond1_0 (grid1.coords t) then
    (out1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t))
  else if h1 : cond1_1 (grid1.coords t) then
    (out1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev)
  else
    (out1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev)

/-- The accumulation over the grid's points in order. -/
def outsAt1 (c : Dev nD) : (n : ℕ) → n < cfg1.N → Vec F S8x512 .f32 × Vec F S8x512 .f32
  | 0, hn => step1 V c ⟨0, hn⟩ (VS1.read (Elt F) VS1.junk)
  | n + 1, hn => step1 V c ⟨n + 1, hn⟩ (outsAt1 c n (Nat.lt_of_succ_lt hn)).2

theorem outsAt1_zero (c : Dev nD) (hn : 0 < cfg1.N) : outsAt1 V c 0 hn = step1 V c ⟨0, hn⟩ (VS1.read (Elt F) VS1.junk) := rfl
theorem outsAt1_succ (c : Dev nD) (n : ℕ) (hn : n + 1 < cfg1.N) :
    outsAt1 V c (n + 1) hn = step1 V c ⟨n + 1, hn⟩ (outsAt1 V c n (Nat.lt_of_succ_lt hn)).2 := rfl
/-- At a point that is not the first the step runs over what the point before left. -/
theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)).2 := by
  obtain ⟨n, hn⟩ := t
  cases n with
  | zero => exact absurd rfl hz
  | succ n => rfl

theorem step1_A (c : Dev nD) (t : Fin cfg1.N) (prev : Vec F S8x512 .f32) (h0 : cond1_0 (grid1.coords t)) :
    step1 V c t prev = (out1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t)) := by
  unfold step1; exact dif_pos h0
theorem step1_C (c : Dev nD) (t : Fin cfg1.N) (prev : Vec F S8x512 .f32) (h0 : ¬cond1_0 (grid1.coords t)) (h1 : cond1_1 (grid1.coords t)) :
    step1 V c t prev = (out1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev) := by
  unfold step1; exact (dif_neg h0).trans (dif_pos h1)
theorem step1_B (c : Dev nD) (t : Fin cfg1.N) (prev : Vec F S8x512 .f32) (h0 : ¬cond1_0 (grid1.coords t)) (h1 : ¬cond1_1 (grid1.coords t)) :
    step1 V c t prev = (out1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev) := by
  unfold step1; exact (dif_neg h0).trans (dif_neg h1)

/-! ## The region's invariant: the scratch at what the point before left -/

/-- The core's scoped buffers other than this region's staging buffers and its scratch, each whole at some contents. -/
abbrev Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- Before the first point the scratch holds anything; after point `n` what that point left in it. The other scoped
    buffers and the generator register ride along untouched. -/
def PhiS1 (c : Dev nD) : (n : ℕ) → n ≤ cfg1.N → sProp 𝕄
  | 0, _ => iprop((∃ d, owns (c : Thread nD τ) scM1 fullShare d) ∗ Rest1 c ∗ (∃ r, prngReg c r))
  | n + 1, hn => iprop(owns (c : Thread nD τ) scM1 fullShare ((outsAt1 V c n hn).2) ∗ Rest1 c ∗ (∃ r, prngReg c r))

theorem PhiS1_zero (c : Dev nD) (n : ℕ) (h : n ≤ cfg1.N) (hz : n = 0) :
    PhiS1 V c n h = iprop((∃ d, owns (c : Thread nD τ) scM1 fullShare d) ∗ Rest1 c ∗ (∃ r, prngReg c r)) := by
  subst hz; rfl
theorem PhiS1_succ (c : Dev nD) (n : ℕ) (hn : n < cfg1.N) :
    PhiS1 V c (n + 1) hn = iprop(owns (c : Thread nD τ) scM1 fullShare ((outsAt1 V c n hn).2) ∗ Rest1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ Rest1 c ∗ (∃ r, prngReg c r)) := by
  cases n with
  | zero => exact absurd rfl hz
  | succ n => rfl

/-- What the launch hands the region — the generator register and the scoped buffers no window stages — is the
    invariant before the first point. -/
theorem PhiS1_in (c : Dev nD) (h : 0 ≤ cfg1.N) :
    iprop((∃ r, prngReg c r) ∗ Pipeline.scopedRest (Ix := Unit) (Name := ℕ) (U := UR sig nD τ) (Lvl := ℕ) (Val := Elt F) spec1 c) ⊢ PhiS1 V c 0 h := by
  rw [PhiS1_zero V c 0 h rfl, scopedRest1_eq]
  simp only [scM1, owns_whole]
  iintro ⟨Hp, ⟨Hb0, Hb1, Hb2, Hb3, Hb4, Hb5, Hb6, Hb7, Hb8, HS⟩⟩
  isplitl [HS]; · iexact HS
  isplitr [Hp]
  swap; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  iexact Hb8

/-- After any point the invariant gives them back, the scratch's named contents forgotten. -/
theorem PhiS1_out (c : Dev nD) (n : ℕ) (h : n ≤ cfg1.N) (hz : n ≠ 0) :
    PhiS1 V c n h ⊢ iprop((∃ r, prngReg c r) ∗ Pipeline.scopedRest (Ix := Unit) (Name := ℕ) (U := UR sig nD τ) (Lvl := ℕ) (Val := Elt F) spec1 c) := by
  rw [PhiS1_pos V c n h hz, scopedRest1_eq]
  simp only [scM1, owns_whole]
  iintro ⟨HS', ⟨Hb0, Hb1, Hb2, Hb3, Hb4, Hb5, Hb6, Hb7, Hb8⟩, Hp⟩
  isplitl [Hp]; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexists _; iexact HS'

/-! ## The proof data -/

/-- The arrays as the region finds them; after the body at point `t` each input's buffer at its block and the output's at
    the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.Kernel.Fr

end
-- ==== Proof.KB_Body1.lean ====
/-
  Region 1's body obligation: at every grid point the kernel body, called with the windows' staging buffers and the
  region's invariant, runs to the same with each buffer at what the proof data say it holds after the point.
-/
import proofs.«150336_j34505767256624_1_alg».proof.Proof.KB_Data1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The accumulation at a point, by the point's case -/

theorem outsAt1_A (c : Dev nD) (t : Fin cfg1.N) (h0 : cond1_0 (grid1.coords t)) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t)) := by
  obtain ⟨n, hn⟩ := t
  cases n with
  | zero => exact step1_A V c ⟨0, hn⟩ _ h0
  | succ n => exact step1_A V c ⟨n + 1, hn⟩ _ h0
theorem outsAt1_B (c : Dev nD) (t : Fin cfg1.N) (h0 : ¬cond1_0 (grid1.coords t)) (h1 : ¬cond1_1 (grid1.coords t)) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd ((hcond1_0 ⟨0, hn⟩).mpr rfl) h0
  | succ n => exact step1_B V c ⟨n + 1, hn⟩ _ h0 h1
theorem outsAt1_C (c : Dev nD) (t : Fin cfg1.N) (h0 : ¬cond1_0 (grid1.coords t)) (h1 : cond1_1 (grid1.coords t)) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd ((hcond1_0 ⟨0, hn⟩).mpr rfl) h0
  | succ n => exact step1_C V c ⟨n + 1, hn⟩ _ h0 h1

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's coordinates select the case; the invariant hands
    the body the scratch at what the point before left (at anything before the first point) and takes it back at this
    point's contents; where the second branch is not taken the output's buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h0 : cond1_0 (grid1.coords t)
  · have h1 := excl1 t h0
    rw [Dat.leavesExact_idle (dat1 V c) 3 t (idleAt1_3 t h1) (noFlush1_3 t h1)]
    rw [outsAt1_A V c t h0]
    unfold sout1_A; (try dsimp only)
    by_cases hz : t.val = 0
    · rw [PhiS1_zero V c _ _ hz]
      iintro ⟨⟨HS, HR, Hg⟩, Ho, ⟨%d0, H0⟩, ⟨%d1, H1⟩, ⟨%d2, H2⟩, ⟨%d3, H3⟩⟩
      iapply ((kernelRun1_A c (grid1.coords t) _ _ _ _ _ _ _ _ _ _ h0 h1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
    · rw [PhiS1_pos V c _ _ hz]
      iintro ⟨⟨HS, HR, Hg⟩, Ho, ⟨%d0, H0⟩, ⟨%d1, H1⟩, ⟨%d2, H2⟩, ⟨%d3, H3⟩⟩
      iapply ((kernelRun1_A c (grid1.coords t) _ _ _ _ _ _ _ _ _ _ h0 h1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 ((hcond1_0 t).mpr (by rw [hz]))
    by_cases h1 : cond1_1 (grid1.coords t)
    · rw [show (dat1 V c).leavesExact 3 t = owns (c : Thread nD τ) (ms1_3 t) fullShare ((dat1 V c).after 3 t) from by
        unfold Dat.leavesExact; rw [liveAt1_3 t h1], after1_3]
      rw [outsAt1_C V c t h0 h1]
      unfold out1_C sout1_C; (try dsimp only)
      rw [PhiS1_pos V c _ _ hz]
      iintro ⟨⟨HS, HR, Hg⟩, Ho, ⟨%d0, H0⟩, ⟨%d1, H1⟩, ⟨%d2, H2⟩, ⟨%d3, H3⟩⟩
      iapply ((kernelRun1_C c (grid1.coords t) _ _ _ _ _ _ _ _ _ _ h0 h1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS]
        · unfold owns; iexists _; isplitr
          swap; · iexact HS
          ipureintro; exact View.read_writes_of_cover _ _ _ _ _ (scover1_C c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t h1) (noFlush1_3 t h1)]
      rw [outsAt1_B V c t h0 h1]
      unfold sout1_B; (try dsimp only)
      rw [PhiS1_pos V c _ _ hz]
      iintro ⟨⟨HS, HR, Hg⟩, Ho, ⟨%d0, H0⟩, ⟨%d1, H1⟩, ⟨%d2, H2⟩, ⟨%d3, H3⟩⟩
      iapply ((kernelRun1_B c (grid1.coords t) _ _ _ _ _ _ _ _ _ _ h0 h1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover1_B c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KB_Run.lean ====
/-
  The whole run of the program: its buffers' contents at every boundary between the host stretches and the two
  nearest-neighbour regions, as a fold from the launch memory; each region as a segment over the thread state "every
  unscoped buffer at the boundary's contents, the generator register at some state, nothing owed"; and the run itself:
  every weakly fair execution terminates with every unscoped buffer at the last boundary's contents.
-/
import proofs.«150336_j34505767256624_1_alg».proof.Proof.KB_Body0
import proofs.«150336_j34505767256624_1_alg».proof.Proof.KB_Body1
import proofs.«150336_j34505767256624_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- At region 0's exit: its arrays at what the pipeline leaves (the inputs as entered, the output's write-backs folded),
    every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

abbrev W4 : Dev nD → Valuation τ sig (Elt F) := fun c => StableHlo.after hostOps1 (W3 m c)
abbrev W5 : Dev nD → Valuation τ sig (Elt F) := fun c => StableHlo.after hostOps1_1 (W4 m c)
abbrev W6 : Dev nD → Valuation τ sig (Elt F) := fun c => StableHlo.after hostOps1_2 (W5 m c)
abbrev W7 : Dev nD → Valuation τ sig (Elt F) := fun c => StableHlo.after hostOps1_3 (W6 m c)
abbrev V7 : (c : Dev nD) → (b : Ref sig .tc) → Buf (Elt F) ((c : Thread nD τ).loc b) := fun c b => W7 m c b

/-- At region 1's exit: its arrays at what the pipeline leaves (the inputs as entered, the output's write-backs folded),
    every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

abbrev W9 : Dev nD → Valuation τ sig (Elt F) := fun c => StableHlo.after hostOps2 (W8 m c)
abbrev W10 : Dev nD → Valuation τ sig (Elt F) := fun c => StableHlo.after hostOps2_1 (W9 m c)
abbrev W11 : Dev nD → Valuation τ sig (Elt F) := fun c => StableHlo.after hostOps2_2 (W10 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 as a segment of @main: entered from every unscoped buffer at `W2`, left at `W3`. Its arrays are split out
    of the unscoped buffers and put back at the contents the pipeline leaves; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiS0 (V2 m) c 0 (Nat.zero_le _) from rfl]
    iintro ⟨Hp, -, Hr⟩
    iapply (PhiS0_in (V2 m) c (Nat.zero_le _))
    isplitl [Hp]; · iexact Hp
    iexact Hr
  hout c := by
    rw [Pipeline.ownSems0_none, show (pdats m 0 c).Φ (Fin.last _) = PhiS0 (V2 m) c cfg0.N (Nat.le_refl _) from rfl]
    iintro HΦ
    ihave H := (PhiS0_out (V2 m) c cfg0.N (Nat.le_refl _) (by rw [show cfg0.N = 64 from N_0]; decide)) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of @main: entered from every unscoped buffer at `W7`, left at `W8`. Its arrays are split out
    of the unscoped buffers and put back at the contents the pipeline leaves; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (V7 m) c 0 (Nat.zero_le _) from rfl]
    iintro ⟨Hp, -, Hr⟩
    iapply (PhiS1_in (V7 m) c (Nat.zero_le _))
    isplitl [Hp]; · iexact Hp
    iexact Hr
  hout c := by
    rw [Pipeline.ownSems0_none, show (pdats m 1 c).Φ (Fin.last _) = PhiS1 (V7 m) c cfg1.N (Nat.le_refl _) from rfl]
    iintro HΦ
    ihave H := (PhiS1_out (V7 m) c cfg1.N (Nat.le_refl _) (by rw [show cfg1.N = 64 from N_1]; decide)) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .host (hseg hostOps1_2 hostOps1_2_sub hostOps1_2_fresh (W5 m)),
    .host (hseg hostOps1_3 hostOps1_3_sub hostOps1_3_fresh (W6 m)),
    .region (reg1 m),
    .host (hseg hostOps2 hostOps2_sub hostOps2_fresh (W8 m)),
    .host (hseg hostOps2_1 hostOps2_1_sub hostOps2_1_fresh (W9 m)),
    .host (hseg hostOps2_2 hostOps2_2_sub hostOps2_2_fresh (W10 m)) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W11 m c))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m c) ∗ R c)
          ⊢ iprop(StableHlo.held (c : Thread nD τ) (Pipeline.ucRefs τ sig) (W11 m c) ∗ ∃ W, owes (c : Thread nD τ) (0 : CellTallies nD τ sig Unit) W)
        iintro ⟨Hh, ⟨-, HO⟩⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨Hh, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.Kernel.Fr

end
-- ==== Proof.KB_Kept.lean ====
/-
  No host stretch and no region writes an argument array: read through the fold of the boundaries' contents, each argument
  reaches the end as launched; so the run's post gives the frame claim. Also what the second region's entry and the last
  boundary hold of the buffers the first region and the first direction's tail wrote.
-/
import proofs.«150336_j34505767256624_1_alg».proof.Proof.KB_Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A host stretch leaves alone every buffer it does not write -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W4_of (c : Dev nD) (r : Ref sig .tc) (h : r ∉ hostOps1_W) : W4 m c r = W3 m c r :=
  StableHlo.after_of_writes_sub hostOps1 _ hostOps1_writes h
theorem W5_of (c : Dev nD) (r : Ref sig .tc) (h : r ∉ hostOps1_1_W) : W5 m c r = W4 m c r :=
  StableHlo.after_of_writes_sub hostOps1_1 _ hostOps1_1_writes h
theorem W6_of (c : Dev nD) (r : Ref sig .tc) (h : r ∉ hostOps1_2_W) : W6 m c r = W5 m c r :=
  StableHlo.after_of_writes_sub hostOps1_2 _ hostOps1_2_writes h
theorem W7_of (c : Dev nD) (r : Ref sig .tc) (h : r ∉ hostOps1_3_W) : W7 m c r = W6 m c r :=
  StableHlo.after_of_writes_sub hostOps1_3 _ hostOps1_3_writes h
theorem W9_of (c : Dev nD) (r : Ref sig .tc) (h : r ∉ hostOps2_W) : W9 m c r = W8 m c r :=
  StableHlo.after_of_writes_sub hostOps2 _ hostOps2_writes h
theorem W10_of (c : Dev nD) (r : Ref sig .tc) (h : r ∉ hostOps2_1_W) : W10 m c r = W9 m c r :=
  StableHlo.after_of_writes_sub hostOps2_1 _ hostOps2_1_writes h
theorem W11_of (c : Dev nD) (r : Ref sig .tc) (h : r ∉ hostOps2_2_W) : W11 m c r = W10 m c r :=
  StableHlo.after_of_writes_sub hostOps2_2 _ hostOps2_2_writes h

/-! ## A region leaves its input arrays and every buffer that is no array of its own as entered -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((dat0 (V2 m) c).arrAt_in w hw _).trans (A_eq0 (V2 m) c w))
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (V7 m) c).arrAt_in w hw _).trans (A_eq1 (V7 m) c w))

theorem W2_arg0 (c : Dev nD) : W2 m c main_arg0 = m ((c : Thread nD τ).loc main_arg0) := (W2_of m c main_arg0 (by decide)).trans ((W1_of m c main_arg0 (by decide)).trans rfl)
theorem W2_arg1 (c : Dev nD) : W2 m c main_arg1 = m ((c : Thread nD τ).loc main_arg1) := (W2_of m c main_arg1 (by decide)).trans ((W1_of m c main_arg1 (by decide)).trans rfl)
theorem W2_arg2 (c : Dev nD) : W2 m c main_arg2 = m ((c : Thread nD τ).loc main_arg2) := (W2_of m c main_arg2 (by decide)).trans ((W1_of m c main_arg2 (by decide)).trans rfl)
theorem W2_arg3 (c : Dev nD) : W2 m c main_arg3 = m ((c : Thread nD τ).loc main_arg3) := (W2_of m c main_arg3 (by decide)).trans ((W1_of m c main_arg3 (by decide)).trans rfl)

theorem W3_arg0 (c : Dev nD) : W3 m c main_arg0 = m ((c : Thread nD τ).loc main_arg0) := (W3_in m c 0 rfl).trans (W2_arg0 m c)
theorem W3_arg1 (c : Dev nD) : W3 m c main_arg1 = m ((c : Thread nD τ).loc main_arg1) := (W3_in m c 1 rfl).trans (W2_arg1 m c)
theorem W3_arg2 (c : Dev nD) : W3 m c main_arg2 = m ((c : Thread nD τ).loc main_arg2) := (W3_of_ne m c main_arg2 (by decide)).trans (W2_arg2 m c)
theorem W3_arg3 (c : Dev nD) : W3 m c main_arg3 = m ((c : Thread nD τ).loc main_arg3) := (W3_of_ne m c main_arg3 (by decide)).trans (W2_arg3 m c)

/-- The four host stretches between the regions leave a buffer none of them writes as the first region left it. -/
theorem W7_of' (c : Dev nD) (r : Ref sig .tc) (h1 : r ∉ hostOps1_W) (h2 : r ∉ hostOps1_1_W) (h3 : r ∉ hostOps1_2_W) (h4 : r ∉ hostOps1_3_W) :
    W7 m c r = W3 m c r :=
  (W7_of m c r h4).trans ((W6_of m c r h3).trans ((W5_of m c r h2).trans (W4_of m c r h1)))
theorem W7_arg0 (c : Dev nD) : W7 m c main_arg0 = m ((c : Thread nD τ).loc main_arg0) := (W7_of' m c main_arg0 (by decide) (by decide) (by decide) (by decide)).trans (W3_arg0 m c)
theorem W7_arg1 (c : Dev nD) : W7 m c main_arg1 = m ((c : Thread nD τ).loc main_arg1) := (W7_of' m c main_arg1 (by decide) (by decide) (by decide) (by decide)).trans (W3_arg1 m c)
theorem W7_arg2 (c : Dev nD) : W7 m c main_arg2 = m ((c : Thread nD τ).loc main_arg2) := (W7_of' m c main_arg2 (by decide) (by decide) (by decide) (by decide)).trans (W3_arg2 m c)
theorem W7_arg3 (c : Dev nD) : W7 m c main_arg3 = m ((c : Thread nD τ).loc main_arg3) := (W7_of' m c main_arg3 (by decide) (by decide) (by decide) (by decide)).trans (W3_arg3 m c)

theorem W8_arg0 (c : Dev nD) : W8 m c main_arg0 = m ((c : Thread nD τ).loc main_arg0) := (W8_in m c 1 rfl).trans (W7_arg0 m c)
theorem W8_arg1 (c : Dev nD) : W8 m c main_arg1 = m ((c : Thread nD τ).loc main_arg1) := (W8_in m c 0 rfl).trans (W7_arg1 m c)
theorem W8_arg2 (c : Dev nD) : W8 m c main_arg2 = m ((c : Thread nD τ).loc main_arg2) := (W8_of_ne m c main_arg2 (by decide)).trans (W7_arg2 m c)
theorem W8_arg3 (c : Dev nD) : W8 m c main_arg3 = m ((c : Thread nD τ).loc main_arg3) := (W8_of_ne m c main_arg3 (by decide)).trans (W7_arg3 m c)
theorem W8_v21 (c : Dev nD) : W8 m c main_v21 = W7 m c main_v21 := W8_of_ne m c main_v21 (by decide)

theorem W11_of' (c : Dev nD) (r : Ref sig .tc) (h1 : r ∉ hostOps2_W) (h2 : r ∉ hostOps2_1_W) (h3 : r ∉ hostOps2_2_W) :
    W11 m c r = W8 m c r :=
  (W11_of m c r h3).trans ((W10_of m c r h2).trans (W9_of m c r h1))
theorem W11_arg0 (c : Dev nD) : W11 m c main_arg0 = m ((c : Thread nD τ).loc main_arg0) := (W11_of' m c main_arg0 (by decide) (by decide) (by decide)).trans (W8_arg0 m c)
theorem W11_arg1 (c : Dev nD) : W11 m c main_arg1 = m ((c : Thread nD τ).loc main_arg1) := (W11_of' m c main_arg1 (by decide) (by decide) (by decide)).trans (W8_arg1 m c)
theorem W11_arg2 (c : Dev nD) : W11 m c main_arg2 = m ((c : Thread nD τ).loc main_arg2) := (W11_of' m c main_arg2 (by decide) (by decide) (by decide)).trans (W8_arg2 m c)
theorem W11_arg3 (c : Dev nD) : W11 m c main_arg3 = m ((c : Thread nD τ).loc main_arg3) := (W11_of' m c main_arg3 (by decide) (by decide) (by decide)).trans (W8_arg3 m c)

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_arg0 m c),
     (h c _ (mem_uc main_arg1 (by decide))).trans (W11_arg1 m c),
     (h c _ (mem_uc main_arg2 (by decide))).trans (W11_arg2 m c),
     (h c _ (mem_uc main_arg3 (by decide))).trans (W11_arg3 m c)⟩) (run_all m ρ)

end Cert.Kernel.Fr

end
-- ==== Proof.KI_Shared.lean ====
/-
  What the per-case runs of the two nearest-neighbour kernels are stated over: each window's block at a grid point, that an
  input's staging buffer holds its block at every point, the two branch conditions of the body decided over the
  8 × 8 grid (a point is 8·(query tile) + (key tile): the first branch at key tile 0, the second at key tile 7), where
  the output window is idle, and names for the staging and scratch memrefs.
-/
import proofs.«150336_j34505767256624_1_alg».proof.Proof.Gen.KernelIdeal.Launch
import proofs.«150336_j34505767256624_1_alg».proof.Proof.Gen.KernelIdeal.Skeleton
import proofs.«150336_j34505767256624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its runs are stated over -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not
    (unfetched, its index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first branch of the body (the running minimum is reset): taken when the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second branch (the running minimum is written out): taken when the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle; the output window is idle, and not written back, except where the
    second branch is taken. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The output window's contents are stated through one of its staging buffers, the scratch's through its own. -/
abbrev VO0 : View sig .tc .vmem S8x512 .f32 := (Memref.whole cc0_stg3_0 : Memref sig .tc .vmem S8x512 .f32).view
abbrev ms0_0 (t : Fin cfg0.N) : Memref sig .tc .vmem S8x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev scM0 : Memref sig .tc .vmem S8x512 .f32 := Memref.whole cc0_scratch0
abbrev VS0 : View sig .tc .vmem S8x512 .f32 := scM0.view

/-! # Region 1: what its runs are stated over -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not
    (unfetched, its index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first branch of the body (the running minimum is reset): taken when the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (the running minimum is written out): taken when the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, except where the
    second branch is taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The output window's contents are stated through one of its staging buffers, the scratch's through its own. -/
abbrev VO1 : View sig .tc .vmem S8x512 .f32 := (Memref.whole cc1_stg3_0 : Memref sig .tc .vmem S8x512 .f32).view
abbrev ms1_0 (t : Fin cfg1.N) : Memref sig .tc .vmem S8x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x512 .f32 := win1_3.stage (cfg1.slots t 3)
abbrev hs1_3 (t : Fin cfg1.N) : (ms1_3 t).IsWhole := hstage1_3 ((cfg1.slots t 3).cast nbuf1_3)
abbrev scM1 : Memref sig .tc .vmem S8x512 .f32 := Memref.whole cc1_scratch0
abbrev VS1 : View sig .tc .vmem S8x512 .f32 := scM1.view

end Cert.KernelIdeal.Fr

end
-- ==== Proof.KI_Run0A.lean ====
/-
  The whole-body run of the nearest-neighbour kernel of region 0 in case A of its two branches.
-/
import proofs.«150336_j34505767256624_1_alg».proof.Proof.KI_Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of region 0's body (key tile 0: the running minimum is reset, then lowered by this tile's minimum; nothing is written out):
    on whole memrefs — the three inputs at their contents, the output handed back untouched, the scratch at anything —
    the body runs to the continuation holding the inputs as they were and each buffer it stored into with its stores
    written, as pieces (last first) that the symbolic run finds. -/
noncomputable def kernelRun0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i)
    (x0 x1 : Vec F S8x512x3 .f32) (x2 : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__nn_min_kernel i arg2 harg2 arg3 harg3 arg4 harg4 arg5 harg5 arg6 harg6) K } := by
  refine ⟨[], ?_, fun xi3 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%f3, %hf3, H3⟩, ⟨%d6, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI_Run0B.lean ====
/-
  The whole-body run of the nearest-neighbour kernel of region 0 in case B of its two branches.
-/
import proofs.«150336_j34505767256624_1_alg».proof.Proof.KI_Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of region 0's body (a middle key tile: the running minimum is lowered by this tile's minimum; nothing is written out):
    on whole memrefs — the three inputs at their contents, the output handed back untouched, the scratch at what the point before left —
    the body runs to the continuation holding the inputs as they were and each buffer it stored into with its stores
    written, as pieces (last first) that the symbolic run finds. -/
noncomputable def kernelRun0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__nn_min_kernel i arg2 harg2 arg3 harg3 arg4 harg4 arg5 harg5 arg6 harg6) K } := by
  refine ⟨[], ?_, fun xi3 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI_Run0C.lean ====
/-
  The whole-body run of the nearest-neighbour kernel of region 0 in case C of its two branches.
-/
import proofs.«150336_j34505767256624_1_alg».proof.Proof.KI_Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of region 0's body (the last key tile: the running minimum is lowered by this tile's minimum and written out):
    on whole memrefs — the three inputs at their contents, the output at anything, the scratch at what the point before left —
    the body runs to the continuation holding the inputs as they were and each buffer it stored into with its stores
    written, as pieces (last first) that the symbolic run finds. -/
noncomputable def kernelRun0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__nn_min_kernel i arg2 harg2 arg3 harg3 arg4 harg4 arg5 harg5 arg6 harg6) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Fr

end
-- ==== Proof.KI_Data0.lean ====
/-
  Region 0's proof data: what each case of the body leaves in the output's staging buffer and in the scratch that
  carries the running minimum (the pieces its run found, read back), the accumulation of these over the grid's
  points in order, the invariant that holds the scratch at what the point before left, and the record the
  pipeline's launch theorem takes.
-/
import proofs.«150336_j34505767256624_1_alg».proof.Proof.KI_Run0A
import proofs.«150336_j34505767256624_1_alg».proof.Proof.KI_Run0B
import proofs.«150336_j34505767256624_1_alg».proof.Proof.KI_Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 -/

/-! ## What each case leaves in the output's buffer and in the scratch: its pieces read back -/

def out0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i) (x0 x1 : Vec F S8x512x3 .f32) (x2 : Vec F S8x512 .f32) : Vec F S8x512 .f32 :=
  VO0.read (Elt F) (VO0.writes (Elt F) VO0.junk (kernelRun0_A c i arg2 harg2 arg3 harg3 arg4 harg4 arg5 harg5 arg6 harg6 hc0 hc1 x0 x1 x2).1)
theorem scover0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i) (x0 x1 : Vec F S8x512x3 .f32) (x2 : Vec F S8x512 .f32) (y : S8x512.Idx) : ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S8x512.size (by sl_kernel_rfl) y
def sout0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i) (x0 x1 : Vec F S8x512x3 .f32) (x2 : Vec F S8x512 .f32) : Vec F S8x512 .f32 :=
  VS0.read (Elt F) (VS0.writes (Elt F) VS0.junk (kernelRun0_A c i arg2 harg2 arg3 harg3 arg4 harg4 arg5 harg5 arg6 harg6 hc0 hc1 x0 x1 x2).2.1)

def out0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i) (x0 x1 : Vec F S8x512x3 .f32) (x2 : Vec F S8x512 .f32) (xs : Vec F S8x512 .f32) : Vec F S8x512 .f32 :=
  VO0.read (Elt F) (VO0.writes (Elt F) VO0.junk (kernelRun0_B c i arg2 harg2 arg3 harg3 arg4 harg4 arg5 harg5 arg6 harg6 hc0 hc1 x0 x1 x2 xs).1)
theorem scover0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i) (x0 x1 : Vec F S8x512x3 .f32) (x2 : Vec F S8x512 .f32) (xs : Vec F S8x512 .f32) (y : S8x512.Idx) : ∃ pc ∈ (kernelRun0_B c i arg2 harg2 arg3 harg3 arg4 harg4 arg5 harg5 arg6 harg6 hc0 hc1 x0 x1 x2 xs).2.1, y ∈ pc.1.set :=
  View.cover_of_tiledL (kernelRun0_B c i arg2 harg2 arg3 harg3 arg4 harg4 arg5 harg5 arg6 harg6 hc0 hc1 x0 x1 x2 xs).2.1 S8x512.size (by sl_kernel_rfl) y
def sout0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i) (x0 x1 : Vec F S8x512x3 .f32) (x2 : Vec F S8x512 .f32) (xs : Vec F S8x512 .f32) : Vec F S8x512 .f32 :=
  VS0.read (Elt F) (VS0.writes (Elt F) VS0.junk (kernelRun0_B c i arg2 harg2 arg3 harg3 arg4 harg4 arg5 harg5 arg6 harg6 hc0 hc1 x0 x1 x2 xs).2.1)

theorem cover0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) (y : S8x512.Idx) : ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S8x512.size (by sl_kernel_rfl) y
def out0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) : Vec F S8x512 .f32 :=
  VO0.read (Elt F) (VO0.writes (Elt F) VO0.junk (kernelRun0_C c i arg2 harg2 arg3 harg3 arg4 harg4 arg5 harg5 arg6 harg6 hc0 hc1 x0 x1 x2 xs).1)
theorem scover0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) (y : S8x512.Idx) : ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S8x512.size (by sl_kernel_rfl) y
def sout0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) : Vec F S8x512 .f32 :=
  VS0.read (Elt F) (VS0.writes (Elt F) VS0.junk (kernelRun0_C c i arg2 harg2 arg3 harg3 arg4 harg4 arg5 harg5 arg6 harg6 hc0 hc1 x0 x1 x2 xs).2.1)

/-- The first branch is never taken together with the second: key tile 0 is not key tile 7. -/
theorem excl0 : ∀ t : Fin cfg0.N, cond0_0 (grid0.coords t) → ¬cond0_1 (grid0.coords t) := by decide +kernel

section Region0
variable (V : (c : Dev nD) → (b : Ref sig .tc) → Buf (Elt F) ((c : Thread nD τ).loc b))

/-! ## What the output's buffer and the scratch hold after each point -/

/-- One point: the case its coordinates select, run at the point's memrefs and input blocks, over what the
    point before left in the scratch (`prev`; unused where the running minimum is reset). The pair is
    (the output's staging buffer, the scratch). -/
def step0 (c : Dev nD) (t : Fin cfg0.N) (prev : Vec F S8x512 .f32) : Vec F S8x512 .f32 × Vec F S8x512 .f32 :=
  if h0 : cond0_0 (grid0.coords t) then
    (out0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t))
  else if h1 : cond0_1 (grid0.coords t) then
    (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev)
  else
    (out0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev)

/-- The accumulation over the grid's points in order. -/
def outsAt0 (c : Dev nD) : (n : ℕ) → n < cfg0.N → Vec F S8x512 .f32 × Vec F S8x512 .f32
  | 0, hn => step0 V c ⟨0, hn⟩ (VS0.read (Elt F) VS0.junk)
  | n + 1, hn => step0 V c ⟨n + 1, hn⟩ (outsAt0 c n (Nat.lt_of_succ_lt hn)).2

theorem outsAt0_zero (c : Dev nD) (hn : 0 < cfg0.N) : outsAt0 V c 0 hn = step0 V c ⟨0, hn⟩ (VS0.read (Elt F) VS0.junk) := rfl
theorem outsAt0_succ (c : Dev nD) (n : ℕ) (hn : n + 1 < cfg0.N) :
    outsAt0 V c (n + 1) hn = step0 V c ⟨n + 1, hn⟩ (outsAt0 V c n (Nat.lt_of_succ_lt hn)).2 := rfl
/-- At a point that is not the first the step runs over what the point before left. -/
theorem outsAt0_pos (c : Dev nD) (t : Fin cfg0.N) (hz : t.val ≠ 0) :
    outsAt0 V c t.val t.isLt = step0 V c t (outsAt0 V c (t.val - 1) (Nat.lt_of_le_of_lt (Nat.sub_le _ _) t.isLt)).2 := by
  obtain ⟨n, hn⟩ := t
  cases n with
  | zero => exact absurd rfl hz
  | succ n => rfl

theorem step0_A (c : Dev nD) (t : Fin cfg0.N) (prev : Vec F S8x512 .f32) (h0 : cond0_0 (grid0.coords t)) :
    step0 V c t prev = (out0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t)) := by
  unfold step0; exact dif_pos h0
theorem step0_C (c : Dev nD) (t : Fin cfg0.N) (prev : Vec F S8x512 .f32) (h0 : ¬cond0_0 (grid0.coords t)) (h1 : cond0_1 (grid0.coords t)) :
    step0 V c t prev = (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev) := by
  unfold step0; exact (dif_neg h0).trans (dif_pos h1)
theorem step0_B (c : Dev nD) (t : Fin cfg0.N) (prev : Vec F S8x512 .f32) (h0 : ¬cond0_0 (grid0.coords t)) (h1 : ¬cond0_1 (grid0.coords t)) :
    step0 V c t prev = (out0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) prev) := by
  unfold step0; exact (dif_neg h0).trans (dif_neg h1)

/-! ## The region's invariant: the scratch at what the point before left -/

/-- The core's scoped buffers other than this region's staging buffers and its scratch, each whole at some contents. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Before the first point the scratch holds anything; after point `n` what that point left in it. The other scoped
    buffers and the generator register ride along untouched. -/
def PhiS0 (c : Dev nD) : (n : ℕ) → n ≤ cfg0.N → sProp 𝕄
  | 0, _ => iprop((∃ d, owns (c : Thread nD τ) scM0 fullShare d) ∗ Rest0 c ∗ (∃ r, prngReg c r))
  | n + 1, hn => iprop(owns (c : Thread nD τ) scM0 fullShare ((outsAt0 V c n hn).2) ∗ Rest0 c ∗ (∃ r, prngReg c r))

theorem PhiS0_zero (c : Dev nD) (n : ℕ) (h : n ≤ cfg0.N) (hz : n = 0) :
    PhiS0 V c n h = iprop((∃ d, owns (c : Thread nD τ) scM0 fullShare d) ∗ Rest0 c ∗ (∃ r, prngReg c r)) := by
  subst hz; rfl
theorem PhiS0_succ (c : Dev nD) (n : ℕ) (hn : n < cfg0.N) :
    PhiS0 V c (n + 1) hn = iprop(owns (c : Thread nD τ) scM0 fullShare ((outsAt0 V c n hn).2) ∗ Rest0 c ∗ (∃ r, prngReg c r)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ Rest0 c ∗ (∃ r, prngReg c r)) := by
  cases n with
  | zero => exact absurd rfl hz
  | succ n => rfl

/-- What the launch hands the region — the generator register and the scoped buffers no window stages — is the
    invariant before the first point. -/
theorem PhiS0_in (c : Dev nD) (h : 0 ≤ cfg0.N) :
    iprop((∃ r, prngReg c r) ∗ Pipeline.scopedRest (Ix := Unit) (Name := ℕ) (U := UR sig nD τ) (Lvl := ℕ) (Val := Elt F) spec0 c) ⊢ PhiS0 V c 0 h := by
  rw [PhiS0_zero V c 0 h rfl, scopedRest0_eq]
  simp only [scM0, owns_whole]
  iintro ⟨Hp, ⟨HS, Hb1, Hb2, Hb3, Hb4, Hb5, Hb6, Hb7, Hb8, Hb9⟩⟩
  isplitl [HS]; · iexact HS
  isplitr [Hp]
  swap; · iexact Hp
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexact Hb9

/-- After any point the invariant gives them back, the scratch's named contents forgotten. -/
theorem PhiS0_out (c : Dev nD) (n : ℕ) (h : n ≤ cfg0.N) (hz : n ≠ 0) :
    PhiS0 V c n h ⊢ iprop((∃ r, prngReg c r) ∗ Pipeline.scopedRest (Ix := Unit) (Name := ℕ) (U := UR sig nD τ) (Lvl := ℕ) (Val := Elt F) spec0 c) := by
  rw [PhiS0_pos V c n h hz, scopedRest0_eq]
  simp only [scM0, owns_whole]
  iintro ⟨HS', ⟨Hb1, Hb2, Hb3, Hb4, Hb5, Hb6, Hb7, Hb8, Hb9⟩, Hp⟩
  isplitl [Hp]; · iexact Hp
  isplitl [HS']; · iexists _; iexact HS'
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexact Hb9

/-! ## The proof data -/

/-- The arrays as the region finds them; after the body at point `t` each input's buffer at its block and the output's at
    the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.KernelIdeal.Fr

end
-- ==== Proof.KI_Run1A.lean ====
/-
  The whole-body run of the nearest-neighbour kernel of region 1 in case A of its two branches.
-/
import proofs.«150336_j34505767256624_1_alg».proof.Proof.KI_Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of region 1's body (key tile 0: the running minimum is reset, then lowered by this tile's minimum; nothing is written out):
    on whole memrefs — the three inputs at their contents, the output handed back untouched, the scratch at anything —
    the body runs to the continuation holding the inputs as they were and each buffer it stored into with its stores
    written, as pieces (last first) that the symbolic run finds. -/
noncomputable def kernelRun1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i)
    (x0 x1 : Vec F S8x512x3 .f32) (x2 : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__nn_min_kernel i arg2 harg2 arg3 harg3 arg4 harg4 arg5 harg5 arg6 harg6) K } := by
  refine ⟨[], ?_, fun xi3 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%f3, %hf3, H3⟩, ⟨%d6, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI_Run1B.lean ====
/-
  The whole-body run of the nearest-neighbour kernel of region 1 in case B of its two branches.
-/
import proofs.«150336_j34505767256624_1_alg».proof.Proof.KI_Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of region 1's body (a middle key tile: the running minimum is lowered by this tile's minimum; nothing is written out):
    on whole memrefs — the three inputs at their contents, the output handed back untouched, the scratch at what the point before left —
    the body runs to the continuation holding the inputs as they were and each buffer it stored into with its stores
    written, as pieces (last first) that the symbolic run finds. -/
noncomputable def kernelRun1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (xi3 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__nn_min_kernel i arg2 harg2 arg3 harg3 arg4 harg4 arg5 harg5 arg6 harg6) K } := by
  refine ⟨[], ?_, fun xi3 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI_Run1C.lean ====
/-
  The whole-body run of the nearest-neighbour kernel of region 1 in case C of its two branches.
-/
import proofs.«150336_j34505767256624_1_alg».proof.Proof.KI_Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of region 1's body (the last key tile: the running minimum is lowered by this tile's minimum and written out):
    on whole memrefs — the three inputs at their contents, the output at anything, the scratch at what the point before left —
    the body runs to the continuation holding the inputs as they were and each buffer it stored into with its stores
    written, as pieces (last first) that the symbolic run finds. -/
noncomputable def kernelRun1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i)
    (x0 x1 : Vec F S8x512x3 .f32) (x2 : Vec F S8x512 .f32) (xs : Vec F S8x512 .f32) :
    Σ' (L3 : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__nn_min_kernel i arg2 harg2 arg3 harg3 arg4 harg4 arg5 harg5 arg6 harg6) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Fr

end
-- ==== Proof.KI_Data1.lean ====
/-
  Region 1's proof data: what each case of the body leaves in the output's staging buffer and in the scratch that
  carries the running minimum (the pieces its run found, read back), the accumulation of these over the grid's
  points in order, the invariant that holds the scratch at what the point before left, and the record the
  pipeline's launch theorem takes.
-/
import proofs.«150336_j34505767256624_1_alg».proof.Proof.KI_Run1A
import proofs.«150336_j34505767256624_1_alg».proof.Proof.KI_Run1B
import proofs.«150336_j34505767256624_1_alg».proof.Proof.KI_Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 -/

/-! ## What each case leaves in the output's buffer and in the scratch: its pieces read back -/

def out1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i) (x0 x1 : Vec F S8x512x3 .f32) (x2 : Vec F S8x512 .f32) : Vec F S8x512 .f32 :=
  VO1.read (Elt F) (VO1.writes (Elt F) VO1.junk (kernelRun1_A c i arg2 harg2 arg3 harg3 arg4 harg4 arg5 harg5 arg6 harg6 hc0 hc1 x0 x1 x2).1)
theorem scover1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i) (x0 x1 : Vec F S8x512x3 .f32) (x2 : Vec F S8x512 .f32) (y : S8x512.Idx) : ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S8x512.size (by sl_kernel_rfl) y
def sout1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i) (x0 x1 : Vec F S8x512x3 .f32) (x2 : Vec F S8x512 .f32) : Vec F S8x512 .f32 :=
  VS1.read (Elt F) (VS1.writes (Elt F) VS1.junk (kernelRun1_A c i arg2 harg2 arg3 harg3 arg4 harg4 arg5 harg5 arg6 harg6 hc0 hc1 x0 x1 x2).2.1)

def out1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i) (x0 x1 : Vec F S8x512x3 .f32) (x2 : Vec F S8x512 .f32) (xs : Vec F S8x512 .f32) : Vec F S8x512 .f32 :=
  VO1.read (Elt F) (VO1.writes (Elt F) VO1.junk (kernelRun1_B c i arg2 harg2 arg3 harg3 arg4 harg4 arg5 harg5 arg6 harg6 hc0 hc1 x0 x1 x2 xs).1)
theorem scover1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i) (x0 x1 : Vec F S8x512x3 .f32) (x2 : Vec F S8x512 .f32) (xs : Vec F S8x512 .f32) (y : S8x512.Idx) : ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S8x512.size (by sl_kernel_rfl) y
def sout1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i) (x0 x1 : Vec F S8x512x3 .f32) (x2 : Vec F S8x512 .f32) (xs : Vec F S8x512 .f32) : Vec F S8x512 .f32 :=
  VS1.read (Elt F) (VS1.writes (Elt F) VS1.junk (kernelRun1_B c i arg2 harg2 arg3 harg3 arg4 harg4 arg5 harg5 arg6 harg6 hc0 hc1 x0 x1 x2 xs).2.1)

theorem cover1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) (y : S8x512.Idx) : ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S8x512.size (by sl_kernel_rfl) y
def out1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) : Vec F S8x512 .f32 :=
  VO1.read (Elt F) (VO1.writes (Elt F) VO1.junk (kernelRun1_C c i arg2 harg2 arg3 harg3 arg4 harg4 arg5 harg5 arg6 harg6 hc0 hc1 x0 x1 x2 xs).1)
theorem scover1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) (y : S8x512.Idx) : ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S8x512.size (by sl_kernel_rfl) y
def sout1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) : Vec F S8x512 .f32 :=
  VS1.read (Elt F) (VS1.writes (Elt F) VS1.junk (kernelRun1_C c i arg2 harg2 arg3 harg3 arg4 harg4 arg5 harg5 arg6 harg6 hc0 hc1 x0 x1 x2 xs).2.1)

/-- The first branch is never taken together with the second: key tile 0 is not key tile 7. -/
theorem excl1 : ∀ t : Fin cfg1.N, cond1_0 (grid1.coords t) → ¬cond1_1 (grid1.coords t) := by decide +kernel

section Region1
variable (V : (c : Dev nD) → (b : Ref sig .tc) → Buf (Elt F) ((c : Thread nD τ).loc b))

/-! ## What the output's buffer and the scratch hold after each point -/

/-- One point: the case its coordinates select, run at the point's memrefs and input blocks, over what the
    point before left in the scratch (`prev`; unused where the running minimum is reset). The pair is
    (the output's staging buffer, the scratch). -/
def step1 (c : Dev nD) (t : Fin cfg1.N) (prev : Vec F S8x512 .f32) : Vec F S8x512 .f32 × Vec F S8x512 .f32 :=
  if h0 : cond1_0 (grid1.coords t) then
    (out1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t))
  else if h1 : cond1_1 (grid1.coords t) then
    (out1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev)
  else
    (out1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev)

/-- The accumulation over the grid's points in order. -/
def outsAt1 (c : Dev nD) : (n : ℕ) → n < cfg1.N → Vec F S8x512 .f32 × Vec F S8x512 .f32
  | 0, hn => step1 V c ⟨0, hn⟩ (VS1.read (Elt F) VS1.junk)
  | n + 1, hn => step1 V c ⟨n + 1, hn⟩ (outsAt1 c n (Nat.lt_of_succ_lt hn)).2

theorem outsAt1_zero (c : Dev nD) (hn : 0 < cfg1.N) : outsAt1 V c 0 hn = step1 V c ⟨0, hn⟩ (VS1.read (Elt F) VS1.junk) := rfl
theorem outsAt1_succ (c : Dev nD) (n : ℕ) (hn : n + 1 < cfg1.N) :
    outsAt1 V c (n + 1) hn = step1 V c ⟨n + 1, hn⟩ (outsAt1 V c n (Nat.lt_of_succ_lt hn)).2 := rfl
/-- At a point that is not the first the step runs over what the point before left. -/
theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)).2 := by
  obtain ⟨n, hn⟩ := t
  cases n with
  | zero => exact absurd rfl hz
  | succ n => rfl

theorem step1_A (c : Dev nD) (t : Fin cfg1.N) (prev : Vec F S8x512 .f32) (h0 : cond1_0 (grid1.coords t)) :
    step1 V c t prev = (out1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t)) := by
  unfold step1; exact dif_pos h0
theorem step1_C (c : Dev nD) (t : Fin cfg1.N) (prev : Vec F S8x512 .f32) (h0 : ¬cond1_0 (grid1.coords t)) (h1 : cond1_1 (grid1.coords t)) :
    step1 V c t prev = (out1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev) := by
  unfold step1; exact (dif_neg h0).trans (dif_pos h1)
theorem step1_B (c : Dev nD) (t : Fin cfg1.N) (prev : Vec F S8x512 .f32) (h0 : ¬cond1_0 (grid1.coords t)) (h1 : ¬cond1_1 (grid1.coords t)) :
    step1 V c t prev = (out1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev, sout1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) prev) := by
  unfold step1; exact (dif_neg h0).trans (dif_neg h1)

/-! ## The region's invariant: the scratch at what the point before left -/

/-- The core's scoped buffers other than this region's staging buffers and its scratch, each whole at some contents. -/
abbrev Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- Before the first point the scratch holds anything; after point `n` what that point left in it. The other scoped
    buffers and the generator register ride along untouched. -/
def PhiS1 (c : Dev nD) : (n : ℕ) → n ≤ cfg1.N → sProp 𝕄
  | 0, _ => iprop((∃ d, owns (c : Thread nD τ) scM1 fullShare d) ∗ Rest1 c ∗ (∃ r, prngReg c r))
  | n + 1, hn => iprop(owns (c : Thread nD τ) scM1 fullShare ((outsAt1 V c n hn).2) ∗ Rest1 c ∗ (∃ r, prngReg c r))

theorem PhiS1_zero (c : Dev nD) (n : ℕ) (h : n ≤ cfg1.N) (hz : n = 0) :
    PhiS1 V c n h = iprop((∃ d, owns (c : Thread nD τ) scM1 fullShare d) ∗ Rest1 c ∗ (∃ r, prngReg c r)) := by
  subst hz; rfl
theorem PhiS1_succ (c : Dev nD) (n : ℕ) (hn : n < cfg1.N) :
    PhiS1 V c (n + 1) hn = iprop(owns (c : Thread nD τ) scM1 fullShare ((outsAt1 V c n hn).2) ∗ Rest1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ Rest1 c ∗ (∃ r, prngReg c r)) := by
  cases n with
  | zero => exact absurd rfl hz
  | succ n => rfl

/-- What the launch hands the region — the generator register and the scoped buffers no window stages — is the
    invariant before the first point. -/
theorem PhiS1_in (c : Dev nD) (h : 0 ≤ cfg1.N) :
    iprop((∃ r, prngReg c r) ∗ Pipeline.scopedRest (Ix := Unit) (Name := ℕ) (U := UR sig nD τ) (Lvl := ℕ) (Val := Elt F) spec1 c) ⊢ PhiS1 V c 0 h := by
  rw [PhiS1_zero V c 0 h rfl, scopedRest1_eq]
  simp only [scM1, owns_whole]
  iintro ⟨Hp, ⟨Hb0, Hb1, Hb2, Hb3, Hb4, Hb5, Hb6, Hb7, Hb8, HS⟩⟩
  isplitl [HS]; · iexact HS
  isplitr [Hp]
  swap; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  iexact Hb8

/-- After any point the invariant gives them back, the scratch's named contents forgotten. -/
theorem PhiS1_out (c : Dev nD) (n : ℕ) (h : n ≤ cfg1.N) (hz : n ≠ 0) :
    PhiS1 V c n h ⊢ iprop((∃ r, prngReg c r) ∗ Pipeline.scopedRest (Ix := Unit) (Name := ℕ) (U := UR sig nD τ) (Lvl := ℕ) (Val := Elt F) spec1 c) := by
  rw [PhiS1_pos V c n h hz, scopedRest1_eq]
  simp only [scM1, owns_whole]
  iintro ⟨HS', ⟨Hb0, Hb1, Hb2, Hb3, Hb4, Hb5, Hb6, Hb7, Hb8⟩, Hp⟩
  isplitl [Hp]; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexists _; iexact HS'

/-! ## The proof data -/

/-- The arrays as the region finds them; after the body at point `t` each input's buffer at its block and the output's at
    the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.KernelIdeal.Fr

end
-- ==== Proof.KI_Pieces.lean ====
/-
  What the pieces found by the per-case runs are: in every case the scratch ends at the body's one arithmetic term
  (the running minimum lowered by the tile's minimum) of the three input blocks and of what the scratch held — +∞ at key
  tile 0 — and at the last key tile the output's buffer holds the same.
-/
import proofs.«150336_j34505767256624_1_alg».proof.Proof.KI_Data0
import proofs.«150336_j34505767256624_1_alg».proof.Proof.KI_Data1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Region 0: what each case's pieces are, as the body's arithmetic -/

/-- Key tile 0: the scratch ends at the body's arithmetic over +∞ (the reset running minimum). -/
theorem sout0_A_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i) (x0 x1 : Vec F S8x512x3 .f32) (x2 : Vec F S8x512 .f32) : sout0_A c i arg2 harg2 arg3 harg3 arg4 harg4 arg5 harg5 arg6 harg6 hc0 hc1 x0 x1 x2 = k0_pay2 x0 x1 x2 (k0_pay1) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero hz2]
  simp only [View.readCov_unit_zero (S := S8x512) _ hz2]
  simp only [View.readAt_eq_ld, harg2.read_unread, harg3.read_unread, harg4.read_unread, harg6.read_unread, View.ld_unit_zero (S := S8x512x3) hz3, View.ld_unit_zero (S := S8x512) hz2]

/-- A middle key tile: the scratch ends at the body's arithmetic over what the point before left. -/
theorem sout0_B_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i) (x0 x1 : Vec F S8x512x3 .f32) (x2 : Vec F S8x512 .f32) (xs : Vec F S8x512 .f32) : sout0_B c i arg2 harg2 arg3 harg3 arg4 harg4 arg5 harg5 arg6 harg6 hc0 hc1 x0 x1 x2 xs = k0_pay2 x0 x1 x2 xs := by
  unfold sout0_B
  rw [View.read_writes_eq_canon _ _ _ (scover0_B c i arg2 harg2 arg3 harg3 arg4 harg4 arg5 harg5 arg6 harg6 hc0 hc1 x0 x1 x2 xs)]
  unfold kernelRun0_B
  dsimp only
  sl_unfold_words
  rw [View.canon_unit_zero hz2]
  simp only [View.readAt_eq_ld, harg2.read_unread, harg3.read_unread, harg4.read_unread, harg6.read_unread, View.ld_unit_zero (S := S8x512x3) hz3, View.ld_unit_zero (S := S8x512) hz2]

/-- The last key tile: the scratch likewise, and the output's buffer holds the same. -/
theorem sout0_C_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) : sout0_C c i arg2 harg2 arg3 harg3 arg4 harg4 arg5 harg5 arg6 harg6 hc0 hc1 x0 x1 x2 xs = k0_pay2 x0 x1 x2 xs := by
  unfold sout0_C
  rw [View.read_writes_eq_canon _ _ _ (scover0_C c i arg2 harg2 arg3 harg3 arg4 harg4 arg5 harg5 arg6 harg6 hc0 hc1 x0 x1 x2 xs)]
  unfold kernelRun0_C
  dsimp only
  sl_unfold_words
  rw [View.canon_unit_zero hz2]
  simp only [View.readAt_eq_ld, harg2.read_unread, harg3.read_unread, harg4.read_unread, harg6.read_unread, View.ld_unit_zero (S := S8x512x3) hz3, View.ld_unit_zero (S := S8x512) hz2]
theorem out0_C_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i) (x0 x1 : Vec F S8x512x3 .f32) (x2 : Vec F S8x512 .f32) (xs : Vec F S8x512 .f32) : out0_C c i arg2 harg2 arg3 harg3 arg4 harg4 arg5 harg5 arg6 harg6 hc0 hc1 x0 x1 x2 xs = k0_pay2 x0 x1 x2 xs := by
  unfold out0_C
  rw [View.read_writes_eq_canon _ _ _ (cover0_C c i arg2 harg2 arg3 harg3 arg4 harg4 arg5 harg5 arg6 harg6 hc0 hc1 x0 x1 x2 xs)]
  unfold kernelRun0_C
  dsimp only
  sl_unfold_words
  rw [View.canon_unit_zero hz2]
  simp only [View.readCov_unit_zero (S := S8x512) _ hz2]
  simp only [View.readAt_eq_ld, harg2.read_unread, harg3.read_unread, harg4.read_unread, harg6.read_unread, View.ld_unit_zero (S := S8x512x3) hz3, View.ld_unit_zero (S := S8x512) hz2]

/-! ## Region 1: what each case's pieces are, as the body's arithmetic -/

/-- Key tile 0: the scratch ends at the body's arithmetic over +∞ (the reset running minimum). -/
theorem sout1_A_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : cond1_0 i) (hc1 : ¬cond1_1 i) (x0 x1 : Vec F S8x512x3 .f32) (x2 : Vec F S8x512 .f32) : sout1_A c i arg2 harg2 arg3 harg3 arg4 harg4 arg5 harg5 arg6 harg6 hc0 hc1 x0 x1 x2 = k1_pay2 x0 x1 x2 (k1_pay1) := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero hz2]
  simp only [View.readCov_unit_zero (S := S8x512) _ hz2]
  simp only [View.readAt_eq_ld, harg2.read_unread, harg3.read_unread, harg4.read_unread, harg6.read_unread, View.ld_unit_zero (S := S8x512x3) hz3, View.ld_unit_zero (S := S8x512) hz2]

/-- A middle key tile: the scratch ends at the body's arithmetic over what the point before left. -/
theorem sout1_B_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : ¬cond1_1 i) (x0 x1 : Vec F S8x512x3 .f32) (x2 : Vec F S8x512 .f32) (xs : Vec F S8x512 .f32) : sout1_B c i arg2 harg2 arg3 harg3 arg4 harg4 arg5 harg5 arg6 harg6 hc0 hc1 x0 x1 x2 xs = k1_pay2 x0 x1 x2 xs := by
  unfold sout1_B
  rw [View.read_writes_eq_canon _ _ _ (scover1_B c i arg2 harg2 arg3 harg3 arg4 harg4 arg5 harg5 arg6 harg6 hc0 hc1 x0 x1 x2 xs)]
  unfold kernelRun1_B
  dsimp only
  sl_unfold_words
  rw [View.canon_unit_zero hz2]
  simp only [View.readAt_eq_ld, harg2.read_unread, harg3.read_unread, harg4.read_unread, harg6.read_unread, View.ld_unit_zero (S := S8x512x3) hz3, View.ld_unit_zero (S := S8x512) hz2]

/-- The last key tile: the scratch likewise, and the output's buffer holds the same. -/
theorem sout1_C_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) : sout1_C c i arg2 harg2 arg3 harg3 arg4 harg4 arg5 harg5 arg6 harg6 hc0 hc1 x0 x1 x2 xs = k1_pay2 x0 x1 x2 xs := by
  unfold sout1_C
  rw [View.read_writes_eq_canon _ _ _ (scover1_C c i arg2 harg2 arg3 harg3 arg4 harg4 arg5 harg5 arg6 harg6 hc0 hc1 x0 x1 x2 xs)]
  unfold kernelRun1_C
  dsimp only
  sl_unfold_words
  rw [View.canon_unit_zero hz2]
  simp only [View.readAt_eq_ld, harg2.read_unread, harg3.read_unread, harg4.read_unread, harg6.read_unread, View.ld_unit_zero (S := S8x512x3) hz3, View.ld_unit_zero (S := S8x512) hz2]
theorem out1_C_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (hc0 : ¬cond1_0 i) (hc1 : cond1_1 i) (x0 x1 : Vec F S8x512x3 .f32) (x2 : Vec F S8x512 .f32) (xs : Vec F S8x512 .f32) : out1_C c i arg2 harg2 arg3 harg3 arg4 harg4 arg5 harg5 arg6 harg6 hc0 hc1 x0 x1 x2 xs = k1_pay2 x0 x1 x2 xs := by
  unfold out1_C
  rw [View.read_writes_eq_canon _ _ _ (cover1_C c i arg2 harg2 arg3 harg3 arg4 harg4 arg5 harg5 arg6 harg6 hc0 hc1 x0 x1 x2 xs)]
  unfold kernelRun1_C
  dsimp only
  sl_unfold_words
  rw [View.canon_unit_zero hz2]
  simp only [View.readCov_unit_zero (S := S8x512) _ hz2]
  simp only [View.readAt_eq_ld, harg2.read_unread, harg3.read_unread, harg4.read_unread, harg6.read_unread, View.ld_unit_zero (S := S8x512x3) hz3, View.ld_unit_zero (S := S8x512) hz2]

end Cert.KernelIdeal.Fr

end
-- ==== Proof.KI_Body0.lean ====
/-
  Region 0's body obligation: at every grid point the kernel body, called with the windows' staging buffers and the
  region's invariant, runs to the same with each buffer at what the proof data say it holds after the point.
-/
import proofs.«150336_j34505767256624_1_alg».proof.Proof.KI_Data0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The accumulation at a point, by the point's case -/

theorem outsAt0_A (c : Dev nD) (t : Fin cfg0.N) (h0 : cond0_0 (grid0.coords t)) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) h0 (excl0 t h0) (iblk0 V c 0 t) (iblk0 V c 1 t) (iblk0 V c 2 t)) := by
  obtain ⟨n, hn⟩ := t
  cases n with
  | zero => exact step0_A V c ⟨0, hn⟩ _ h0
  | succ n => exact step0_A V c ⟨n + 1, hn⟩ _ h0
theorem outsAt0_B (c : Dev nD) (t : Fin cfg0.N) (h0 : ¬cond0_0 (grid0.coords t)) (h1 : ¬cond0_1 (grid0.coords t)) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd ((hcond0_0 ⟨0, hn⟩).mpr rfl) h0
  | succ n => exact step0_B V c ⟨n + 1, hn⟩ _ h0 h1
theorem outsAt0_C (c : Dev nD) (t : Fin cfg0.N) (h0 : ¬cond0_0 (grid0.coords t)) (h1 : cond0_1 (grid0.coords t)) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd ((hcond0_0 ⟨0, hn⟩).mpr rfl) h0
  | succ n => exact step0_C V c ⟨n + 1, hn⟩ _ h0 h1

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's coordinates select the case; the invariant hands
    the body the scratch at what the point before left (at anything before the first point) and takes it back at this
    point's contents; where the second branch is not taken the output's buffer goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS0_castSucc V c t]
  by_cases h0 : cond0_0 (grid0.coords t)
  · have h1 := excl0 t h0
    rw [Dat.leavesExact_idle (dat0 V c) 3 t (idleAt0_3 t h1) (noFlush0_3 t h1)]
    rw [outsAt0_A V c t h0]
    unfold sout0_A; (try dsimp only)
    by_cases hz : t.val = 0
    · rw [PhiS0_zero V c _ _ hz]
      iintro ⟨⟨HS, HR, Hg⟩, Ho, ⟨%d0, H0⟩, ⟨%d1, H1⟩, ⟨%d2, H2⟩, ⟨%d3, H3⟩⟩
      iapply ((kernelRun0_A c (grid0.coords t) _ _ _ _ _ _ _ _ _ _ h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover0_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
    · rw [PhiS0_pos V c _ _ hz]
      iintro ⟨⟨HS, HR, Hg⟩, Ho, ⟨%d0, H0⟩, ⟨%d1, H1⟩, ⟨%d2, H2⟩, ⟨%d3, H3⟩⟩
      iapply ((kernelRun0_A c (grid0.coords t) _ _ _ _ _ _ _ _ _ _ h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover0_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 ((hcond0_0 t).mpr (by rw [hz]))
    by_cases h1 : cond0_1 (grid0.coords t)
    · rw [show (dat0 V c).leavesExact 3 t = owns (c : Thread nD τ) (ms0_3 t) fullShare ((dat0 V c).after 3 t) from by
        unfold Dat.leavesExact; rw [liveAt0_3 t h1], after0_3]
      rw [outsAt0_C V c t h0 h1]
      unfold out0_C sout0_C; (try dsimp only)
      rw [PhiS0_pos V c _ _ hz]
      iintro ⟨⟨HS, HR, Hg⟩, Ho, ⟨%d0, H0⟩, ⟨%d1, H1⟩, ⟨%d2, H2⟩, ⟨%d3, H3⟩⟩
      iapply ((kernelRun0_C c (grid0.coords t) _ _ _ _ _ _ _ _ _ _ h0 h1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS]
        · unfold owns; iexists _; isplitr
          swap; · iexact HS
          ipureintro; exact View.read_writes_of_cover _ _ _ _ _ (scover0_C c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t h1) (noFlush0_3 t h1)]
      rw [outsAt0_B V c t h0 h1]
      unfold sout0_B; (try dsimp only)
      rw [PhiS0_pos V c _ _ hz]
      iintro ⟨⟨HS, HR, Hg⟩, Ho, ⟨%d0, H0⟩, ⟨%d1, H1⟩, ⟨%d2, H2⟩, ⟨%d3, H3⟩⟩
      iapply ((kernelRun0_B c (grid0.coords t) _ _ _ _ _ _ _ _ _ _ h0 h1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover0_B c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI_Body1.lean ====
/-
  Region 1's body obligation: at every grid point the kernel body, called with the windows' staging buffers and the
  region's invariant, runs to the same with each buffer at what the proof data say it holds after the point.
-/
import proofs.«150336_j34505767256624_1_alg».proof.Proof.KI_Data1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The accumulation at a point, by the point's case -/

theorem outsAt1_A (c : Dev nD) (t : Fin cfg1.N) (h0 : cond1_0 (grid1.coords t)) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) h0 (excl1 t h0) (iblk1 V c 0 t) (iblk1 V c 1 t) (iblk1 V c 2 t)) := by
  obtain ⟨n, hn⟩ := t
  cases n with
  | zero => exact step1_A V c ⟨0, hn⟩ _ h0
  | succ n => exact step1_A V c ⟨n + 1, hn⟩ _ h0
theorem outsAt1_B (c : Dev nD) (t : Fin cfg1.N) (h0 : ¬cond1_0 (grid1.coords t)) (h1 : ¬cond1_1 (grid1.coords t)) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd ((hcond1_0 ⟨0, hn⟩).mpr rfl) h0
  | succ n => exact step1_B V c ⟨n + 1, hn⟩ _ h0 h1
theorem outsAt1_C (c : Dev nD) (t : Fin cfg1.N) (h0 : ¬cond1_0 (grid1.coords t)) (h1 : cond1_1 (grid1.coords t)) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) h0 h1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd ((hcond1_0 ⟨0, hn⟩).mpr rfl) h0
  | succ n => exact step1_C V c ⟨n + 1, hn⟩ _ h0 h1

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's coordinates select the case; the invariant hands
    the body the scratch at what the point before left (at anything before the first point) and takes it back at this
    point's contents; where the second branch is not taken the output's buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h0 : cond1_0 (grid1.coords t)
  · have h1 := excl1 t h0
    rw [Dat.leavesExact_idle (dat1 V c) 3 t (idleAt1_3 t h1) (noFlush1_3 t h1)]
    rw [outsAt1_A V c t h0]
    unfold sout1_A; (try dsimp only)
    by_cases hz : t.val = 0
    · rw [PhiS1_zero V c _ _ hz]
      iintro ⟨⟨HS, HR, Hg⟩, Ho, ⟨%d0, H0⟩, ⟨%d1, H1⟩, ⟨%d2, H2⟩, ⟨%d3, H3⟩⟩
      iapply ((kernelRun1_A c (grid1.coords t) _ _ _ _ _ _ _ _ _ _ h0 h1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
    · rw [PhiS1_pos V c _ _ hz]
      iintro ⟨⟨HS, HR, Hg⟩, Ho, ⟨%d0, H0⟩, ⟨%d1, H1⟩, ⟨%d2, H2⟩, ⟨%d3, H3⟩⟩
      iapply ((kernelRun1_A c (grid1.coords t) _ _ _ _ _ _ _ _ _ _ h0 h1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 ((hcond1_0 t).mpr (by rw [hz]))
    by_cases h1 : cond1_1 (grid1.coords t)
    · rw [show (dat1 V c).leavesExact 3 t = owns (c : Thread nD τ) (ms1_3 t) fullShare ((dat1 V c).after 3 t) from by
        unfold Dat.leavesExact; rw [liveAt1_3 t h1], after1_3]
      rw [outsAt1_C V c t h0 h1]
      unfold out1_C sout1_C; (try dsimp only)
      rw [PhiS1_pos V c _ _ hz]
      iintro ⟨⟨HS, HR, Hg⟩, Ho, ⟨%d0, H0⟩, ⟨%d1, H1⟩, ⟨%d2, H2⟩, ⟨%d3, H3⟩⟩
      iapply ((kernelRun1_C c (grid1.coords t) _ _ _ _ _ _ _ _ _ _ h0 h1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS]
        · unfold owns; iexists _; isplitr
          swap; · iexact HS
          ipureintro; exact View.read_writes_of_cover _ _ _ _ _ (scover1_C c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t h1) (noFlush1_3 t h1)]
      rw [outsAt1_B V c t h0 h1]
      unfold sout1_B; (try dsimp only)
      rw [PhiS1_pos V c _ _ hz]
      iintro ⟨⟨HS, HR, Hg⟩, Ho, ⟨%d0, H0⟩, ⟨%d1, H1⟩, ⟨%d2, H2⟩, ⟨%d3, H3⟩⟩
      iapply ((kernelRun1_B c (grid1.coords t) _ _ _ _ _ _ _ _ _ _ h0 h1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS]
        · unfold owns; iexists _; isplitr
          swap; · iexact HS
          ipureintro; exact View.read_writes_of_cover _ _ _ _ _ (scover1_B c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.Spec.lean ====
/-
  The mathematics both programs compute, stated once over the extended reals and with no program in sight.

  A batch holds 8 clouds of points of ℝ³.  For a point `p` of cloud `n` of `x` and a point `k` of cloud `n` of `y`
  the squared distance is expanded as |x|² + |y|² − 2·⟨x, y⟩ (`d2`).  The nearest-neighbour distance of `p` among the
  first `len n` points of `y` is the minimum of `d2` over those `k`; the two programs exclude the other `k` in two
  ways: one adds a bias that is 0 on the admitted `k` and +∞ on the others (`nnBias`), the other replaces the excluded
  entries by +∞ (`nnMask`).  For finite coordinates the two agree.
-/
import Idealize.ShloMosaic.PureOps.Ideal
import Idealize.ShloMosaic.Lib.ValueIdx

noncomputable section

namespace Cert.Chamfer

open Idealize.ShloMosaic Idealize.ShloMosaic.ValueIdx

/-- |x_{n,p}|², the sum of the three squared coordinates. -/
def sq {P : Nat} (x : (⟨3, ![8, P, 3]⟩ : Shape).Idx → EReal) (n : Fin 8) (p : Fin P) : EReal :=
  ∑ d : Fin 3, x (ix3 n p d) * x (ix3 n p d)

/-- ⟨x_{n,p}, y_{n,k}⟩. -/
def dot {P Q : Nat} (x : (⟨3, ![8, P, 3]⟩ : Shape).Idx → EReal) (y : (⟨3, ![8, Q, 3]⟩ : Shape).Idx → EReal)
    (n : Fin 8) (p : Fin P) (k : Fin Q) : EReal :=
  ∑ d : Fin 3, x (ix3 n p d) * y (ix3 n k d)

/-- The real number 2. -/
def two : EReal := ((2 : ℝ) : EReal)

/-- The squared distance in its expanded form (|x|² + |y|²) − 2·⟨x, y⟩. -/
def d2 {P Q : Nat} (x : (⟨3, ![8, P, 3]⟩ : Shape).Idx → EReal) (y : (⟨3, ![8, Q, 3]⟩ : Shape).Idx → EReal)
    (n : Fin 8) (p : Fin P) (k : Fin Q) : EReal :=
  (sq x n p + sq y n k) - two * dot x y n p k

/-- The minimum over all `k` of the biased squared distance `d2 + b`, from +∞. -/
def nnBias {P Q : Nat} (x : (⟨3, ![8, P, 3]⟩ : Shape).Idx → EReal) (y : (⟨3, ![8, Q, 3]⟩ : Shape).Idx → EReal)
    (b : (⟨2, ![8, Q]⟩ : Shape).Idx → EReal) (n : Fin 8) (p : Fin P) : EReal :=
  Finset.univ.inf fun k : Fin Q => d2 x y n p k + b (ix2 n k)

/-- Point `k` of cloud `n` is admitted: its number, as a signed 32-bit word, is below the cloud's length. -/
def valid (len : (⟨1, ![8]⟩ : Shape).Idx → BitVec 32) (n : Fin 8) (k : Fin 4096) : Prop :=
  (BitVec.ofNat 32 k.val).slt (len (ix1 n)) = true

open Classical in
/-- The bias: 0 on the admitted points, +∞ on the others. -/
def bias (len : (⟨1, ![8]⟩ : Shape).Idx → BitVec 32) : (⟨2, ![8, 4096]⟩ : Shape).Idx → EReal :=
  fun j => if valid len (j 0) (j 1) then 0 else ⊤

open Classical in
/-- The minimum over all `k` of the squared distance with the excluded entries replaced by +∞. -/
def nnMask (x y : (⟨3, ![8, 4096, 3]⟩ : Shape).Idx → EReal) (len : (⟨1, ![8]⟩ : Shape).Idx → BitVec 32)
    (n : Fin 8) (p : Fin 4096) : EReal :=
  Finset.univ.inf fun k : Fin 4096 => if valid len n k then d2 x y n p k else ⊤

end Cert.Chamfer

end
-- ==== Proof.Payload.lean ====
/-
  The kernel body's arithmetic on the extended reals, read at an index.

  Each call of the nearest-neighbour kernel holds, per cloud n and point q of its x tile, a running minimum.  On the
  first k-tile it is set to +∞ (`pay1_apply`).  On every k-tile the body forms, for the 512 points k of the y tile,
  (|x_{n,q}|² + |y_{n,k}|²) − 2·⟨x_{n,q}, y_{n,k}⟩ + b_{n,k}: two lane sums of squares, one batched product into a zero
  accumulator, two keepdims broadcasts and the bias row; it takes the minimum over k from +∞ and then the minimum with
  the running value.  `pay2_apply` says exactly that: the new value at (n, q) is
  min (running value) (inf over k of d2 + b), the specification's `nnBias` at tile size 512.

  The steps, one lemma each: a lane sum of squares is `sq`; the batched product is `dot` (narrowing the operands is
  the identity on the extended reals); the two keepdims layouts read their operand at (n, q) and at (n, k); a minimum
  reduction over one axis is the fold of `min` over that axis, and from +∞ that fold is the infimum.
-/
import proofs.«150336_j34505767256624_1_alg».proof.Proof.Gen.KernelIdeal.Skeleton
import proofs.«150336_j34505767256624_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.Chamfer

/-- The word 0x7F800000 denotes +∞. -/
theorem ofBits_inf : Ideal.ofBits .f32 0x7F800000#32 = (⊤ : EReal) := by simp [Ideal.ofBits, Ideal.ieee]

/-- The word 0x40000000 denotes the real number 2. -/
theorem ofBits_two : Ideal.ofBits .f32 0x40000000#32 = two := by
  unfold two; simp [Ideal.ofBits, Ideal.ieee, -EReal.coe_mul]; norm_num

/-- What the first tile stores into the running minimum: +∞ everywhere. -/
theorem pay1_apply (j : S8x512.Idx) : k0_pay1 (F := Ideal) j = ⊤ := by
  unfold k0_pay1
  show Ideal.ofBits .f32 0x7F800000#32 = ⊤
  exact ofBits_inf

/-- The same for the second call. -/
theorem pay1_apply' (j : S8x512.Idx) : k1_pay1 (F := Ideal) j = ⊤ := by
  unfold k1_pay1
  show Ideal.ofBits .f32 0x7F800000#32 = ⊤
  exact ofBits_inf

/-- The lane sum of the squares of a tile's coordinates is |x_{n,q}|². -/
theorem sumsq_apply (x : FVec Ideal S8x512x3 .f32) (h : S8x512x3.Reduces [2] S8x512) (hφ : FKind.Formats .f32)
    (hacc : (0x00000000#32 : BitVec 32) = FKind.add.neutral .f32 hφ) (n : Fin 8) (q : Fin 512) :
    multiReduction (F := Ideal) .add [2] S8x512 (mulf x x) 0x00000000#32 h hφ hacc (ix2 n q) = sq x n q := by
  refine (Ideal.multiReduction_add_single (mulf x x) _ h hφ hacc (ix2 n q)).trans ?_
  show ∑ d : Fin 3, mulf x x (h.lift (ix2 n q) d) = ∑ d : Fin 3, x (ix3 n q d) * x (ix3 n q d)
  refine Finset.sum_congr rfl fun d _ => ?_
  have e : h.lift (ix2 n q) d = ix3 n q d := funext fun a => Fin.ext (by
    match a with
    | ⟨0, _⟩ => rfl
    | ⟨1, _⟩ => rfl
    | ⟨2, _⟩ => rfl)
  rw [e]; rfl

/-! ## The batched product -/

theorem lhs_0 (i : S8x512x512.Idx) (c : dot_S8x512x3_S8x512x3_S8x512x512_2_2_1_1_0_0.contr.Idx) :
    (dot_S8x512x3_S8x512x3_S8x512x512_2_2_1_1_0_0.lhsIdx i c 0).val = (i 0).val := by
  unfold DotDims.lhsIdx
  rw [dif_pos (show (0 : Fin S8x512x3.rank) ∈ dot_S8x512x3_S8x512x3_S8x512x512_2_2_1_1_0_0.lhsBatch by decide)]
  rfl
theorem lhs_1 (i : S8x512x512.Idx) (c : dot_S8x512x3_S8x512x3_S8x512x512_2_2_1_1_0_0.contr.Idx) :
    (dot_S8x512x3_S8x512x3_S8x512x512_2_2_1_1_0_0.lhsIdx i c 1).val = (i 1).val := by
  unfold DotDims.lhsIdx
  rw [dif_neg (show ¬(1 : Fin S8x512x3.rank) ∈ dot_S8x512x3_S8x512x3_S8x512x512_2_2_1_1_0_0.lhsBatch by decide),
    dif_pos (show (1 : Fin S8x512x3.rank) ∈ dot_S8x512x3_S8x512x3_S8x512x512_2_2_1_1_0_0.lhsNonContracting by decide)]
  rfl
theorem lhs_2 (i : S8x512x512.Idx) (c : dot_S8x512x3_S8x512x3_S8x512x512_2_2_1_1_0_0.contr.Idx) :
    (dot_S8x512x3_S8x512x3_S8x512x512_2_2_1_1_0_0.lhsIdx i c 2).val = (c ⟨0, by decide⟩).val :=
  dot_S8x512x3_S8x512x3_S8x512x512_2_2_1_1_0_0.lhsIdx_val_of_single rfl i c
theorem rhs_0 (i : S8x512x512.Idx) (c : dot_S8x512x3_S8x512x3_S8x512x512_2_2_1_1_0_0.contr.Idx) :
    (dot_S8x512x3_S8x512x3_S8x512x512_2_2_1_1_0_0.rhsIdx i c 0).val = (i 0).val := by
  unfold DotDims.rhsIdx
  rw [dif_pos (show (0 : Fin S8x512x3.rank) ∈ dot_S8x512x3_S8x512x3_S8x512x512_2_2_1_1_0_0.rhsBatch by decide)]
  rfl
theorem rhs_1 (i : S8x512x512.Idx) (c : dot_S8x512x3_S8x512x3_S8x512x512_2_2_1_1_0_0.contr.Idx) :
    (dot_S8x512x3_S8x512x3_S8x512x512_2_2_1_1_0_0.rhsIdx i c 1).val = (i 2).val := by
  unfold DotDims.rhsIdx
  rw [dif_neg (show ¬(1 : Fin S8x512x3.rank) ∈ dot_S8x512x3_S8x512x3_S8x512x512_2_2_1_1_0_0.rhsBatch by decide),
    dif_pos (show (1 : Fin S8x512x3.rank) ∈ dot_S8x512x3_S8x512x3_S8x512x512_2_2_1_1_0_0.rhsNonContracting by decide)]
  rfl
theorem rhs_2 (i : S8x512x512.Idx) (c : dot_S8x512x3_S8x512x3_S8x512x512_2_2_1_1_0_0.contr.Idx) :
    (dot_S8x512x3_S8x512x3_S8x512x512_2_2_1_1_0_0.rhsIdx i c 2).val = (c ⟨0, by decide⟩).val :=
  dot_S8x512x3_S8x512x3_S8x512x512_2_2_1_1_0_0.rhsIdx_val_of_single rfl i c

/-- The batched product of the two tiles into a zero accumulator, at (n, q, k), is ⟨x_{n,q}, y_{n,k}⟩: the
    narrowing of the operands changes nothing on the extended reals. -/
theorem matmul_tile_apply (x y : FVec Ideal S8x512x3 .f32) (hlt : FTy.bits .bf16 < FTy.bits .f32)
    (n : Fin 8) (q k : Fin 512) :
    matmul (F := Ideal) dot_S8x512x3_S8x512x3_S8x512x512_2_2_1_1_0_0 none (truncf .bf16 x hlt) (truncf .bf16 y hlt)
        (constant S8x512x512 .f32 0x00000000#32) (ix3 n q k) = dot x y n q k := by
  simp only [matmul]
  rw [Ideal.matmul_constant_zero_apply,
    ← Equiv.sum_comp (contrEquiv1 dot_S8x512x3_S8x512x3_S8x512x512_2_2_1_1_0_0 3 rfl rfl).symm]
  refine Finset.sum_congr rfl fun d _ => ?_
  have hk := contrEquiv1_symm_val dot_S8x512x3_S8x512x3_S8x512x512_2_2_1_1_0_0 3 rfl rfl d
  have el : dot_S8x512x3_S8x512x3_S8x512x512_2_2_1_1_0_0.lhsIdx (ix3 n q k)
      ((contrEquiv1 dot_S8x512x3_S8x512x3_S8x512x512_2_2_1_1_0_0 3 rfl rfl).symm d) = ix3 n q d :=
    funext fun a => Fin.ext (by
      match a with
      | ⟨0, _⟩ => exact lhs_0 _ _
      | ⟨1, _⟩ => exact lhs_1 _ _
      | ⟨2, _⟩ => exact (lhs_2 _ _).trans hk)
  have er : dot_S8x512x3_S8x512x3_S8x512x512_2_2_1_1_0_0.rhsIdx (ix3 n q k)
      ((contrEquiv1 dot_S8x512x3_S8x512x3_S8x512x512_2_2_1_1_0_0 3 rfl rfl).symm d) = ix3 n k d :=
    funext fun a => Fin.ext (by
      match a with
      | ⟨0, _⟩ => exact rhs_0 _ _
      | ⟨1, _⟩ => exact rhs_1 _ _
      | ⟨2, _⟩ => exact (rhs_2 _ _).trans hk)
  rw [el, er]
  rfl

/-! ## The keepdims layouts -/

section Layout
variable {α : Type}

/-- An [8, 512] array viewed [8, 512, 1] and broadcast along the last axis reads, at (n, q, k), the array at (n, q). -/
theorem colBroadcast_apply (v : S8x512.Idx → α) (h1 : S8x512.ShapeCasts S8x512x1) (h2 : S8x512x1.Broadcasts S8x512x512)
    (n : Fin 8) (q k : Fin 512) :
    broadcastTo S8x512x512 (shapeCast S8x512x1 v h1) h2 (ix3 n q k) = v (ix2 n q) := by
  refine (broadcastTo_apply (shapeCast S8x512x1 v h1) h2 (ix3 n q k) (ix3 n q (0 : Fin 1)) fun a => ?_).trans ?_
  · match a with
    | ⟨0, _⟩ => rfl
    | ⟨1, _⟩ => rfl
    | ⟨2, _⟩ => rfl
  · refine shapeCast_apply v h1 (ix3 n q (0 : Fin 1)) (ix2 n q) ?_
    rw [Shape.rowMajor_val_three, Shape.rowMajor_val_two]
    show n.val * 512 + q.val = (n.val * 512 + q.val) * 1 + 0
    omega

/-- An [8, 512] array viewed [8, 1, 512] and broadcast along the middle axis reads, at (n, q, k), the array at (n, k). -/
theorem rowBroadcast_apply (v : S8x512.Idx → α) (h1 : S8x512.ShapeCasts S8x1x512) (h2 : S8x1x512.Broadcasts S8x512x512)
    (n : Fin 8) (q k : Fin 512) :
    broadcastTo S8x512x512 (shapeCast S8x1x512 v h1) h2 (ix3 n q k) = v (ix2 n k) := by
  refine (broadcastTo_apply (shapeCast S8x1x512 v h1) h2 (ix3 n q k) (ix3 n (0 : Fin 1) k) fun a => ?_).trans ?_
  · match a with
    | ⟨0, _⟩ => rfl
    | ⟨1, _⟩ => rfl
    | ⟨2, _⟩ => rfl
  · refine shapeCast_apply v h1 (ix3 n (0 : Fin 1) k) (ix2 n k) ?_
    rw [Shape.rowMajor_val_three, Shape.rowMajor_val_two]
    show n.val * 512 + k.val = (n.val * 1 + 0) * 512 + k.val
    omega

end Layout

/-! ## The lane minimum -/

/-- A minimum reduction over one axis, on the extended reals: the fold of `min` from the accumulator's value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The fold of `min` from +∞ over a finite set is the set's infimum. -/
theorem fold_min_top_eq_inf {ι : Type} (s : Finset ι) (f : ι → EReal) : s.fold min ⊤ f = s.inf f := by
  classical
  induction s using Finset.induction_on with
  | empty => rw [Finset.fold_empty, Finset.inf_empty]
  | insert a s ha ih => rw [Finset.fold_insert ha, Finset.inf_insert, ih]

/-- The lane minimum from +∞ of an [8, 512, 512] tile at (n, q) is the infimum over k of the tile at (n, q, k). -/
theorem lanemin_apply (w : FVec Ideal S8x512x512 .f32) (h : S8x512x512.Reduces [2] S8x512) (hφ : FKind.Formats .f32)
    (hacc : (0x7F800000#32 : BitVec 32) = FKind.minimumf.neutral .f32 hφ) (n : Fin 8) (q : Fin 512) :
    multiReduction (F := Ideal) .minimumf [2] S8x512 w 0x7F800000#32 h hφ hacc (ix2 n q)
      = Finset.univ.inf fun k : Fin 512 => w (ix3 n q k) := by
  refine (multiReduction_minimumf_single w _ h hφ hacc (ix2 n q)).trans ?_
  show (Finset.univ : Finset (Fin 512)).fold min (Ideal.ofBits .f32 0x7F800000#32) (w ∘ h.lift (ix2 n q)) = _
  rw [ofBits_inf]
  refine (fold_min_top_eq_inf (Finset.univ : Finset (Fin 512)) (w ∘ h.lift (ix2 n q))).trans ?_
  refine congrArg (Finset.univ.inf) (funext fun k => ?_)
  have e : h.lift (ix2 n q) k = ix3 n q k := funext fun a => Fin.ext (by
    match a with
    | ⟨0, _⟩ => rfl
    | ⟨1, _⟩ => rfl
    | ⟨2, _⟩ => rfl)
  show w (h.lift (ix2 n q) k) = _
  rw [e]

/-! ## The body's arithmetic at an index -/

/-- The body's arithmetic at (n, q): the running minimum there against the minimum over the tile's k of the biased
    squared distance. -/
theorem pay2_apply (x y : Vec Ideal S8x512x3 .f32) (b prev : Vec Ideal S8x512 .f32) (n : Fin 8) (q : Fin 512) :
    k0_pay2 (F := Ideal) x y b prev (ix2 n q) = min (prev (ix2 n q)) (nnBias x y b n q) := by
  unfold k0_pay2
  simp only [shapeCast_self]
  refine congrArg (min (prev (ix2 n q))) ?_
  refine (lanemin_apply _ _ _ _ n q).trans ?_
  unfold nnBias d2
  refine congrArg Finset.univ.inf (funext fun k => ?_)
  exact congrArg₂ (· + ·)
    (congrArg₂ (· - ·)
      (congrArg₂ (· + ·)
        ((colBroadcast_apply _ _ _ n q k).trans (sumsq_apply x _ _ _ n q))
        ((rowBroadcast_apply _ _ _ n q k).trans (sumsq_apply y _ _ _ n k)))
      (congrArg₂ (· * ·) ofBits_two (matmul_tile_apply x y _ n q k)))
    (rowBroadcast_apply b _ _ n q k)

/-- The same for the second call's body. -/
theorem pay2_apply' (x y : Vec Ideal S8x512x3 .f32) (b prev : Vec Ideal S8x512 .f32) (n : Fin 8) (q : Fin 512) :
    k1_pay2 (F := Ideal) x y b prev (ix2 n q) = min (prev (ix2 n q)) (nnBias x y b n q) := by
  unfold k1_pay2
  simp only [shapeCast_self]
  refine congrArg (min (prev (ix2 n q))) ?_
  refine (lanemin_apply _ _ _ _ n q).trans ?_
  unfold nnBias d2
  refine congrArg Finset.univ.inf (funext fun k => ?_)
  exact congrArg₂ (· + ·)
    (congrArg₂ (· - ·)
      (congrArg₂ (· + ·)
        ((colBroadcast_apply _ _ _ n q k).trans (sumsq_apply x _ _ _ n q))
        ((rowBroadcast_apply _ _ _ n q k).trans (sumsq_apply y _ _ _ n k)))
      (congrArg₂ (· * ·) ofBits_two (matmul_tile_apply x y _ n q k)))
    (rowBroadcast_apply b _ _ n q k)

end Cert.KernelIdeal.Payload

end
-- ==== Proof.SpecLaws.lean ====
/-
  Laws of the shared specification that mention no program.

  For finite coordinates the expanded squared distance is a real number, so adding the bias 0 changes nothing and
  adding the bias +∞ gives +∞: the biased minimum is the masked minimum.  A minimum over all 4096 indices is the last
  of the running minima over prefixes of 512-index tiles, each obtained from the one before by one more tile.
-/
import proofs.«150336_j34505767256624_1_alg».proof.Proof.Spec

noncomputable section

namespace Cert.Chamfer

open Idealize.ShloMosaic Idealize.ShloMosaic.ValueIdx

/-- For finite coordinates the expanded squared distance is a real number. -/
theorem d2_real {P Q : Nat} (x : (⟨3, ![8, P, 3]⟩ : Shape).Idx → EReal) (y : (⟨3, ![8, Q, 3]⟩ : Shape).Idx → EReal)
    (hx : ∀ i, ∃ r : ℝ, x i = (r : EReal)) (hy : ∀ i, ∃ r : ℝ, y i = (r : EReal))
    (n : Fin 8) (p : Fin P) (k : Fin Q) : ∃ r : ℝ, d2 x y n p k = (r : EReal) := by
  choose rx hrx using hx
  choose ry hry using hy
  refine ⟨((rx (ix3 n p 0) * rx (ix3 n p 0) + rx (ix3 n p 1) * rx (ix3 n p 1) + rx (ix3 n p 2) * rx (ix3 n p 2))
      + (ry (ix3 n k 0) * ry (ix3 n k 0) + ry (ix3 n k 1) * ry (ix3 n k 1) + ry (ix3 n k 2) * ry (ix3 n k 2)))
      - 2 * (rx (ix3 n p 0) * ry (ix3 n k 0) + rx (ix3 n p 1) * ry (ix3 n k 1) + rx (ix3 n p 2) * ry (ix3 n k 2)), ?_⟩
  simp only [d2, sq, dot, two, Fin.sum_univ_three, hrx, hry, EReal.coe_sub, EReal.coe_add, EReal.coe_mul]

open Classical in
/-- For finite coordinates, adding the bias (0 on the admitted points, +∞ on the others) and taking the minimum is
    taking the minimum with the excluded entries replaced by +∞. -/
theorem nnBias_bias_eq_nnMask (x y : (⟨3, ![8, 4096, 3]⟩ : Shape).Idx → EReal)
    (len : (⟨1, ![8]⟩ : Shape).Idx → BitVec 32)
    (hx : ∀ i, ∃ r : ℝ, x i = (r : EReal)) (hy : ∀ i, ∃ r : ℝ, y i = (r : EReal))
    (n : Fin 8) (p : Fin 4096) : nnBias x y (bias len) n p = nnMask x y len n p := by
  unfold nnBias nnMask
  refine Finset.inf_congr rfl fun k _ => ?_
  obtain ⟨r, hr⟩ := d2_real x y hx hy n p k
  show d2 x y n p k + (if valid len n k then (0 : EReal) else ⊤) = _
  by_cases h : valid len n k
  · rw [if_pos h, if_pos h, add_zero]
  · rw [if_neg h, if_neg h, hr, EReal.coe_add_top]

/-- The minimum of `f` over the indices below `512 * j`: the running minimum after `j` tiles. -/
def prefMin (f : Fin 4096 → EReal) (j : ℕ) : EReal :=
  (Finset.univ.filter fun k : Fin 4096 => k.val < 512 * j).inf f

/-- Before any tile the running minimum is +∞. -/
theorem prefMin_zero (f : Fin 4096 → EReal) : prefMin f 0 = ⊤ := by
  unfold prefMin
  rw [Finset.filter_false_of_mem (fun k _ => by omega), Finset.inf_empty]

/-- One more tile: the running minimum after `j + 1` tiles is the smaller of the running minimum after `j` tiles
    and the minimum over tile `j`. -/
theorem prefMin_succ (f : Fin 4096 → EReal) (j : ℕ) (hj : j < 8) :
    prefMin f (j + 1)
      = min (prefMin f j) (Finset.univ.inf fun k : Fin 512 => f ⟨512 * j + k.val, by omega⟩) := by
  unfold prefMin
  have hset : (Finset.univ.filter fun k : Fin 4096 => k.val < 512 * (j + 1))
      = (Finset.univ.filter fun k : Fin 4096 => k.val < 512 * j)
        ∪ (Finset.univ.image fun k : Fin 512 => (⟨512 * j + k.val, by omega⟩ : Fin 4096)) := by
    ext k
    simp only [Finset.mem_filter, Finset.mem_univ, true_and, Finset.mem_union, Finset.mem_image]
    constructor
    · intro h
      by_cases h' : k.val < 512 * j
      · exact Or.inl h'
      · exact Or.inr ⟨⟨k.val - 512 * j, by omega⟩, Fin.ext (by show 512 * j + (k.val - 512 * j) = k.val; omega)⟩
    · rintro (h | ⟨q, rfl⟩)
      · omega
      · show 512 * j + q.val < 512 * (j + 1)
        omega
  rw [hset, Finset.inf_union, Finset.inf_image]
  rfl

/-- After all eight tiles the running minimum is the minimum over every index. -/
theorem prefMin_eight (f : Fin 4096 → EReal) : prefMin f 8 = Finset.univ.inf f := by
  unfold prefMin
  rw [Finset.filter_true_of_mem (fun k _ => by omega)]

end Cert.Chamfer

end
-- ==== Proof.KI_Accum.lean ====
/-
  The running minimum, at the exact instance. After the point of query tile a and key tile b the scratch holds, at entry
  (n, q), the minimum of the biased squared distances from query point 512·a + q of cloud n to the key points of
  tiles 0 … b; so at key tile 7 the output's buffer holds the minimum over all 4096 key points.
-/
import proofs.«150336_j34505767256624_1_alg».proof.Proof.KI_Pieces
import proofs.«150336_j34505767256624_1_alg».proof.Proof.KI_Body0
import proofs.«150336_j34505767256624_1_alg».proof.Proof.KI_Body1
import proofs.«150336_j34505767256624_1_alg».proof.Proof.Payload
import proofs.«150336_j34505767256624_1_alg».proof.Proof.SpecLaws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer Cert.KernelIdeal.Payload Idealize.ShloMosaic.ValueIdx

/-! # Region 0 -/

section Region0
variable (V : (c : Dev nD) → (b : Ref sig .tc) → Buf (Elt Ideal) ((c : Thread nD τ).loc b))

/-- The printed index maps over the grid: point `t` is query tile `t / 8`, key tile `t % 8`. -/
theorem idx0 : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val % 8
    ∧ win0_3.index t (0 : Fin 2) = 0 ∧ win0_3.index t (1 : Fin 2) = t.val / 8 :=
  (by decide +kernel : ∀ t : Fin grid0.N, _)

/-- The three arrays the region reads, as it finds them: the query cloud, the key cloud, the bias. -/
abbrev X0 (c : Dev nD) : S8x4096x3.Idx → EReal := V c main_arg0
abbrev Y0 (c : Dev nD) : S8x4096x3.Idx → EReal := V c main_arg1
abbrev B0 (c : Dev nD) : S8x4096.Idx → EReal := V c main_v6

/-- The biased squared distance from query point `p` to key point `k` of cloud `n`. -/
def f0 (c : Dev nD) (n : Fin 8) (p : Fin 4096) : Fin 4096 → EReal :=
  fun k => d2 (X0 V c) (Y0 V c) n p k + B0 V c (ix2 n k)

theorem lt_q (m : ℕ) (hm : m < 64) (q : Fin 512) : 512 * (m / 8) + q.val < 4096 := by have := q.isLt; omega
theorem lt_k (m : ℕ) (q : Fin 512) : 512 * (m % 8) + q.val < 4096 := by have := q.isLt; have := Nat.mod_lt m (by decide : 0 < 8); omega

/-- Entry (n, q, d) of the query block at point `t` is entry (n, 512·(t / 8) + q, d) of the query cloud. -/
theorem blk0_0 (c : Dev nD) (t : Fin cfg0.N) (n : Fin 8) (q : Fin 512) (d : Fin 3) :
    iblk0 V c 0 t (ix3 n q d) = X0 V c (ix3 n ⟨512 * (t.val / 8) + q.val, lt_q t.val (lt_of_lt_of_eq t.isLt N_0) q⟩ d) := by
  obtain ⟨e0, e1, e2, -⟩ := idx0 t
  show V c main_arg0 (((cfg0.win 0).blk t).view.emb (ix3 n q d)) = _
  refine congrArg _ ?_
  funext a; apply Fin.ext
  match a with
  | ⟨0, _⟩ => show win0_0.index t (0 : Fin 3) * 8 + 1 * n.val = n.val; omega
  | ⟨1, _⟩ => show win0_0.index t (1 : Fin 3) * 512 + 1 * q.val = 512 * (t.val / 8) + q.val; omega
  | ⟨2, _⟩ => show win0_0.index t (2 : Fin 3) * 3 + 1 * d.val = d.val; omega
/-- Entry (n, k, d) of the key block at point `t` is entry (n, 512·(t % 8) + k, d) of the key cloud. -/
theorem blk0_1 (c : Dev nD) (t : Fin cfg0.N) (n : Fin 8) (k : Fin 512) (d : Fin 3) :
    iblk0 V c 1 t (ix3 n k d) = Y0 V c (ix3 n ⟨512 * (t.val % 8) + k.val, lt_k t.val k⟩ d) := by
  obtain ⟨-, -, -, e0, e1, e2, -⟩ := idx0 t
  show V c main_arg1 (((cfg0.win 1).blk t).view.emb (ix3 n k d)) = _
  refine congrArg _ ?_
  funext a; apply Fin.ext
  match a with
  | ⟨0, _⟩ => show win0_1.index t (0 : Fin 3) * 8 + 1 * n.val = n.val; omega
  | ⟨1, _⟩ => show win0_1.index t (1 : Fin 3) * 512 + 1 * k.val = 512 * (t.val % 8) + k.val; omega
  | ⟨2, _⟩ => show win0_1.index t (2 : Fin 3) * 3 + 1 * d.val = d.val; omega
/-- Entry (n, k) of the bias block at point `t` is entry (n, 512·(t % 8) + k) of the bias. -/
theorem blk0_2 (c : Dev nD) (t : Fin cfg0.N) (n : Fin 8) (k : Fin 512) :
    iblk0 V c 2 t (ix2 n k) = B0 V c (ix2 n ⟨512 * (t.val % 8) + k.val, lt_k t.val k⟩) := by
  obtain ⟨-, -, -, -, -, -, e0, e1, -⟩ := idx0 t
  show V c main_v6 (((cfg0.win 2).blk t).view.emb (ix2 n k)) = _
  refine congrArg _ ?_
  funext a; apply Fin.ext
  match a with
  | ⟨0, _⟩ => show win0_2.index t (0 : Fin 2) * 8 + 1 * n.val = n.val; omega
  | ⟨1, _⟩ => show win0_2.index t (1 : Fin 2) * 512 + 1 * k.val = 512 * (t.val % 8) + k.val; omega

/-- The tile's minimum of the biased squared distances is the minimum of `f` over the tile's 512 key points. -/
theorem tile0 (c : Dev nD) (t : Fin cfg0.N) (n : Fin 8) (q : Fin 512) :
    nnBias (P := 512) (Q := 512) (iblk0 V c 0 t) (iblk0 V c 1 t) (iblk0 V c 2 t) n q
      = Finset.univ.inf fun k : Fin 512 => f0 V c n ⟨512 * (t.val / 8) + q.val, lt_q t.val (lt_of_lt_of_eq t.isLt N_0) q⟩ ⟨512 * (t.val % 8) + k.val, lt_k t.val k⟩ := by
  unfold nnBias
  refine Finset.inf_congr rfl fun k _ => ?_
  unfold f0 Cert.Chamfer.d2 Cert.Chamfer.sq Cert.Chamfer.dot
  simp only [blk0_0 V c t, blk0_1 V c t, blk0_2 V c t]

/-- THE RUNNING MINIMUM. After point `m` (query tile `m / 8`, key tile `m % 8`) entry (n, q) of the scratch is the minimum of
    `f` over the key points of the tiles 0 … `m % 8`. -/
theorem acc0 (c : Dev nD) (n : Fin 8) (q : Fin 512) : ∀ (m : ℕ) (hm : m < cfg0.N),
    (outsAt0 V c m hm).2 (ix2 n q) = prefMin (f0 V c n ⟨512 * (m / 8) + q.val, lt_q m (lt_of_lt_of_eq hm N_0) q⟩) (m % 8 + 1) := by
  intro m
  induction m with
  | zero =>
    intro hm
    have h0 : cond0_0 (grid0.coords ⟨0, hm⟩) := (hcond0_0 ⟨0, hm⟩).mpr rfl
    rw [show outsAt0 V c 0 hm = _ from outsAt0_A V c ⟨0, hm⟩ h0]
    dsimp only
    rw [sout0_A_eq, pay2_apply, tile0 V c ⟨0, hm⟩ n q]
    rw [show (0 % 8 + 1 : ℕ) = 0 + 1 from rfl, prefMin_succ _ 0 (by decide), prefMin_zero]
    refine congrArg₂ min (pay1_apply _) ?_
    rfl
  | succ m ih =>
    intro hm
    have hN : m + 1 < 64 := lt_of_lt_of_eq hm N_0
    by_cases h8 : (m + 1) % 8 = 0
    · have h0 : cond0_0 (grid0.coords ⟨m + 1, hm⟩) := (hcond0_0 ⟨m + 1, hm⟩).mpr h8
      rw [show outsAt0 V c (m + 1) hm = _ from outsAt0_A V c ⟨m + 1, hm⟩ h0]
      dsimp only
      rw [sout0_A_eq, pay2_apply, tile0 V c ⟨m + 1, hm⟩ n q]
      rw [prefMin_succ _ ((m + 1) % 8) (Nat.mod_lt _ (by decide))]
      refine congrArg₂ min ((pay1_apply _).trans ?_) rfl
      rw [h8, prefMin_zero]
    · have h0 : ¬cond0_0 (grid0.coords ⟨m + 1, hm⟩) := fun h => h8 ((hcond0_0 ⟨m + 1, hm⟩).mp h)
      have hdiv : m / 8 = (m + 1) / 8 := by omega
      have hmod : m % 8 + 1 = (m + 1) % 8 := by omega
      have ih' := ih (Nat.lt_of_succ_lt hm)
      have hprev : (outsAt0 V c (m + 1 - 1) (Nat.lt_of_le_of_lt (Nat.sub_le _ _) hm)).2 (ix2 n q)
          = prefMin (f0 V c n ⟨512 * ((m + 1) / 8) + q.val, lt_q (m + 1) hN q⟩) ((m + 1) % 8) := by
        rw [← hmod]; simp only [← hdiv]; exact ih'
      have hstep : min (prefMin (f0 V c n ⟨512 * ((m + 1) / 8) + q.val, lt_q (m + 1) hN q⟩) ((m + 1) % 8))
            (nnBias (P := 512) (Q := 512) (iblk0 V c 0 ⟨m + 1, hm⟩) (iblk0 V c 1 ⟨m + 1, hm⟩) (iblk0 V c 2 ⟨m + 1, hm⟩) n q)
          = prefMin (f0 V c n ⟨512 * ((m + 1) / 8) + q.val, lt_q (m + 1) hN q⟩) ((m + 1) % 8 + 1) := by
        rw [tile0 V c ⟨m + 1, hm⟩ n q, prefMin_succ _ ((m + 1) % 8) (Nat.mod_lt _ (by decide))]
      by_cases h1 : cond0_1 (grid0.coords ⟨m + 1, hm⟩)
      · rw [show outsAt0 V c (m + 1) hm = _ from outsAt0_C V c ⟨m + 1, hm⟩ h0 h1]
        dsimp only
        rw [sout0_C_eq, pay2_apply, hprev, hstep]
      · rw [show outsAt0 V c (m + 1) hm = _ from outsAt0_B V c ⟨m + 1, hm⟩ h0 h1]
        dsimp only
        rw [sout0_B_eq, pay2_apply, hprev, hstep]

/-- At the last key tile of a query tile the output's buffer holds the finished minimum: entry (n, q) is the
    nearest-neighbour distance of query point 512·(t / 8) + q. -/
theorem outAt0 (c : Dev nD) (t : Fin cfg0.N) (h7 : t.val % 8 = 7) (n : Fin 8) (q : Fin 512) :
    (outsAt0 V c t.val t.isLt).1 (ix2 n q)
      = nnBias (P := 4096) (Q := 4096) (X0 V c) (Y0 V c) (B0 V c) n ⟨512 * (t.val / 8) + q.val, lt_q t.val (lt_of_lt_of_eq t.isLt N_0) q⟩ := by
  have h0 : ¬cond0_0 (grid0.coords t) := fun h => by have := (hcond0_0 t).mp h; omega
  have h1 : cond0_1 (grid0.coords t) := (hcond0_1 t).mpr h7
  have hacc := acc0 V c n q t.val t.isLt
  rw [outsAt0_C V c t h0 h1] at hacc ⊢
  dsimp only at hacc ⊢
  rw [out0_C_eq]
  rw [sout0_C_eq] at hacc
  rw [hacc, h7, show (7 + 1 : ℕ) = 8 from rfl, prefMin_eight]
  rfl

end Region0

/-! # Region 1 -/

section Region1
variable (V : (c : Dev nD) → (b : Ref sig .tc) → Buf (Elt Ideal) ((c : Thread nD τ).loc b))

/-- The printed index maps over the grid: point `t` is query tile `t / 8`, key tile `t % 8`. -/
theorem idx1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val % 8
    ∧ win1_3.index t (0 : Fin 2) = 0 ∧ win1_3.index t (1 : Fin 2) = t.val / 8 :=
  (by decide +kernel : ∀ t : Fin grid1.N, _)

/-- The three arrays the region reads, as it finds them: the query cloud, the key cloud, the bias. -/
abbrev X1 (c : Dev nD) : S8x4096x3.Idx → EReal := V c main_arg1
abbrev Y1 (c : Dev nD) : S8x4096x3.Idx → EReal := V c main_arg0
abbrev B1 (c : Dev nD) : S8x4096.Idx → EReal := V c main_v28

/-- The biased squared distance from query point `p` to key point `k` of cloud `n`. -/
def f1 (c : Dev nD) (n : Fin 8) (p : Fin 4096) : Fin 4096 → EReal :=
  fun k => d2 (X1 V c) (Y1 V c) n p k + B1 V c (ix2 n k)

/-- Entry (n, q, d) of the query block at point `t` is entry (n, 512·(t / 8) + q, d) of the query cloud. -/
theorem blk1_0 (c : Dev nD) (t : Fin cfg1.N) (n : Fin 8) (q : Fin 512) (d : Fin 3) :
    iblk1 V c 0 t (ix3 n q d) = X1 V c (ix3 n ⟨512 * (t.val / 8) + q.val, lt_q t.val (lt_of_lt_of_eq t.isLt N_1) q⟩ d) := by
  obtain ⟨e0, e1, e2, -⟩ := idx1 t
  show V c main_arg1 (((cfg1.win 0).blk t).view.emb (ix3 n q d)) = _
  refine congrArg _ ?_
  funext a; apply Fin.ext
  match a with
  | ⟨0, _⟩ => show win1_0.index t (0 : Fin 3) * 8 + 1 * n.val = n.val; omega
  | ⟨1, _⟩ => show win1_0.index t (1 : Fin 3) * 512 + 1 * q.val = 512 * (t.val / 8) + q.val; omega
  | ⟨2, _⟩ => show win1_0.index t (2 : Fin 3) * 3 + 1 * d.val = d.val; omega
/-- Entry (n, k, d) of the key block at point `t` is entry (n, 512·(t % 8) + k, d) of the key cloud. -/
theorem blk1_1 (c : Dev nD) (t : Fin cfg1.N) (n : Fin 8) (k : Fin 512) (d : Fin 3) :
    iblk1 V c 1 t (ix3 n k d) = Y1 V c (ix3 n ⟨512 * (t.val % 8) + k.val, lt_k t.val k⟩ d) := by
  obtain ⟨-, -, -, e0, e1, e2, -⟩ := idx1 t
  show V c main_arg0 (((cfg1.win 1).blk t).view.emb (ix3 n k d)) = _
  refine congrArg _ ?_
  funext a; apply Fin.ext
  match a with
  | ⟨0, _⟩ => show win1_1.index t (0 : Fin 3) * 8 + 1 * n.val = n.val; omega
  | ⟨1, _⟩ => show win1_1.index t (1 : Fin 3) * 512 + 1 * k.val = 512 * (t.val % 8) + k.val; omega
  | ⟨2, _⟩ => show win1_1.index t (2 : Fin 3) * 3 + 1 * d.val = d.val; omega
/-- Entry (n, k) of the bias block at point `t` is entry (n, 512·(t % 8) + k) of the bias. -/
theorem blk1_2 (c : Dev nD) (t : Fin cfg1.N) (n : Fin 8) (k : Fin 512) :
    iblk1 V c 2 t (ix2 n k) = B1 V c (ix2 n ⟨512 * (t.val % 8) + k.val, lt_k t.val k⟩) := by
  obtain ⟨-, -, -, -, -, -, e0, e1, -⟩ := idx1 t
  show V c main_v28 (((cfg1.win 2).blk t).view.emb (ix2 n k)) = _
  refine congrArg _ ?_
  funext a; apply Fin.ext
  match a with
  | ⟨0, _⟩ => show win1_2.index t (0 : Fin 2) * 8 + 1 * n.val = n.val; omega
  | ⟨1, _⟩ => show win1_2.index t (1 : Fin 2) * 512 + 1 * k.val = 512 * (t.val % 8) + k.val; omega

/-- The tile's minimum of the biased squared distances is the minimum of `f` over the tile's 512 key points. -/
theorem tile1 (c : Dev nD) (t : Fin cfg1.N) (n : Fin 8) (q : Fin 512) :
    nnBias (P := 512) (Q := 512) (iblk1 V c 0 t) (iblk1 V c 1 t) (iblk1 V c 2 t) n q
      = Finset.univ.inf fun k : Fin 512 => f1 V c n ⟨512 * (t.val / 8) + q.val, lt_q t.val (lt_of_lt_of_eq t.isLt N_1) q⟩ ⟨512 * (t.val % 8) + k.val, lt_k t.val k⟩ := by
  unfold nnBias
  refine Finset.inf_congr rfl fun k _ => ?_
  unfold f1 Cert.Chamfer.d2 Cert.Chamfer.sq Cert.Chamfer.dot
  simp only [blk1_0 V c t, blk1_1 V c t, blk1_2 V c t]

/-- THE RUNNING MINIMUM. After point `m` (query tile `m / 8`, key tile `m % 8`) entry (n, q) of the scratch is the minimum of
    `f` over the key points of the tiles 0 … `m % 8`. -/
theorem acc1 (c : Dev nD) (n : Fin 8) (q : Fin 512) : ∀ (m : ℕ) (hm : m < cfg1.N),
    (outsAt1 V c m hm).2 (ix2 n q) = prefMin (f1 V c n ⟨512 * (m / 8) + q.val, lt_q m (lt_of_lt_of_eq hm N_1) q⟩) (m % 8 + 1) := by
  intro m
  induction m with
  | zero =>
    intro hm
    have h0 : cond1_0 (grid1.coords ⟨0, hm⟩) := (hcond1_0 ⟨0, hm⟩).mpr rfl
    rw [show outsAt1 V c 0 hm = _ from outsAt1_A V c ⟨0, hm⟩ h0]
    dsimp only
    rw [sout1_A_eq, pay2_apply', tile1 V c ⟨0, hm⟩ n q]
    rw [show (0 % 8 + 1 : ℕ) = 0 + 1 from rfl, prefMin_succ _ 0 (by decide), prefMin_zero]
    refine congrArg₂ min (pay1_apply' _) ?_
    rfl
  | succ m ih =>
    intro hm
    have hN : m + 1 < 64 := lt_of_lt_of_eq hm N_1
    by_cases h8 : (m + 1) % 8 = 0
    · have h0 : cond1_0 (grid1.coords ⟨m + 1, hm⟩) := (hcond1_0 ⟨m + 1, hm⟩).mpr h8
      rw [show outsAt1 V c (m + 1) hm = _ from outsAt1_A V c ⟨m + 1, hm⟩ h0]
      dsimp only
      rw [sout1_A_eq, pay2_apply', tile1 V c ⟨m + 1, hm⟩ n q]
      rw [prefMin_succ _ ((m + 1) % 8) (Nat.mod_lt _ (by decide))]
      refine congrArg₂ min ((pay1_apply' _).trans ?_) rfl
      rw [h8, prefMin_zero]
    · have h0 : ¬cond1_0 (grid1.coords ⟨m + 1, hm⟩) := fun h => h8 ((hcond1_0 ⟨m + 1, hm⟩).mp h)
      have hdiv : m / 8 = (m + 1) / 8 := by omega
      have hmod : m % 8 + 1 = (m + 1) % 8 := by omega
      have ih' := ih (Nat.lt_of_succ_lt hm)
      have hprev : (outsAt1 V c (m + 1 - 1) (Nat.lt_of_le_of_lt (Nat.sub_le _ _) hm)).2 (ix2 n q)
          = prefMin (f1 V c n ⟨512 * ((m + 1) / 8) + q.val, lt_q (m + 1) hN q⟩) ((m + 1) % 8) := by
        rw [← hmod]; simp only [← hdiv]; exact ih'
      have hstep : min (prefMin (f1 V c n ⟨512 * ((m + 1) / 8) + q.val, lt_q (m + 1) hN q⟩) ((m + 1) % 8))
            (nnBias (P := 512) (Q := 512) (iblk1 V c 0 ⟨m + 1, hm⟩) (iblk1 V c 1 ⟨m + 1, hm⟩) (iblk1 V c 2 ⟨m + 1, hm⟩) n q)
          = prefMin (f1 V c n ⟨512 * ((m + 1) / 8) + q.val, lt_q (m + 1) hN q⟩) ((m + 1) % 8 + 1) := by
        rw [tile1 V c ⟨m + 1, hm⟩ n q, prefMin_succ _ ((m + 1) % 8) (Nat.mod_lt _ (by decide))]
      by_cases h1 : cond1_1 (grid1.coords ⟨m + 1, hm⟩)
      · rw [show outsAt1 V c (m + 1) hm = _ from outsAt1_C V c ⟨m + 1, hm⟩ h0 h1]
        dsimp only
        rw [sout1_C_eq, pay2_apply', hprev, hstep]
      · rw [show outsAt1 V c (m + 1) hm = _ from outsAt1_B V c ⟨m + 1, hm⟩ h0 h1]
        dsimp only
        rw [sout1_B_eq, pay2_apply', hprev, hstep]

/-- At the last key tile of a query tile the output's buffer holds the finished minimum: entry (n, q) is the
    nearest-neighbour distance of query point 512·(t / 8) + q. -/
theorem outAt1 (c : Dev nD) (t : Fin cfg1.N) (h7 : t.val % 8 = 7) (n : Fin 8) (q : Fin 512) :
    (outsAt1 V c t.val t.isLt).1 (ix2 n q)
      = nnBias (P := 4096) (Q := 4096) (X1 V c) (Y1 V c) (B1 V c) n ⟨512 * (t.val / 8) + q.val, lt_q t.val (lt_of_lt_of_eq t.isLt N_1) q⟩ := by
  have h0 : ¬cond1_0 (grid1.coords t) := fun h => by have := (hcond1_0 t).mp h; omega
  have h1 : cond1_1 (grid1.coords t) := (hcond1_1 t).mpr h7
  have hacc := acc1 V c n q t.val t.isLt
  rw [outsAt1_C V c t h0 h1] at hacc ⊢
  dsimp only at hacc ⊢
  rw [out1_C_eq]
  rw [sout1_C_eq] at hacc
  rw [hacc, h7, show (7 + 1 : ℕ) = 8 from rfl, prefMin_eight]
  rfl

end Region1

end Cert.KernelIdeal.Fr

end
-- ==== Proof.KI_Final.lean ====
/-
  From blocks to the array: what a point at key tile 7 writes back is its block of one whole-array function (the
  nearest-neighbour distance of every query point), those points' blocks cover the result, so after the region the
  result array is that function.
-/
import proofs.«150336_j34505767256624_1_alg».proof.Proof.KI_Accum
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer Idealize.ShloMosaic.ValueIdx

section Region0
variable (V : (c : Dev nD) → (b : Ref sig .tc) → Buf (Elt Ideal) ((c : Thread nD τ).loc b))

/-- The region's result as ONE function of the arrays it reads: entry (n, p) is the nearest-neighbour distance of query
    point p of cloud n, the minimum over all key points of the biased squared distance. -/
def G0 (c : Dev nD) : S8x4096.Idx → EReal :=
  fun j => nnBias (P := 4096) (Q := 4096) (X0 V c) (Y0 V c) (B0 V c) (j 0) (j 1)

/-- An index of the result is in point `t`'s block iff each coordinate is in the block's range on its axis. -/
theorem mem_blk0 (t : Fin cfg0.N) (i : S8x4096.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v7).slice (win0_3.rect t)).set ↔ _
  rw [View.set_slice_whole, Rect.mem_set_unit]
  exact Iff.rfl

/-- What a point that writes back (key tile 7) writes is its block of `G`. -/
theorem flushed0_eq (c : Dev nD) (t : Fin cfg0.N) (hf : (cfg0.win 3).flush t = true) :
    (dat0 V c).flushed 3 t = ((cfg0.win 3).blk t).view.read (Elt Ideal) (G0 V c) := by
  have h7 : t.val % 8 = 7 := (flush0_3 t).mp hf
  obtain ⟨-, -, -, -, -, -, -, -, e0, e1⟩ := idx0 t
  show (cfg0.win 3).cut (grid0.coords t) ((dat0 V c).after 3 t) = _
  rw [after0_3]
  funext y
  obtain ⟨n, q, rfl⟩ : ∃ (n : Fin 8) (q : Fin 512), y = ix2 n q := ⟨y 0, y 1, eq_ix2 y⟩
  show (outsAt0 V c t.val t.isLt).1 (ix2 n q) = G0 V c (((cfg0.win 3).blk t).view.emb (ix2 n q))
  have he : ((cfg0.win 3).blk t).view.emb (ix2 n q) = ix2 n ⟨512 * (t.val / 8) + q.val, lt_q t.val (lt_of_lt_of_eq t.isLt N_0) q⟩ := by
    funext a; apply Fin.ext
    match a with
    | ⟨0, _⟩ => show win0_3.index t (0 : Fin 2) * 8 + 1 * n.val = n.val; omega
    | ⟨1, _⟩ => show win0_3.index t (1 : Fin 2) * 512 + 1 * q.val = 512 * (t.val / 8) + q.val; omega
  rw [he, outAt0 V c t h7 n q]
  rfl

/-- Every index of the result is in the block of a point that writes back: the last key tile of its query tile. -/
theorem cover0 (i : S8x4096.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hlt : 8 * ((i 1).val / 512) + 7 < cfg0.N := by rw [show cfg0.N = 64 from N_0]; omega
  refine ⟨⟨8 * ((i 1).val / 512) + 7, hlt⟩, (flush0_3 _).mpr (by show (8 * ((i 1).val / 512) + 7) % 8 = 7; omega), ?_⟩
  obtain ⟨-, -, -, -, -, -, -, -, e0, e1⟩ := idx0 ⟨8 * ((i 1).val / 512) + 7, hlt⟩
  have e1' : win0_3.index ⟨8 * ((i 1).val / 512) + 7, hlt⟩ (1 : Fin 2) = (8 * ((i 1).val / 512) + 7) / 8 := e1
  rw [mem_blk0]
  intro a
  match a with
  | ⟨0, _⟩ => show win0_3.index ⟨8 * ((i 1).val / 512) + 7, hlt⟩ (0 : Fin 2) * 8 ≤ (i 0).val ∧ (i 0).val < win0_3.index ⟨8 * ((i 1).val / 512) + 7, hlt⟩ (0 : Fin 2) * 8 + 8; omega
  | ⟨1, _⟩ => show win0_3.index ⟨8 * ((i 1).val / 512) + 7, hlt⟩ (1 : Fin 2) * 512 ≤ (i 1).val ∧ (i 1).val < win0_3.index ⟨8 * ((i 1).val / 512) + 7, hlt⟩ (1 : Fin 2) * 512 + 512; omega

/-- THE RESULT ARRAY after the region: `G` of the arrays it read. -/
theorem final0 (c : Dev nD) : (dat0 V c).arrAt 3 cfg0.N = G0 V c :=
  (dat0 V c).arrAt_eq_of_cover 3 (G0 V c) (fun t hf => flushed0_eq V c t hf) (cover0)

end Region0

section Region1
variable (V : (c : Dev nD) → (b : Ref sig .tc) → Buf (Elt Ideal) ((c : Thread nD τ).loc b))

/-- The region's result as ONE function of the arrays it reads: entry (n, p) is the nearest-neighbour distance of query
    point p of cloud n, the minimum over all key points of the biased squared distance. -/
def G1 (c : Dev nD) : S8x4096.Idx → EReal :=
  fun j => nnBias (P := 4096) (Q := 4096) (X1 V c) (Y1 V c) (B1 V c) (j 0) (j 1)

/-- An index of the result is in point `t`'s block iff each coordinate is in the block's range on its axis. -/
theorem mem_blk1 (t : Fin cfg1.N) (i : S8x4096.Idx) :
    i ∈ ((cfg1.win 3).blk t).view.set ↔ ∀ a : Fin 2, win1_3.index t a * S8x512.size a ≤ (i a).val ∧ (i a).val < win1_3.index t a * S8x512.size a + S8x512.size a := by
  show i ∈ ((View.whole main_v29).slice (win1_3.rect t)).set ↔ _
  rw [View.set_slice_whole, Rect.mem_set_unit]
  exact Iff.rfl

/-- What a point that writes back (key tile 7) writes is its block of `G`. -/
theorem flushed1_eq (c : Dev nD) (t : Fin cfg1.N) (hf : (cfg1.win 3).flush t = true) :
    (dat1 V c).flushed 3 t = ((cfg1.win 3).blk t).view.read (Elt Ideal) (G1 V c) := by
  have h7 : t.val % 8 = 7 := (flush1_3 t).mp hf
  obtain ⟨-, -, -, -, -, -, -, -, e0, e1⟩ := idx1 t
  show (cfg1.win 3).cut (grid1.coords t) ((dat1 V c).after 3 t) = _
  rw [after1_3]
  funext y
  obtain ⟨n, q, rfl⟩ : ∃ (n : Fin 8) (q : Fin 512), y = ix2 n q := ⟨y 0, y 1, eq_ix2 y⟩
  show (outsAt1 V c t.val t.isLt).1 (ix2 n q) = G1 V c (((cfg1.win 3).blk t).view.emb (ix2 n q))
  have he : ((cfg1.win 3).blk t).view.emb (ix2 n q) = ix2 n ⟨512 * (t.val / 8) + q.val, lt_q t.val (lt_of_lt_of_eq t.isLt N_1) q⟩ := by
    funext a; apply Fin.ext
    match a with
    | ⟨0, _⟩ => show win1_3.index t (0 : Fin 2) * 8 + 1 * n.val = n.val; omega
    | ⟨1, _⟩ => show win1_3.index t (1 : Fin 2) * 512 + 1 * q.val = 512 * (t.val / 8) + q.val; omega
  rw [he, outAt1 V c t h7 n q]
  rfl

/-- Every index of the result is in the block of a point that writes back: the last key tile of its query tile. -/
theorem cover1 (i : S8x4096.Idx) : ∃ t : Fin cfg1.N, (cfg1.win 3).flush t = true ∧ i ∈ ((cfg1.win 3).blk t).view.set := by
  have hi0 : (i 0).val < 8 := (i 0).isLt
  have hi1 : (i 1).val < 4096 := (i 1).isLt
  have hlt : 8 * ((i 1).val / 512) + 7 < cfg1.N := by rw [show cfg1.N = 64 from N_1]; omega
  refine ⟨⟨8 * ((i 1).val / 512) + 7, hlt⟩, (flush1_3 _).mpr (by show (8 * ((i 1).val / 512) + 7) % 8 = 7; omega), ?_⟩
  obtain ⟨-, -, -, -, -, -, -, -, e0, e1⟩ := idx1 ⟨8 * ((i 1).val / 512) + 7, hlt⟩
  have e1' : win1_3.index ⟨8 * ((i 1).val / 512) + 7, hlt⟩ (1 : Fin 2) = (8 * ((i 1).val / 512) + 7) / 8 := e1
  rw [mem_blk1]
  intro a
  match a with
  | ⟨0, _⟩ => show win1_3.index ⟨8 * ((i 1).val / 512) + 7, hlt⟩ (0 : Fin 2) * 8 ≤ (i 0).val ∧ (i 0).val < win1_3.index ⟨8 * ((i 1).val / 512) + 7, hlt⟩ (0 : Fin 2) * 8 + 8; omega
  | ⟨1, _⟩ => show win1_3.index ⟨8 * ((i 1).val / 512) + 7, hlt⟩ (1 : Fin 2) * 512 ≤ (i 1).val ∧ (i 1).val < win1_3.index ⟨8 * ((i 1).val / 512) + 7, hlt⟩ (1 : Fin 2) * 512 + 512; omega

/-- THE RESULT ARRAY after the region: `G` of the arrays it read. -/
theorem final1 (c : Dev nD) : (dat1 V c).arrAt 3 cfg1.N = G1 V c :=
  (dat1 V c).arrAt_eq_of_cover 3 (G1 V c) (fun t hf => flushed1_eq V c t hf) (cover1)

end Region1

end Cert.KernelIdeal.Fr

end
-- ==== Proof.KI_Run.lean ====
/-
  The whole run of the program: its buffers' contents at every boundary between the host stretches and the two
  nearest-neighbour regions, as a fold from the launch memory; each region as a segment over the thread state "every
  unscoped buffer at the boundary's contents, the generator register at some state, nothing owed"; and the run itself:
  every weakly fair execution terminates with every unscoped buffer at the last boundary's contents.
-/
import proofs.«150336_j34505767256624_1_alg».proof.Proof.KI_Body0
import proofs.«150336_j34505767256624_1_alg».proof.Proof.KI_Body1
import proofs.«150336_j34505767256624_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- At region 0's exit: its arrays at what the pipeline leaves (the inputs as entered, the output's write-backs folded),
    every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

abbrev W4 : Dev nD → Valuation τ sig (Elt F) := fun c => StableHlo.after hostOps1 (W3 m c)
abbrev W5 : Dev nD → Valuation τ sig (Elt F) := fun c => StableHlo.after hostOps1_1 (W4 m c)
abbrev W6 : Dev nD → Valuation τ sig (Elt F) := fun c => StableHlo.after hostOps1_2 (W5 m c)
abbrev W7 : Dev nD → Valuation τ sig (Elt F) := fun c => StableHlo.after hostOps1_3 (W6 m c)
abbrev V7 : (c : Dev nD) → (b : Ref sig .tc) → Buf (Elt F) ((c : Thread nD τ).loc b) := fun c b => W7 m c b

/-- At region 1's exit: its arrays at what the pipeline leaves (the inputs as entered, the output's write-backs folded),
    every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

abbrev W9 : Dev nD → Valuation τ sig (Elt F) := fun c => StableHlo.after hostOps2 (W8 m c)
abbrev W10 : Dev nD → Valuation τ sig (Elt F) := fun c => StableHlo.after hostOps2_1 (W9 m c)
abbrev W11 : Dev nD → Valuation τ sig (Elt F) := fun c => StableHlo.after hostOps2_2 (W10 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 as a segment of @main: entered from every unscoped buffer at `W2`, left at `W3`. Its arrays are split out
    of the unscoped buffers and put back at the contents the pipeline leaves; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiS0 (V2 m) c 0 (Nat.zero_le _) from rfl]
    iintro ⟨Hp, -, Hr⟩
    iapply (PhiS0_in (V2 m) c (Nat.zero_le _))
    isplitl [Hp]; · iexact Hp
    iexact Hr
  hout c := by
    rw [Pipeline.ownSems0_none, show (pdats m 0 c).Φ (Fin.last _) = PhiS0 (V2 m) c cfg0.N (Nat.le_refl _) from rfl]
    iintro HΦ
    ihave H := (PhiS0_out (V2 m) c cfg0.N (Nat.le_refl _) (by rw [show cfg0.N = 64 from N_0]; decide)) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of @main: entered from every unscoped buffer at `W7`, left at `W8`. Its arrays are split out
    of the unscoped buffers and put back at the contents the pipeline leaves; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (V7 m) c 0 (Nat.zero_le _) from rfl]
    iintro ⟨Hp, -, Hr⟩
    iapply (PhiS1_in (V7 m) c (Nat.zero_le _))
    isplitl [Hp]; · iexact Hp
    iexact Hr
  hout c := by
    rw [Pipeline.ownSems0_none, show (pdats m 1 c).Φ (Fin.last _) = PhiS1 (V7 m) c cfg1.N (Nat.le_refl _) from rfl]
    iintro HΦ
    ihave H := (PhiS1_out (V7 m) c cfg1.N (Nat.le_refl _) (by rw [show cfg1.N = 64 from N_1]; decide)) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .host (hseg hostOps1_2 hostOps1_2_sub hostOps1_2_fresh (W5 m)),
    .host (hseg hostOps1_3 hostOps1_3_sub hostOps1_3_fresh (W6 m)),
    .region (reg1 m),
    .host (hseg hostOps2 hostOps2_sub hostOps2_fresh (W8 m)),
    .host (hseg hostOps2_1 hostOps2_1_sub hostOps2_1_fresh (W9 m)),
    .host (hseg hostOps2_2 hostOps2_2_sub hostOps2_2_fresh (W10 m)) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W11 m c))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m c) ∗ R c)
          ⊢ iprop(StableHlo.held (c : Thread nD τ) (Pipeline.ucRefs τ sig) (W11 m c) ∗ ∃ W, owes (c : Thread nD τ) (0 : CellTallies nD τ sig Unit) W)
        iintro ⟨Hh, ⟨-, HO⟩⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨Hh, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Fr

end
-- ==== Proof.KI_Kept.lean ====
/-
  No host stretch and no region writes an argument array: read through the fold of the boundaries' contents, each argument
  reaches the end as launched; so the run's post gives the frame claim. Also what the second region's entry and the last
  boundary hold of the buffers the first region and the first direction's tail wrote.
-/
import proofs.«150336_j34505767256624_1_alg».proof.Proof.KI_Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A host stretch leaves alone every buffer it does not write -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W4_of (c : Dev nD) (r : Ref sig .tc) (h : r ∉ hostOps1_W) : W4 m c r = W3 m c r :=
  StableHlo.after_of_writes_sub hostOps1 _ hostOps1_writes h
theorem W5_of (c : Dev nD) (r : Ref sig .tc) (h : r ∉ hostOps1_1_W) : W5 m c r = W4 m c r :=
  StableHlo.after_of_writes_sub hostOps1_1 _ hostOps1_1_writes h
theorem W6_of (c : Dev nD) (r : Ref sig .tc) (h : r ∉ hostOps1_2_W) : W6 m c r = W5 m c r :=
  StableHlo.after_of_writes_sub hostOps1_2 _ hostOps1_2_writes h
theorem W7_of (c : Dev nD) (r : Ref sig .tc) (h : r ∉ hostOps1_3_W) : W7 m c r = W6 m c r :=
  StableHlo.after_of_writes_sub hostOps1_3 _ hostOps1_3_writes h
theorem W9_of (c : Dev nD) (r : Ref sig .tc) (h : r ∉ hostOps2_W) : W9 m c r = W8 m c r :=
  StableHlo.after_of_writes_sub hostOps2 _ hostOps2_writes h
theorem W10_of (c : Dev nD) (r : Ref sig .tc) (h : r ∉ hostOps2_1_W) : W10 m c r = W9 m c r :=
  StableHlo.after_of_writes_sub hostOps2_1 _ hostOps2_1_writes h
theorem W11_of (c : Dev nD) (r : Ref sig .tc) (h : r ∉ hostOps2_2_W) : W11 m c r = W10 m c r :=
  StableHlo.after_of_writes_sub hostOps2_2 _ hostOps2_2_writes h

/-! ## A region leaves its input arrays and every buffer that is no array of its own as entered -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((dat0 (V2 m) c).arrAt_in w hw _).trans (A_eq0 (V2 m) c w))
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (V7 m) c).arrAt_in w hw _).trans (A_eq1 (V7 m) c w))

theorem W2_arg0 (c : Dev nD) : W2 m c main_arg0 = m ((c : Thread nD τ).loc main_arg0) := (W2_of m c main_arg0 (by decide)).trans ((W1_of m c main_arg0 (by decide)).trans rfl)
theorem W2_arg1 (c : Dev nD) : W2 m c main_arg1 = m ((c : Thread nD τ).loc main_arg1) := (W2_of m c main_arg1 (by decide)).trans ((W1_of m c main_arg1 (by decide)).trans rfl)
theorem W2_arg2 (c : Dev nD) : W2 m c main_arg2 = m ((c : Thread nD τ).loc main_arg2) := (W2_of m c main_arg2 (by decide)).trans ((W1_of m c main_arg2 (by decide)).trans rfl)
theorem W2_arg3 (c : Dev nD) : W2 m c main_arg3 = m ((c : Thread nD τ).loc main_arg3) := (W2_of m c main_arg3 (by decide)).trans ((W1_of m c main_arg3 (by decide)).trans rfl)

theorem W3_arg0 (c : Dev nD) : W3 m c main_arg0 = m ((c : Thread nD τ).loc main_arg0) := (W3_in m c 0 rfl).trans (W2_arg0 m c)
theorem W3_arg1 (c : Dev nD) : W3 m c main_arg1 = m ((c : Thread nD τ).loc main_arg1) := (W3_in m c 1 rfl).trans (W2_arg1 m c)
theorem W3_arg2 (c : Dev nD) : W3 m c main_arg2 = m ((c : Thread nD τ).loc main_arg2) := (W3_of_ne m c main_arg2 (by decide)).trans (W2_arg2 m c)
theorem W3_arg3 (c : Dev nD) : W3 m c main_arg3 = m ((c : Thread nD τ).loc main_arg3) := (W3_of_ne m c main_arg3 (by decide)).trans (W2_arg3 m c)

/-- The four host stretches between the regions leave a buffer none of them writes as the first region left it. -/
theorem W7_of' (c : Dev nD) (r : Ref sig .tc) (h1 : r ∉ hostOps1_W) (h2 : r ∉ hostOps1_1_W) (h3 : r ∉ hostOps1_2_W) (h4 : r ∉ hostOps1_3_W) :
    W7 m c r = W3 m c r :=
  (W7_of m c r h4).trans ((W6_of m c r h3).trans ((W5_of m c r h2).trans (W4_of m c r h1)))
theorem W7_arg0 (c : Dev nD) : W7 m c main_arg0 = m ((c : Thread nD τ).loc main_arg0) := (W7_of' m c main_arg0 (by decide) (by decide) (by decide) (by decide)).trans (W3_arg0 m c)
theorem W7_arg1 (c : Dev nD) : W7 m c main_arg1 = m ((c : Thread nD τ).loc main_arg1) := (W7_of' m c main_arg1 (by decide) (by decide) (by decide) (by decide)).trans (W3_arg1 m c)
theorem W7_arg2 (c : Dev nD) : W7 m c main_arg2 = m ((c : Thread nD τ).loc main_arg2) := (W7_of' m c main_arg2 (by decide) (by decide) (by decide) (by decide)).trans (W3_arg2 m c)
theorem W7_arg3 (c : Dev nD) : W7 m c main_arg3 = m ((c : Thread nD τ).loc main_arg3) := (W7_of' m c main_arg3 (by decide) (by decide) (by decide) (by decide)).trans (W3_arg3 m c)

theorem W8_arg0 (c : Dev nD) : W8 m c main_arg0 = m ((c : Thread nD τ).loc main_arg0) := (W8_in m c 1 rfl).trans (W7_arg0 m c)
theorem W8_arg1 (c : Dev nD) : W8 m c main_arg1 = m ((c : Thread nD τ).loc main_arg1) := (W8_in m c 0 rfl).trans (W7_arg1 m c)
theorem W8_arg2 (c : Dev nD) : W8 m c main_arg2 = m ((c : Thread nD τ).loc main_arg2) := (W8_of_ne m c main_arg2 (by decide)).trans (W7_arg2 m c)
theorem W8_arg3 (c : Dev nD) : W8 m c main_arg3 = m ((c : Thread nD τ).loc main_arg3) := (W8_of_ne m c main_arg3 (by decide)).trans (W7_arg3 m c)
theorem W8_v21 (c : Dev nD) : W8 m c main_v21 = W7 m c main_v21 := W8_of_ne m c main_v21 (by decide)

theorem W11_of' (c : Dev nD) (r : Ref sig .tc) (h1 : r ∉ hostOps2_W) (h2 : r ∉ hostOps2_1_W) (h3 : r ∉ hostOps2_2_W) :
    W11 m c r = W8 m c r :=
  (W11_of m c r h3).trans ((W10_of m c r h2).trans (W9_of m c r h1))
theorem W11_arg0 (c : Dev nD) : W11 m c main_arg0 = m ((c : Thread nD τ).loc main_arg0) := (W11_of' m c main_arg0 (by decide) (by decide) (by decide)).trans (W8_arg0 m c)
theorem W11_arg1 (c : Dev nD) : W11 m c main_arg1 = m ((c : Thread nD τ).loc main_arg1) := (W11_of' m c main_arg1 (by decide) (by decide) (by decide)).trans (W8_arg1 m c)
theorem W11_arg2 (c : Dev nD) : W11 m c main_arg2 = m ((c : Thread nD τ).loc main_arg2) := (W11_of' m c main_arg2 (by decide) (by decide) (by decide)).trans (W8_arg2 m c)
theorem W11_arg3 (c : Dev nD) : W11 m c main_arg3 = m ((c : Thread nD τ).loc main_arg3) := (W11_of' m c main_arg3 (by decide) (by decide) (by decide)).trans (W8_arg3 m c)

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_arg0 m c),
     (h c _ (mem_uc main_arg1 (by decide))).trans (W11_arg1 m c),
     (h c _ (mem_uc main_arg2 (by decide))).trans (W11_arg2 m c),
     (h c _ (mem_uc main_arg3 (by decide))).trans (W11_arg3 m c)⟩) (run_all m ρ)

end Cert.KernelIdeal.Fr

end
-- ==== Proof.KerHost.lean ====
/-
  The host side of the kernel program on the extended reals, for any start contents of the buffers.

  Around its two calls the program computes on the host: before each call the bias array, 0 where the point's number
  is below the cloud's length and +∞ elsewhere (`bias0`, `bias1`: it is the specification's `bias`); after each call
  that direction's mean (`KerHalf`: the entries at or beyond the length replaced by 0, the rows summed, each sum divided
  by max(len, 1), the eight quotients summed, the sum divided by 8); and last the sum of the two means (`tail`).
  Each statement reads one buffer after a stretch of host operations as a term over the buffers the stretch starts
  from; the reductions are kept as they are.
-/
import proofs.«150336_j34505767256624_1_alg».proof.Proof.Gen.KernelIdeal.Launch
import proofs.«150336_j34505767256624_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerHost

open Idealize.ShloMosaic Idealize.SL.Sem Idealize.ShloMosaic.ValueIdx Cert.KernelIdeal Cert.KernelIdeal.Gen

/-- The word 0x7F800000 denotes +∞. -/
theorem ofBits_inf : Ideal.ofBits .f32 0x7F800000#32 = (⊤ : EReal) := by simp [Ideal.ofBits, Ideal.ieee]

/-! ## The bias array -/

/-- The host's bias term read at an index: the select on "the point's number k, as a signed word, is below the cloud's
    length" between the splats of 0 and of +∞ is the specification's bias. -/
theorem biasTerm_apply (len : IVec S8 32) (h1 : S4096.BroadcastsInDim S1x4096 ![1]) (h2 : S8.BroadcastsInDim S8x1 ![0])
    (h3 : S1x4096.BroadcastsInDim S8x4096 ![0, 1]) (h4 : S8x1.BroadcastsInDim S8x4096 ![0, 1])
    (h5 : S_.BroadcastsInDim S8x4096 ![]) (j : S8x4096.Idx) :
    select (cmpi .slt (broadcastInDim S8x4096 ![0, 1] h3 (broadcastInDim S1x4096 ![1] h1 (iotaInDim S4096 32 0)))
        (broadcastInDim S8x4096 ![0, 1] h4 (broadcastInDim S8x1 ![0] h2 len)))
      (broadcastInDim S8x4096 ![] h5 (constant (F := Ideal) S_ .f32 0x00000000#32))
      (broadcastInDim S8x4096 ![] h5 (constant (F := Ideal) S_ .f32 0x7F800000#32)) j = Cert.Chamfer.bias len j := by
  obtain ⟨n, k, rfl⟩ : ∃ (n : Fin 8) (k : Fin 4096), j = ix2 n k := ⟨j 0, j 1, eq_ix2 j⟩
  have hA : broadcastInDim S8x4096 ![0, 1] h3 (broadcastInDim S1x4096 ![1] h1 (iotaInDim S4096 32 0)) (ix2 n k)
      = BitVec.ofNat 32 k.val := by
    refine (broadcastInDim_apply _ h3 _ (ix2 n k) (ix2 (0 : Fin 1) k) fun a => ?_).trans ?_
    · match a with
      | ⟨0, _⟩ => rfl
      | ⟨1, _⟩ => rfl
    refine (broadcastInDim_apply _ h1 _ (ix2 (0 : Fin 1) k) (ix1 k) fun a => ?_).trans ?_
    · match a with
      | ⟨0, _⟩ => rfl
    rfl
  have hB : broadcastInDim S8x4096 ![0, 1] h4 (broadcastInDim S8x1 ![0] h2 len) (ix2 n k) = len (ix1 n) := by
    refine (broadcastInDim_apply _ h4 _ (ix2 n k) (ix2 n (0 : Fin 1)) fun a => ?_).trans ?_
    · match a with
      | ⟨0, _⟩ => rfl
      | ⟨1, _⟩ => rfl
    refine broadcastInDim_apply _ h2 _ (ix2 n (0 : Fin 1)) (ix1 n) fun a => ?_
    match a with
    | ⟨0, _⟩ => rfl
  refine (congrArg₂ (fun a b => Scalar.select (IntOp.cmpi .slt a b) (Ideal.ofBits .f32 0x00000000#32)
    (Ideal.ofBits .f32 0x7F800000#32)) hA hB).trans ?_
  rw [Ideal.ofBits_zero_f32, ofBits_inf]
  have hb : Cert.Chamfer.bias len (ix2 n k)
      = @ite _ (Cert.Chamfer.valid len n k) (Classical.propDecidable _) (0 : EReal) ⊤ := rfl
  rw [hb]
  show Scalar.select (IntOp.cmpi .slt (BitVec.ofNat 32 k.val) (len (ix1 n))) (0 : EReal) ⊤ = _
  by_cases hv : Cert.Chamfer.valid len n k
  · rw [if_pos hv]
    have hc : IntOp.cmpi .slt (BitVec.ofNat 32 k.val) (len (ix1 n)) = 1#1 := by
      unfold Cert.Chamfer.valid at hv
      simp only [IntOp.cmpi, hv]
      rfl
    rw [hc]
    exact select_one _ _
  · rw [if_neg hv]
    have hf : (BitVec.ofNat 32 k.val).slt (len (ix1 n)) = false := by
      unfold Cert.Chamfer.valid at hv
      simpa using hv
    have hc : IntOp.cmpi .slt (BitVec.ofNat 32 k.val) (len (ix1 n)) = 0#1 := by
      simp only [IntOp.cmpi, hf]
      rfl
    rw [hc]
    exact select_zero _ _

/-- The bias array the first call reads is the specification's bias at the lengths of the second cloud. -/
theorem bias0 (W : Valuation τ sig (Elt Ideal)) :
    StableHlo.after (hostOps0_1 (F := Ideal)) (StableHlo.after (hostOps0 (F := Ideal)) W) (Proc.devRef .tc main_v6)
      = Cert.Chamfer.bias (W (Proc.devRef .tc main_arg3)) := by
  funext j
  after_results
  exact biasTerm_apply (W (Proc.devRef .tc main_arg3)) bcast_S4096_S1x4096_1 bcast_S8_S8x1_0 bcast_S1x4096_S8x4096_0_1
    bcast_S8x1_S8x4096_0_1 bcast_S_S8x4096 j

/-- The bias array the second call reads is the specification's bias at the lengths of the first cloud. -/
theorem bias1 (W : Valuation τ sig (Elt Ideal)) :
    StableHlo.after (hostOps1_3 (F := Ideal)) (StableHlo.after (hostOps1_2 (F := Ideal))
        (StableHlo.after (hostOps1_1 (F := Ideal)) (StableHlo.after (hostOps1 (F := Ideal)) W))) (Proc.devRef .tc main_v28)
      = Cert.Chamfer.bias (W (Proc.devRef .tc main_arg2)) := by
  funext j
  after_results
  exact biasTerm_apply (W (Proc.devRef .tc main_arg2)) bcast_S4096_S1x4096_1 bcast_S8_S8x1_0 bcast_S1x4096_S8x4096_0_1
    bcast_S8x1_S8x4096_0_1 bcast_S_S8x4096 j

/-! ## One direction's tail -/

/-- One direction's tail as the host computes it from the array `a` of nearest-neighbour distances and the lengths
    `len`: entries whose point number is at or beyond the cloud's length are replaced by 0, the rows are summed, each sum
    is divided by max(len, 1), the eight quotients are summed and the sum is divided by 8. -/
def KerHalf (a : (⟨S8x4096, .f32⟩ : BufTy).Contents (Elt Ideal)) (len : (⟨S8, .i32⟩ : BufTy).Contents (Elt Ideal)) :
    (⟨S_, .f32⟩ : BufTy).Contents (Elt Ideal) :=
  Host.divf (F := Ideal)
    (Host.reduceAdd (F := Ideal)
      (Host.divf (F := Ideal)
        (Host.reduceAdd (F := Ideal)
          (select
            (cmpi .sge
              (broadcastInDim S8x4096 ![0, 1] bcast_S1x4096_S8x4096_0_1
                (broadcastInDim S1x4096 ![1] bcast_S4096_S1x4096_1 (iotaInDim S4096 32 0)))
              (broadcastInDim S8x4096 ![0, 1] bcast_S8x1_S8x4096_0_1 (broadcastInDim S8x1 ![0] bcast_S8_S8x1_0 len)))
            (broadcastInDim S8x4096 ![] bcast_S_S8x4096 (constant (F := Ideal) S_ .f32 0x00000000#32))
            a)
          (constant (F := Ideal) S_ .f32 0x00000000#32) reducesTo_S8x4096_S8_d1 h_S_)
        (sitofp (F := Ideal) .f32 (maxsi len (broadcastInDim S8 ![] bcast_S_S8 (constantI S_ 32 1#32)))))
      (constant (F := Ideal) S_ .f32 0x00000000#32) reducesTo_S8_S_d0 h_S_)
    (constant (F := Ideal) S_ .f32 0x41000000#32)

/-- The first direction's mean, after the four host stretches between the two calls, is `KerHalf` of the first call's
    result and the first cloud's lengths. -/
theorem half0 (W : Valuation τ sig (Elt Ideal)) :
    StableHlo.after (hostOps1_3 (F := Ideal)) (StableHlo.after (hostOps1_2 (F := Ideal))
        (StableHlo.after (hostOps1_1 (F := Ideal)) (StableHlo.after (hostOps1 (F := Ideal)) W))) (Proc.devRef .tc main_v21)
      = KerHalf (W (Proc.devRef .tc main_v7)) (W (Proc.devRef .tc main_arg2)) := by
  after_results
  rfl

/-- The program's result, after the three host stretches that follow the second call, is the sum of the first
    direction's mean as it stood and `KerHalf` of the second call's result and the second cloud's lengths. -/
theorem tail (W : Valuation τ sig (Elt Ideal)) :
    StableHlo.after (hostOps2_2 (F := Ideal)) (StableHlo.after (hostOps2_1 (F := Ideal))
        (StableHlo.after (hostOps2 (F := Ideal)) W)) (Proc.devRef .tc main_v44)
      = addf (F := Ideal) (s := S_) (φ := .f32)
          (W (Proc.devRef .tc main_v21) : (⟨S_, .f32⟩ : BufTy).Contents (Elt Ideal))
          (KerHalf (W (Proc.devRef .tc main_v29)) (W (Proc.devRef .tc main_arg3))) := by
  after_results_simp
  rfl

end Cert.KernelIdeal.KerHost

end
-- ==== Proof.KI_Value.lean ====
/-
  The two regions' results in terms of the launch memory: the first region's result array is, entry by entry, the minimum
  over the key points of the second cloud of the biased squared distance from the query point of the first cloud, the bias
  made from the second cloud's lengths; the second region's the same with the clouds (and lengths) exchanged.
-/
import proofs.«150336_j34505767256624_1_alg».proof.Proof.KI_Final
import proofs.«150336_j34505767256624_1_alg».proof.Proof.KI_Kept
import proofs.«150336_j34505767256624_1_alg».proof.Proof.KerHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer Idealize.ShloMosaic.ValueIdx

variable (m : (ℓ : Loc nD τ sig) → Buf (Elt Ideal) ℓ)

/-- The first region's result, given what its bias array holds. -/
theorem res0 (c : Dev nD)
    (hb : (W2 m c main_v6 : S8x4096.Idx → EReal) = bias (m ((c : Thread nD τ).loc main_arg3))) :
    (W3 m c main_v7 : S8x4096.Idx → EReal)
      = fun j => nnBias (P := 4096) (Q := 4096) (m ((c : Thread nD τ).loc main_arg0)) (m ((c : Thread nD τ).loc main_arg1))
          (bias (m ((c : Thread nD τ).loc main_arg3))) (j 0) (j 1) := by
  refine ((W3_arr m c 3).trans (final0 (V2 m) c)).trans ?_
  unfold G0
  have e0 : X0 (V2 m) c = m ((c : Thread nD τ).loc main_arg0) := W2_arg0 m c
  have e1 : Y0 (V2 m) c = m ((c : Thread nD τ).loc main_arg1) := W2_arg1 m c
  have e2 : B0 (V2 m) c = bias (m ((c : Thread nD τ).loc main_arg3)) := hb
  rw [e0, e1, e2]
  rfl

/-- The second region's result, given what its bias array holds. -/
theorem res1 (c : Dev nD)
    (hb : (W7 m c main_v28 : S8x4096.Idx → EReal) = bias (m ((c : Thread nD τ).loc main_arg2))) :
    (W8 m c main_v29 : S8x4096.Idx → EReal)
      = fun j => nnBias (P := 4096) (Q := 4096) (m ((c : Thread nD τ).loc main_arg1)) (m ((c : Thread nD τ).loc main_arg0))
          (bias (m ((c : Thread nD τ).loc main_arg2))) (j 0) (j 1) := by
  refine ((W8_arr m c 3).trans (final1 (V7 m) c)).trans ?_
  unfold G1
  have e0 : X1 (V7 m) c = m ((c : Thread nD τ).loc main_arg1) := W7_arg1 m c
  have e1 : Y1 (V7 m) c = m ((c : Thread nD τ).loc main_arg0) := W7_arg0 m c
  have e2 : B1 (V7 m) c = bias (m ((c : Thread nD τ).loc main_arg2)) := hb
  rw [e0, e1, e2]
  rfl

open Cert.KernelIdeal.KerHost in
/-- THE RESULT of the program in terms of the launch memory: the two directions' tails — each zeroing the padded query
    points, averaging over a cloud's points and over the batch — of the two regions' results, added. -/
theorem result (c : Dev nD) :
    (W11 m c main_v44 : (⟨S_, .f32⟩ : BufTy).Contents (Elt Ideal))
      = addf (F := Ideal) (s := S_) (φ := .f32)
          (KerHalf (fun j => nnBias (P := 4096) (Q := 4096) (m ((c : Thread nD τ).loc main_arg0)) (m ((c : Thread nD τ).loc main_arg1))
              (bias (m ((c : Thread nD τ).loc main_arg3))) (j 0) (j 1)) (m ((c : Thread nD τ).loc main_arg2)))
          (KerHalf (fun j => nnBias (P := 4096) (Q := 4096) (m ((c : Thread nD τ).loc main_arg1)) (m ((c : Thread nD τ).loc main_arg0))
              (bias (m ((c : Thread nD τ).loc main_arg2))) (j 0) (j 1)) (m ((c : Thread nD τ).loc main_arg3))) := by
  have hb0 : (W2 m c main_v6 : S8x4096.Idx → EReal) = bias (m ((c : Thread nD τ).loc main_arg3)) := bias0 (W0 m c)
  have hb1 : (W7 m c main_v28 : S8x4096.Idx → EReal) = bias (m ((c : Thread nD τ).loc main_arg2)) :=
    (bias1 (W3 m c)).trans (congrArg bias (W3_arg2 m c))
  have h21 : (W8 m c main_v21 : (⟨S_, .f32⟩ : BufTy).Contents (Elt Ideal)) = KerHalf (W3 m c main_v7) (W3 m c main_arg2) :=
    (W8_v21 m c).trans (half0 (W3 m c))
  refine (tail (W8 m c)).trans ?_
  rw [h21, W3_arg2 m c, W8_arg3 m c, res0 m c hb0, res1 m c hb1]
  rfl

end Cert.KernelIdeal.Fr

end
-- ==== Proof.KerRefTail.lean ====
/-
  The two programs' per-direction tails are one function.

  After the nearest-neighbour stage both programs apply the same host operations to the array of distances and the
  lengths: entries at or beyond the length replaced by 0, rows summed, each sum divided by max(len, 1), the eight
  quotients summed, the sum divided by 8.  The kernel program's term (`KerHalf`) and the reference program's term
  (`RefHalf` below, over the reference's own shape names and shape facts) differ only in the names of the shapes, which
  abbreviate the same literals, and in the proofs of the shape facts, which are proofs of propositions: they are
  equal by definition.
-/
import proofs.«150336_j34505767256624_1_alg».proof.Proof.KerHost
import proofs.«150336_j34505767256624_1_alg».proof.Proof.Gen.ReferenceIdeal

noncomputable section

namespace Cert.KerRefTail

open Cert.ReferenceIdeal Cert.ReferenceIdeal.Gen Idealize.ShloMosaic Idealize.ShloMosaic.StableHlo

/-- The reference program's per-direction tail, over the reference's shapes and shape facts. -/
def RefHalf (a : (⟨S8x4096, .f32⟩ : BufTy).Contents (Elt Ideal)) (xl : (⟨S8, .i32⟩ : BufTy).Contents (Elt Ideal)) :
    (⟨S_, .f32⟩ : BufTy).Contents (Elt Ideal) :=
  Host.divf (F := Ideal) (Host.reduceAdd (F := Ideal) (Host.divf (F := Ideal) (Host.reduceAdd (F := Ideal)
    (select (cmpi .sge (broadcastInDim S8x4096 ![0, 1] bcast_S1x4096_S8x4096_0_1 (broadcastInDim S1x4096 ![1] bcast_S4096_S1x4096_1 (iotaInDim S4096 32 0)))
        (broadcastInDim S8x4096 ![0, 1] bcast_S8x1_S8x4096_0_1 (broadcastInDim S8x1 ![0] bcast_S8_S8x1_0 xl)))
      (broadcastInDim S8x4096 ![] bcast_S_S8x4096 (id (constant (F := Ideal) S_ .f32 0x00000000#32))) a)
    (constant (F := Ideal) S_ .f32 0x00000000#32) reducesTo_S8x4096_S8_d1 h_S_)
    (sitofp (F := Ideal) .f32 (maxsi xl (broadcastInDim S8 ![] bcast_S_S8 (constantI S_ 32 1#32)))))
    (constant (F := Ideal) S_ .f32 0x00000000#32) reducesTo_S8_S_d0 h_S_) (constant (F := Ideal) S_ .f32 0x41000000#32)

/-- The reference program's tail: the sum of the two directions' means. -/
def RefTail (a b : (⟨S8x4096, .f32⟩ : BufTy).Contents (Elt Ideal)) (xl yl : (⟨S8, .i32⟩ : BufTy).Contents (Elt Ideal)) :
    (⟨S_, .f32⟩ : BufTy).Contents (Elt Ideal) :=
  addf (F := Ideal) (s := S_) (φ := .f32) (RefHalf a xl) (RefHalf b yl)

/-- The kernel program's per-direction tail is the reference's. -/
theorem kerHalf_eq_refHalf (a : (⟨S8x4096, .f32⟩ : BufTy).Contents (Elt Ideal)) (xl : (⟨S8, .i32⟩ : BufTy).Contents (Elt Ideal)) :
    Cert.KernelIdeal.KerHost.KerHalf a xl = RefHalf a xl := rfl

/-- The sum of the kernel program's two means is the reference's tail. -/
theorem kerTail_eq_refTail (a b : (⟨S8x4096, .f32⟩ : BufTy).Contents (Elt Ideal)) (xl yl : (⟨S8, .i32⟩ : BufTy).Contents (Elt Ideal)) :
    addf (F := Ideal) (s := Cert.KernelIdeal.S_) (φ := .f32) (Cert.KernelIdeal.KerHost.KerHalf a xl)
      (Cert.KernelIdeal.KerHost.KerHalf b yl) = RefTail a b xl yl := rfl

end Cert.KerRefTail

end
-- ==== Proof.RefRun.lean ====
/-
  The reference program's run: every weakly fair execution of its entry point terminates with the result buffer at
  the composed term of the four arguments that the imported run module names `res_main_v72`, and with the arguments
  unchanged.

  The operations of the program's four inlined calls address their buffers through typed references, which carry
  contents to and from a buffer along the equation "the buffer's type is the value's type".  For every buffer of this
  program that equation holds by computation, so each such transport is the identity; with the transports removed the
  fold of the operations' results over the launch contents is literally the composed term.
-/
import proofs.«150336_j34505767256624_1_alg».proof.Proof.RefRunP

noncomputable section

namespace Cert.ReferenceIdeal.RefValue

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

/-! ## The transports of the typed references are the identity

One equation per buffer that an inlined call's operation reads or writes and per direction of the transport; each is an
equation between the transported contents and the contents themselves, for any proofs of the reference's three facts. -/

theorem toBuf_main_cst_2 (p1 p2 p3) (v : (⟨S_, .f32⟩ : BufTy).Contents (Elt F)) :
    (TRef.of (sig := sig) (T := ⟨S_, .f32⟩) main_cst_2 p1 p2 p3).toBuf (Val := Elt F) v = v := id rfl
theorem ofBuf_main_cst_2 (p1 p2 p3) (v : (⟨S_, .f32⟩ : BufTy).Contents (Elt F)) :
    (TRef.of (sig := sig) (T := ⟨S_, .f32⟩) main_cst_2 p1 p2 p3).ofBuf (Val := Elt F) v = v := id rfl
theorem toBuf_main_call0_v0 (p1 p2 p3) (v : (⟨S_, .f32⟩ : BufTy).Contents (Elt F)) :
    (TRef.of (sig := sig) (T := ⟨S_, .f32⟩) main_call0_v0 p1 p2 p3).toBuf (Val := Elt F) v = v := id rfl
theorem ofBuf_main_call0_v0 (p1 p2 p3) (v : (⟨S_, .f32⟩ : BufTy).Contents (Elt F)) :
    (TRef.of (sig := sig) (T := ⟨S_, .f32⟩) main_call0_v0 p1 p2 p3).ofBuf (Val := Elt F) v = v := id rfl
theorem toBuf_main_v19 (p1 p2 p3) (v : (⟨S8x1x4096, .i1⟩ : BufTy).Contents (Elt F)) :
    (TRef.of (sig := sig) (T := ⟨S8x1x4096, .i1⟩) main_v19 p1 p2 p3).toBuf (Val := Elt F) v = v := id rfl
theorem ofBuf_main_v19 (p1 p2 p3) (v : (⟨S8x1x4096, .i1⟩ : BufTy).Contents (Elt F)) :
    (TRef.of (sig := sig) (T := ⟨S8x1x4096, .i1⟩) main_v19 p1 p2 p3).ofBuf (Val := Elt F) v = v := id rfl
theorem toBuf_main_call0_v1 (p1 p2 p3) (v : (⟨S8x4096x4096, .i1⟩ : BufTy).Contents (Elt F)) :
    (TRef.of (sig := sig) (T := ⟨S8x4096x4096, .i1⟩) main_call0_v1 p1 p2 p3).toBuf (Val := Elt F) v = v := id rfl
theorem ofBuf_main_call0_v1 (p1 p2 p3) (v : (⟨S8x4096x4096, .i1⟩ : BufTy).Contents (Elt F)) :
    (TRef.of (sig := sig) (T := ⟨S8x4096x4096, .i1⟩) main_call0_v1 p1 p2 p3).ofBuf (Val := Elt F) v = v := id rfl
theorem toBuf_main_call0_v2 (p1 p2 p3) (v : (⟨S8x4096x4096, .f32⟩ : BufTy).Contents (Elt F)) :
    (TRef.of (sig := sig) (T := ⟨S8x4096x4096, .f32⟩) main_call0_v2 p1 p2 p3).toBuf (Val := Elt F) v = v := id rfl
theorem ofBuf_main_call0_v2 (p1 p2 p3) (v : (⟨S8x4096x4096, .f32⟩ : BufTy).Contents (Elt F)) :
    (TRef.of (sig := sig) (T := ⟨S8x4096x4096, .f32⟩) main_call0_v2 p1 p2 p3).ofBuf (Val := Elt F) v = v := id rfl
theorem toBuf_main_v12 (p1 p2 p3) (v : (⟨S8x4096x4096, .f32⟩ : BufTy).Contents (Elt F)) :
    (TRef.of (sig := sig) (T := ⟨S8x4096x4096, .f32⟩) main_v12 p1 p2 p3).toBuf (Val := Elt F) v = v := id rfl
theorem ofBuf_main_v12 (p1 p2 p3) (v : (⟨S8x4096x4096, .f32⟩ : BufTy).Contents (Elt F)) :
    (TRef.of (sig := sig) (T := ⟨S8x4096x4096, .f32⟩) main_v12 p1 p2 p3).ofBuf (Val := Elt F) v = v := id rfl
theorem toBuf_main_v20 (p1 p2 p3) (v : (⟨S8x4096x4096, .f32⟩ : BufTy).Contents (Elt F)) :
    (TRef.of (sig := sig) (T := ⟨S8x4096x4096, .f32⟩) main_v20 p1 p2 p3).toBuf (Val := Elt F) v = v := id rfl
theorem ofBuf_main_v20 (p1 p2 p3) (v : (⟨S8x4096x4096, .f32⟩ : BufTy).Contents (Elt F)) :
    (TRef.of (sig := sig) (T := ⟨S8x4096x4096, .f32⟩) main_v20 p1 p2 p3).ofBuf (Val := Elt F) v = v := id rfl
theorem toBuf_main_cst_4 (p1 p2 p3) (v : (⟨S_, .f32⟩ : BufTy).Contents (Elt F)) :
    (TRef.of (sig := sig) (T := ⟨S_, .f32⟩) main_cst_4 p1 p2 p3).toBuf (Val := Elt F) v = v := id rfl
theorem ofBuf_main_cst_4 (p1 p2 p3) (v : (⟨S_, .f32⟩ : BufTy).Contents (Elt F)) :
    (TRef.of (sig := sig) (T := ⟨S_, .f32⟩) main_cst_4 p1 p2 p3).ofBuf (Val := Elt F) v = v := id rfl
theorem toBuf_main_call1_v0 (p1 p2 p3) (v : (⟨S_, .f32⟩ : BufTy).Contents (Elt F)) :
    (TRef.of (sig := sig) (T := ⟨S_, .f32⟩) main_call1_v0 p1 p2 p3).toBuf (Val := Elt F) v = v := id rfl
theorem ofBuf_main_call1_v0 (p1 p2 p3) (v : (⟨S_, .f32⟩ : BufTy).Contents (Elt F)) :
    (TRef.of (sig := sig) (T := ⟨S_, .f32⟩) main_call1_v0 p1 p2 p3).ofBuf (Val := Elt F) v = v := id rfl
theorem toBuf_main_call1_v1 (p1 p2 p3) (v : (⟨S8x4096, .f32⟩ : BufTy).Contents (Elt F)) :
    (TRef.of (sig := sig) (T := ⟨S8x4096, .f32⟩) main_call1_v1 p1 p2 p3).toBuf (Val := Elt F) v = v := id rfl
theorem ofBuf_main_call1_v1 (p1 p2 p3) (v : (⟨S8x4096, .f32⟩ : BufTy).Contents (Elt F)) :
    (TRef.of (sig := sig) (T := ⟨S8x4096, .f32⟩) main_call1_v1 p1 p2 p3).ofBuf (Val := Elt F) v = v := id rfl
theorem toBuf_main_v27 (p1 p2 p3) (v : (⟨S8x4096, .i1⟩ : BufTy).Contents (Elt F)) :
    (TRef.of (sig := sig) (T := ⟨S8x4096, .i1⟩) main_v27 p1 p2 p3).toBuf (Val := Elt F) v = v := id rfl
theorem ofBuf_main_v27 (p1 p2 p3) (v : (⟨S8x4096, .i1⟩ : BufTy).Contents (Elt F)) :
    (TRef.of (sig := sig) (T := ⟨S8x4096, .i1⟩) main_v27 p1 p2 p3).ofBuf (Val := Elt F) v = v := id rfl
theorem toBuf_main_v21 (p1 p2 p3) (v : (⟨S8x4096, .f32⟩ : BufTy).Contents (Elt F)) :
    (TRef.of (sig := sig) (T := ⟨S8x4096, .f32⟩) main_v21 p1 p2 p3).toBuf (Val := Elt F) v = v := id rfl
theorem ofBuf_main_v21 (p1 p2 p3) (v : (⟨S8x4096, .f32⟩ : BufTy).Contents (Elt F)) :
    (TRef.of (sig := sig) (T := ⟨S8x4096, .f32⟩) main_v21 p1 p2 p3).ofBuf (Val := Elt F) v = v := id rfl
theorem toBuf_main_v28 (p1 p2 p3) (v : (⟨S8x4096, .f32⟩ : BufTy).Contents (Elt F)) :
    (TRef.of (sig := sig) (T := ⟨S8x4096, .f32⟩) main_v28 p1 p2 p3).toBuf (Val := Elt F) v = v := id rfl
theorem ofBuf_main_v28 (p1 p2 p3) (v : (⟨S8x4096, .f32⟩ : BufTy).Contents (Elt F)) :
    (TRef.of (sig := sig) (T := ⟨S8x4096, .f32⟩) main_v28 p1 p2 p3).ofBuf (Val := Elt F) v = v := id rfl
theorem toBuf_main_cst_11 (p1 p2 p3) (v : (⟨S_, .f32⟩ : BufTy).Contents (Elt F)) :
    (TRef.of (sig := sig) (T := ⟨S_, .f32⟩) main_cst_11 p1 p2 p3).toBuf (Val := Elt F) v = v := id rfl
theorem ofBuf_main_cst_11 (p1 p2 p3) (v : (⟨S_, .f32⟩ : BufTy).Contents (Elt F)) :
    (TRef.of (sig := sig) (T := ⟨S_, .f32⟩) main_cst_11 p1 p2 p3).ofBuf (Val := Elt F) v = v := id rfl
theorem toBuf_main_call2_v0 (p1 p2 p3) (v : (⟨S_, .f32⟩ : BufTy).Contents (Elt F)) :
    (TRef.of (sig := sig) (T := ⟨S_, .f32⟩) main_call2_v0 p1 p2 p3).toBuf (Val := Elt F) v = v := id rfl
theorem ofBuf_main_call2_v0 (p1 p2 p3) (v : (⟨S_, .f32⟩ : BufTy).Contents (Elt F)) :
    (TRef.of (sig := sig) (T := ⟨S_, .f32⟩) main_call2_v0 p1 p2 p3).ofBuf (Val := Elt F) v = v := id rfl
theorem toBuf_main_v55 (p1 p2 p3) (v : (⟨S8x1x4096, .i1⟩ : BufTy).Contents (Elt F)) :
    (TRef.of (sig := sig) (T := ⟨S8x1x4096, .i1⟩) main_v55 p1 p2 p3).toBuf (Val := Elt F) v = v := id rfl
theorem ofBuf_main_v55 (p1 p2 p3) (v : (⟨S8x1x4096, .i1⟩ : BufTy).Contents (Elt F)) :
    (TRef.of (sig := sig) (T := ⟨S8x1x4096, .i1⟩) main_v55 p1 p2 p3).ofBuf (Val := Elt F) v = v := id rfl
theorem toBuf_main_call2_v1 (p1 p2 p3) (v : (⟨S8x4096x4096, .i1⟩ : BufTy).Contents (Elt F)) :
    (TRef.of (sig := sig) (T := ⟨S8x4096x4096, .i1⟩) main_call2_v1 p1 p2 p3).toBuf (Val := Elt F) v = v := id rfl
theorem ofBuf_main_call2_v1 (p1 p2 p3) (v : (⟨S8x4096x4096, .i1⟩ : BufTy).Contents (Elt F)) :
    (TRef.of (sig := sig) (T := ⟨S8x4096x4096, .i1⟩) main_call2_v1 p1 p2 p3).ofBuf (Val := Elt F) v = v := id rfl
theorem toBuf_main_call2_v2 (p1 p2 p3) (v : (⟨S8x4096x4096, .f32⟩ : BufTy).Contents (Elt F)) :
    (TRef.of (sig := sig) (T := ⟨S8x4096x4096, .f32⟩) main_call2_v2 p1 p2 p3).toBuf (Val := Elt F) v = v := id rfl
theorem ofBuf_main_call2_v2 (p1 p2 p3) (v : (⟨S8x4096x4096, .f32⟩ : BufTy).Contents (Elt F)) :
    (TRef.of (sig := sig) (T := ⟨S8x4096x4096, .f32⟩) main_call2_v2 p1 p2 p3).ofBuf (Val := Elt F) v = v := id rfl
theorem toBuf_main_v48 (p1 p2 p3) (v : (⟨S8x4096x4096, .f32⟩ : BufTy).Contents (Elt F)) :
    (TRef.of (sig := sig) (T := ⟨S8x4096x4096, .f32⟩) main_v48 p1 p2 p3).toBuf (Val := Elt F) v = v := id rfl
theorem ofBuf_main_v48 (p1 p2 p3) (v : (⟨S8x4096x4096, .f32⟩ : BufTy).Contents (Elt F)) :
    (TRef.of (sig := sig) (T := ⟨S8x4096x4096, .f32⟩) main_v48 p1 p2 p3).ofBuf (Val := Elt F) v = v := id rfl
theorem toBuf_main_v56 (p1 p2 p3) (v : (⟨S8x4096x4096, .f32⟩ : BufTy).Contents (Elt F)) :
    (TRef.of (sig := sig) (T := ⟨S8x4096x4096, .f32⟩) main_v56 p1 p2 p3).toBuf (Val := Elt F) v = v := id rfl
theorem ofBuf_main_v56 (p1 p2 p3) (v : (⟨S8x4096x4096, .f32⟩ : BufTy).Contents (Elt F)) :
    (TRef.of (sig := sig) (T := ⟨S8x4096x4096, .f32⟩) main_v56 p1 p2 p3).ofBuf (Val := Elt F) v = v := id rfl
theorem toBuf_main_cst_13 (p1 p2 p3) (v : (⟨S_, .f32⟩ : BufTy).Contents (Elt F)) :
    (TRef.of (sig := sig) (T := ⟨S_, .f32⟩) main_cst_13 p1 p2 p3).toBuf (Val := Elt F) v = v := id rfl
theorem ofBuf_main_cst_13 (p1 p2 p3) (v : (⟨S_, .f32⟩ : BufTy).Contents (Elt F)) :
    (TRef.of (sig := sig) (T := ⟨S_, .f32⟩) main_cst_13 p1 p2 p3).ofBuf (Val := Elt F) v = v := id rfl
theorem toBuf_main_call3_v0 (p1 p2 p3) (v : (⟨S_, .f32⟩ : BufTy).Contents (Elt F)) :
    (TRef.of (sig := sig) (T := ⟨S_, .f32⟩) main_call3_v0 p1 p2 p3).toBuf (Val := Elt F) v = v := id rfl
theorem ofBuf_main_call3_v0 (p1 p2 p3) (v : (⟨S_, .f32⟩ : BufTy).Contents (Elt F)) :
    (TRef.of (sig := sig) (T := ⟨S_, .f32⟩) main_call3_v0 p1 p2 p3).ofBuf (Val := Elt F) v = v := id rfl
theorem toBuf_main_call3_v1 (p1 p2 p3) (v : (⟨S8x4096, .f32⟩ : BufTy).Contents (Elt F)) :
    (TRef.of (sig := sig) (T := ⟨S8x4096, .f32⟩) main_call3_v1 p1 p2 p3).toBuf (Val := Elt F) v = v := id rfl
theorem ofBuf_main_call3_v1 (p1 p2 p3) (v : (⟨S8x4096, .f32⟩ : BufTy).Contents (Elt F)) :
    (TRef.of (sig := sig) (T := ⟨S8x4096, .f32⟩) main_call3_v1 p1 p2 p3).ofBuf (Val := Elt F) v = v := id rfl
theorem toBuf_main_v63 (p1 p2 p3) (v : (⟨S8x4096, .i1⟩ : BufTy).Contents (Elt F)) :
    (TRef.of (sig := sig) (T := ⟨S8x4096, .i1⟩) main_v63 p1 p2 p3).toBuf (Val := Elt F) v = v := id rfl
theorem ofBuf_main_v63 (p1 p2 p3) (v : (⟨S8x4096, .i1⟩ : BufTy).Contents (Elt F)) :
    (TRef.of (sig := sig) (T := ⟨S8x4096, .i1⟩) main_v63 p1 p2 p3).ofBuf (Val := Elt F) v = v := id rfl
theorem toBuf_main_v57 (p1 p2 p3) (v : (⟨S8x4096, .f32⟩ : BufTy).Contents (Elt F)) :
    (TRef.of (sig := sig) (T := ⟨S8x4096, .f32⟩) main_v57 p1 p2 p3).toBuf (Val := Elt F) v = v := id rfl
theorem ofBuf_main_v57 (p1 p2 p3) (v : (⟨S8x4096, .f32⟩ : BufTy).Contents (Elt F)) :
    (TRef.of (sig := sig) (T := ⟨S8x4096, .f32⟩) main_v57 p1 p2 p3).ofBuf (Val := Elt F) v = v := id rfl
theorem toBuf_main_v64 (p1 p2 p3) (v : (⟨S8x4096, .f32⟩ : BufTy).Contents (Elt F)) :
    (TRef.of (sig := sig) (T := ⟨S8x4096, .f32⟩) main_v64 p1 p2 p3).toBuf (Val := Elt F) v = v := id rfl
theorem ofBuf_main_v64 (p1 p2 p3) (v : (⟨S8x4096, .f32⟩ : BufTy).Contents (Elt F)) :
    (TRef.of (sig := sig) (T := ⟨S8x4096, .f32⟩) main_v64 p1 p2 p3).ofBuf (Val := Elt F) v = v := id rfl

/-! ## The result term -/

set_option maxRecDepth 65536 in
set_option maxHeartbeats 41200000 in
/-- The fold of the program's operations over the launch contents, at the result buffer, is the composed term. -/
theorem after_main_v72 (m : (ℓ : Loc nD τ sig) → Buf (Elt F) ℓ) (c : Dev nD) :
    after (ops (F := F)) (launchContents m c) (Proc.devRef .tc main_v72) = res_main_v72 m c := by
  after_results_simp
  simp only [toBuf_main_cst_2, ofBuf_main_cst_2, toBuf_main_call0_v0, ofBuf_main_call0_v0, toBuf_main_v19,
      ofBuf_main_v19, toBuf_main_call0_v1, ofBuf_main_call0_v1, toBuf_main_call0_v2, ofBuf_main_call0_v2,
      toBuf_main_v12, ofBuf_main_v12, toBuf_main_v20, ofBuf_main_v20, toBuf_main_cst_4, ofBuf_main_cst_4,
      toBuf_main_call1_v0, ofBuf_main_call1_v0, toBuf_main_call1_v1, ofBuf_main_call1_v1, toBuf_main_v27,
      ofBuf_main_v27, toBuf_main_v21, ofBuf_main_v21, toBuf_main_v28, ofBuf_main_v28, toBuf_main_cst_11,
      ofBuf_main_cst_11, toBuf_main_call2_v0, ofBuf_main_call2_v0, toBuf_main_v55, ofBuf_main_v55,
      toBuf_main_call2_v1, ofBuf_main_call2_v1, toBuf_main_call2_v2, ofBuf_main_call2_v2, toBuf_main_v48,
      ofBuf_main_v48, toBuf_main_v56, ofBuf_main_v56, toBuf_main_cst_13, ofBuf_main_cst_13,
      toBuf_main_call3_v0, ofBuf_main_call3_v0, toBuf_main_call3_v1, ofBuf_main_call3_v1, toBuf_main_v63,
      ofBuf_main_v63, toBuf_main_v57, ofBuf_main_v57, toBuf_main_v64, ofBuf_main_v64]
  unfold res_main_v72
  rfl

/-! ## The run -/

set_option maxRecDepth 8192 in
set_option maxHeartbeats 41200000 in
/-- On every device, for any float values, from any memory with zero counters: every weakly fair execution of the
    entry point terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = res_main_v72 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v72).trans (after_main_v72 m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefValue

end
-- ==== Proof.RefStages.lean ====
/-
  The reference's two nearest-neighbour stages, read at an index.

  In each direction the reference forms, for every point p of one cloud and every point k of the other, the expanded
  squared distance (|x|² + |y|²) − 2·⟨x, y⟩, replaces the entries whose k is at or beyond the other cloud's length by
  +∞, and takes the minimum over k from +∞.  Read at an index, the sums of squares are `sq`, the batched product is
  `dot`, the constant is 2, "k ≥ len" as a signed comparison is the negation of the specification's `valid`, and a
  minimum from +∞ over one axis is the infimum over that axis: the stage is the specification's `nnMask`.
-/
import proofs.«150336_j34505767256624_1_alg».proof.Proof.RefReadP
import proofs.«150336_j34505767256624_1_alg».proof.Proof.Spec
import Idealize.ShloMosaic.Lib.Affine
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
  Cert.Chamfer

/-- The word 0x7F800000 denotes +∞. -/
theorem ofBits_inf : Ideal.ofBits .f32 0x7F800000#32 = (⊤ : EReal) := by simp [Ideal.ofBits, Ideal.ieee]

/-- The word 0x40000000 denotes the real number 2. -/
theorem ofBits_two : Ideal.ofBits .f32 0x40000000#32 = two := by
  unfold two; simp [Ideal.ofBits, Ideal.ieee, -EReal.coe_mul]; norm_num

/-- The fold of `min` from +∞ over a finite set is the set's infimum. -/
theorem fold_min_top_eq_inf {ι : Type} (s : Finset ι) (f : ι → EReal) : s.fold min ⊤ f = s.inf f := by
  classical
  induction s using Finset.induction_on with
  | empty => rw [Finset.fold_empty, Finset.inf_empty]
  | insert a s ha ih => rw [Finset.fold_insert ha, Finset.inf_insert, ih]

/-- The last axis of an [8, 4096, 4096] array is the one an [8, 4096] result drops. -/
theorem red3 : S8x4096x4096.Reduces [2] S8x4096 := by decide

/-- Where a is below b as signed words, "a ≥ b" is the bit 0 … -/
theorem sge_of_slt {a b : BitVec 32} (h : a.slt b = true) : IntOp.cmpi .sge a b = 0#1 :=
  eq_zero_of_ne_one fun e => absurd (BitVec.slt_iff_toInt_lt.mp h) (not_lt.mpr (IntOp.cmpi_sge.mp e))

/-- … and elsewhere the bit 1. -/
theorem sge_of_not_slt {a b : BitVec 32} (h : ¬a.slt b = true) : IntOp.cmpi .sge a b = 1#1 :=
  IntOp.cmpi_sge.mpr (not_lt.mp fun hl => h (BitVec.slt_iff_toInt_lt.mpr hl))

/-! ## Direction 1: the first cloud's points against the second cloud -/

/-- The excluding condition at (n, p, k): "k ≥ len n" as a signed comparison. -/
theorem cond1 (x3 : (⟨S8, .i32⟩ : BufTy).Contents (Elt Ideal)) (n : Fin 8) (p k : Fin 4096) :
    val_main_call0_v1 (F := Ideal) x3 (ix3 n p k) = IntOp.cmpi .sge (BitVec.ofNat 32 k.val) (x3 (ix1 n)) := by
  rw [val_main_call0_v1_apply, val_main_v19_apply, val_main_v18_apply, val_main_v16_apply, val_main_v14_apply,
    val_main_v13_apply, val_main_v17_apply, val_main_v15_apply]
  exact congrArg (fun t => IntOp.cmpi .sge (BitVec.ofNat 32 k.val) (x3 t))
    (funext fun a => by match a with | ⟨0, _⟩ => rfl)

/-- The replacing value is +∞. -/
theorem top1 (n : Fin 8) (p k : Fin 4096) : val_main_call0_v2 (F := Ideal) (ix3 n p k) = (⊤ : EReal) := by
  rw [val_main_call0_v2_apply, val_main_call0_v0_apply, val_main_cst_2_apply]
  exact ofBits_inf

/-- The first sum of squares, broadcast over k. -/
theorem sqL1 (x0 : (⟨S8x4096x3, .f32⟩ : BufTy).Contents (Elt Ideal)) (n : Fin 8) (p k : Fin 4096) :
    val_main_v6 (F := Ideal) x0 (ix3 n p k) = sq x0 n p := by
  rw [val_main_v6_apply, val_main_v4_apply, val_main_v1_apply, val_main_cst_apply]
  show Ideal.ofBits .f32 0x00000000#32 + _ = _
  rw [Ideal.ofBits_zero_f32, zero_add]
  unfold Cert.Chamfer.sq
  refine Finset.sum_congr rfl fun d _ => ?_
  rw [val_main_v0_apply]
  have e : idx_main_v1 (idx_main_v4 (idx_main_v6 (ix3 n p k))) d = ix3 n p d :=
    funext fun a => by match a with | ⟨0, _⟩ => rfl | ⟨1, _⟩ => rfl | ⟨2, _⟩ => rfl
  rw [e]
  rfl

/-- The second sum of squares, broadcast over p. -/
theorem sqR1 (x1 : (⟨S8x4096x3, .f32⟩ : BufTy).Contents (Elt Ideal)) (n : Fin 8) (p k : Fin 4096) :
    val_main_v7 (F := Ideal) x1 (ix3 n p k) = sq x1 n k := by
  rw [val_main_v7_apply, val_main_v5_apply, val_main_v3_apply, val_main_cst_0_apply]
  show Ideal.ofBits .f32 0x00000000#32 + _ = _
  rw [Ideal.ofBits_zero_f32, zero_add]
  unfold Cert.Chamfer.sq
  refine Finset.sum_congr rfl fun d _ => ?_
  rw [val_main_v2_apply]
  have e : idx_main_v3 (idx_main_v5 (idx_main_v7 (ix3 n p k))) d = ix3 n k d :=
    funext fun a => by match a with | ⟨0, _⟩ => rfl | ⟨1, _⟩ => rfl | ⟨2, _⟩ => rfl
  rw [e]
  rfl

/-- The batched product at (n, p, k). -/
theorem dot1 (x0 x1 : (⟨S8x4096x3, .f32⟩ : BufTy).Contents (Elt Ideal)) (n : Fin 8) (p k : Fin 4096) :
    val_main_v9 (F := Ideal) x0 x1 (ix3 n p k) = dot x0 x1 n p k := by
  rw [val_main_v9_apply]
  unfold Cert.Chamfer.dot
  refine Finset.sum_congr rfl fun d _ => ?_
  have el : lidx_main_v9 (ix3 n p k) d = ix3 n p d :=
    funext fun a => by match a with | ⟨0, _⟩ => rfl | ⟨1, _⟩ => rfl | ⟨2, _⟩ => rfl
  have er : ridx_main_v9 (ix3 n p k) d = ix3 n k d :=
    funext fun a => by match a with | ⟨0, _⟩ => rfl | ⟨1, _⟩ => rfl | ⟨2, _⟩ => rfl
  rw [el, er]

/-- The constant factor is 2. -/
theorem two1 (n : Fin 8) (p k : Fin 4096) : val_main_v10 (F := Ideal) (ix3 n p k) = two := by
  rw [val_main_v10_apply, val_main_cst_1_apply]
  exact ofBits_two

/-- The expanded squared distance at (n, p, k). -/
theorem dist1 (x0 x1 : (⟨S8x4096x3, .f32⟩ : BufTy).Contents (Elt Ideal)) (n : Fin 8) (p k : Fin 4096) :
    val_main_v12 (F := Ideal) x0 x1 (ix3 n p k) = d2 x0 x1 n p k := by
  rw [val_main_v12_apply, val_main_v8_apply, val_main_v11_apply, sqL1, sqR1, two1, dot1]
  rfl

/-- The masked entry at (n, p, k). -/
theorem elem1 (x0 x1 : (⟨S8x4096x3, .f32⟩ : BufTy).Contents (Elt Ideal)) (x3 : (⟨S8, .i32⟩ : BufTy).Contents (Elt Ideal))
    (n : Fin 8) (p k : Fin 4096) :
    val_main_v20 (F := Ideal) x0 x1 x3 (ix3 n p k)
      = @ite _ (valid x3 n k) (Classical.propDecidable _) (d2 x0 x1 n p k) ⊤ := by
  rw [val_main_v20_apply, cond1, top1, dist1]
  by_cases hv : valid x3 n k
  · rw [if_pos hv, sge_of_slt hv]
    exact select_zero _ _
  · rw [if_neg hv, sge_of_not_slt hv]
    exact select_one _ _

/-- Direction 1's stage is the masked nearest-neighbour distance of the first cloud's points among the second cloud. -/
theorem stage1 (x0 x1 : (⟨S8x4096x3, .f32⟩ : BufTy).Contents (Elt Ideal)) (x3 : (⟨S8, .i32⟩ : BufTy).Contents (Elt Ideal)) :
    val_main_v21 (F := Ideal) x0 x1 x3 = fun j => nnMask x0 x1 x3 (j 0) (j 1) := by
  funext j
  obtain ⟨n, p, rfl⟩ : ∃ (n : Fin 8) (p : Fin 4096), j = ix2 n p := ⟨j 0, j 1, eq_ix2 j⟩
  unfold val_main_v21
  refine (Host.reduce_eq_fold_single (FloatOps.minimumf (F := Ideal) (φ := .f32)) _ _
    reducesTo_S8x4096x4096_S8x4096_d2 red3 h_S_ (ix2 n p)).trans ?_
  show (Finset.univ : Finset (Fin 4096)).fold min (Ideal.ofBits .f32 0x7F800000#32)
    (val_main_v20 (F := Ideal) x0 x1 x3 ∘ red3.lift (ix2 n p)) = nnMask x0 x1 x3 n p
  rw [ofBits_inf]
  refine (fold_min_top_eq_inf (Finset.univ : Finset (Fin 4096)) _).trans ?_
  unfold nnMask
  refine congrArg Finset.univ.inf (funext fun k => ?_)
  have e : red3.lift (ix2 n p) k = ix3 n p k := funext fun a => Fin.ext (by
    match a with
    | ⟨0, _⟩ => rfl
    | ⟨1, _⟩ => rfl
    | ⟨2, _⟩ => rfl)
  show val_main_v20 (F := Ideal) x0 x1 x3 (red3.lift (ix2 n p) k) = _
  rw [e]
  exact elem1 x0 x1 x3 n p k

/-! ## Direction 2: the second cloud's points against the first cloud -/

/-- The excluding condition at (n, p, k): "k ≥ len n" as a signed comparison. -/
theorem cond2 (x2 : (⟨S8, .i32⟩ : BufTy).Contents (Elt Ideal)) (n : Fin 8) (p k : Fin 4096) :
    val_main_call2_v1 (F := Ideal) x2 (ix3 n p k) = IntOp.cmpi .sge (BitVec.ofNat 32 k.val) (x2 (ix1 n)) := by
  rw [val_main_call2_v1_apply, val_main_v55_apply, val_main_v54_apply, val_main_v52_apply, val_main_v50_apply,
    val_main_v49_apply, val_main_v53_apply, val_main_v51_apply]
  exact congrArg (fun t => IntOp.cmpi .sge (BitVec.ofNat 32 k.val) (x2 t))
    (funext fun a => by match a with | ⟨0, _⟩ => rfl)

/-- The replacing value is +∞. -/
theorem top2 (n : Fin 8) (p k : Fin 4096) : val_main_call2_v2 (F := Ideal) (ix3 n p k) = (⊤ : EReal) := by
  rw [val_main_call2_v2_apply, val_main_call2_v0_apply, val_main_cst_11_apply]
  exact ofBits_inf

/-- The sum of squares of the cloud whose points are p, broadcast over k. -/
theorem sqL2 (x0 : (⟨S8x4096x3, .f32⟩ : BufTy).Contents (Elt Ideal)) (n : Fin 8) (p k : Fin 4096) :
    val_main_v42 (F := Ideal) x0 (ix3 n p k) = sq x0 n p := by
  rw [val_main_v42_apply, val_main_v40_apply, val_main_v37_apply, val_main_cst_8_apply]
  show Ideal.ofBits .f32 0x00000000#32 + _ = _
  rw [Ideal.ofBits_zero_f32, zero_add]
  unfold Cert.Chamfer.sq
  refine Finset.sum_congr rfl fun d _ => ?_
  rw [val_main_v36_apply]
  have e : idx_main_v37 (idx_main_v40 (idx_main_v42 (ix3 n p k))) d = ix3 n p d :=
    funext fun a => by match a with | ⟨0, _⟩ => rfl | ⟨1, _⟩ => rfl | ⟨2, _⟩ => rfl
  rw [e]
  rfl

/-- The sum of squares of the cloud whose points are k, broadcast over p. -/
theorem sqR2 (x1 : (⟨S8x4096x3, .f32⟩ : BufTy).Contents (Elt Ideal)) (n : Fin 8) (p k : Fin 4096) :
    val_main_v43 (F := Ideal) x1 (ix3 n p k) = sq x1 n k := by
  rw [val_main_v43_apply, val_main_v41_apply, val_main_v39_apply, val_main_cst_9_apply]
  show Ideal.ofBits .f32 0x00000000#32 + _ = _
  rw [Ideal.ofBits_zero_f32, zero_add]
  unfold Cert.Chamfer.sq
  refine Finset.sum_congr rfl fun d _ => ?_
  rw [val_main_v38_apply]
  have e : idx_main_v39 (idx_main_v41 (idx_main_v43 (ix3 n p k))) d = ix3 n k d :=
    funext fun a => by match a with | ⟨0, _⟩ => rfl | ⟨1, _⟩ => rfl | ⟨2, _⟩ => rfl
  rw [e]
  rfl

/-- The batched product at (n, p, k). -/
theorem dot2 (x0 x1 : (⟨S8x4096x3, .f32⟩ : BufTy).Contents (Elt Ideal)) (n : Fin 8) (p k : Fin 4096) :
    val_main_v45 (F := Ideal) x0 x1 (ix3 n p k) = dot x1 x0 n p k := by
  rw [val_main_v45_apply]
  unfold Cert.Chamfer.dot
  refine Finset.sum_congr rfl fun d _ => ?_
  have el : lidx_main_v45 (ix3 n p k) d = ix3 n p d :=
    funext fun a => by match a with | ⟨0, _⟩ => rfl | ⟨1, _⟩ => rfl | ⟨2, _⟩ => rfl
  have er : ridx_main_v45 (ix3 n p k) d = ix3 n k d :=
    funext fun a => by match a with | ⟨0, _⟩ => rfl | ⟨1, _⟩ => rfl | ⟨2, _⟩ => rfl
  rw [el, er]

/-- The constant factor is 2. -/
theorem two2 (n : Fin 8) (p k : Fin 4096) : val_main_v46 (F := Ideal) (ix3 n p k) = two := by
  rw [val_main_v46_apply, val_main_cst_10_apply]
  exact ofBits_two

/-- The expanded squared distance at (n, p, k). -/
theorem dist2 (x0 x1 : (⟨S8x4096x3, .f32⟩ : BufTy).Contents (Elt Ideal)) (n : Fin 8) (p k : Fin 4096) :
    val_main_v48 (F := Ideal) x0 x1 (ix3 n p k) = d2 x1 x0 n p k := by
  rw [val_main_v48_apply, val_main_v44_apply, val_main_v47_apply, sqL2, sqR2, two2, dot2]
  rfl

/-- The masked entry at (n, p, k). -/
theorem elem2 (x0 x1 : (⟨S8x4096x3, .f32⟩ : BufTy).Contents (Elt Ideal)) (x2 : (⟨S8, .i32⟩ : BufTy).Contents (Elt Ideal))
    (n : Fin 8) (p k : Fin 4096) :
    val_main_v56 (F := Ideal) x0 x1 x2 (ix3 n p k)
      = @ite _ (valid x2 n k) (Classical.propDecidable _) (d2 x1 x0 n p k) ⊤ := by
  rw [val_main_v56_apply, cond2, top2, dist2]
  by_cases hv : valid x2 n k
  · rw [if_pos hv, sge_of_slt hv]
    exact select_zero _ _
  · rw [if_neg hv, sge_of_not_slt hv]
    exact select_one _ _

/-- Direction 2's stage is the masked nearest-neighbour distance of the second cloud's points among the first cloud. -/
theorem stage2 (x0 x1 : (⟨S8x4096x3, .f32⟩ : BufTy).Contents (Elt Ideal)) (x2 : (⟨S8, .i32⟩ : BufTy).Contents (Elt Ideal)) :
    val_main_v57 (F := Ideal) x0 x1 x2 = fun j => nnMask x1 x0 x2 (j 0) (j 1) := by
  funext j
  obtain ⟨n, p, rfl⟩ : ∃ (n : Fin 8) (p : Fin 4096), j = ix2 n p := ⟨j 0, j 1, eq_ix2 j⟩
  unfold val_main_v57
  refine (Host.reduce_eq_fold_single (FloatOps.minimumf (F := Ideal) (φ := .f32)) _ _
    reducesTo_S8x4096x4096_S8x4096_d2 red3 h_S_ (ix2 n p)).trans ?_
  show (Finset.univ : Finset (Fin 4096)).fold min (Ideal.ofBits .f32 0x7F800000#32)
    (val_main_v56 (F := Ideal) x0 x1 x2 ∘ red3.lift (ix2 n p)) = nnMask x1 x0 x2 n p
  rw [ofBits_inf]
  refine (fold_min_top_eq_inf (Finset.univ : Finset (Fin 4096)) _).trans ?_
  unfold nnMask
  refine congrArg Finset.univ.inf (funext fun k => ?_)
  have e : red3.lift (ix2 n p) k = ix3 n p k := funext fun a => Fin.ext (by
    match a with
    | ⟨0, _⟩ => rfl
    | ⟨1, _⟩ => rfl
    | ⟨2, _⟩ => rfl)
  show val_main_v56 (F := Ideal) x0 x1 x2 (red3.lift (ix2 n p) k) = _
  rw [e]
  exact elem2 x0 x1 x2 n p k

end Cert.ReferenceIdeal.RefValue

end
-- ==== Proof.RefValue.lean ====
/-
  The reference program read as a function of its four arguments.

  Its result is one fixed function (the tail: zero the padded points, sum over the points, divide by max(length, 1), sum
  over the batch, divide by 8, add the two directions) of its two nearest-neighbour stages and the two length arrays,
  and each nearest-neighbour stage is the masked minimum of the shared specification.  So every weakly fair execution
  of the reference ends with its result at the tail of the two masked minima of its arguments.
-/
import proofs.«150336_j34505767256624_1_alg».proof.Proof.RefRun
import proofs.«150336_j34505767256624_1_alg».proof.Proof.RefReadP
import proofs.«150336_j34505767256624_1_alg».proof.Proof.RefStages
import proofs.«150336_j34505767256624_1_alg».proof.Proof.KerRefTail

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo

/-- The reference's result is its tail applied to its two nearest-neighbour stages: the first direction's stage
    (first cloud against second, the second cloud's lengths) is zeroed and averaged with the first cloud's lengths, the
    second direction's with the second cloud's. -/
theorem tail_split (x0 x1 : (⟨S8x4096x3, .f32⟩ : BufTy).Contents (Elt Ideal)) (x2 x3 : (⟨S8, .i32⟩ : BufTy).Contents (Elt Ideal)) :
    val_main_v72 (F := Ideal) x0 x1 x2 x3
      = Cert.KerRefTail.RefTail (val_main_v21 (F := Ideal) x0 x1 x3) (val_main_v57 (F := Ideal) x0 x1 x2) x2 x3 := by
  unfold val_main_v72 val_main_v35 val_main_v71 val_main_v34 val_main_v70 val_main_v33 val_main_v69 val_main_v29 val_main_v65
    val_main_v28 val_main_v64 val_main_v32 val_main_v68 val_main_v31 val_main_v67 val_main_v30 val_main_v66 val_main_c val_main_c_15
    val_main_v27 val_main_v63 val_main_v25 val_main_v26 val_main_v61 val_main_v62 val_main_v23 val_main_v24 val_main_v59 val_main_v60
    val_main_v22 val_main_v58 val_main_call1_v1 val_main_call1_v0 val_main_cst_4 val_main_call3_v1 val_main_call3_v0 val_main_cst_13
    val_main_cst_5 val_main_cst_14 val_main_cst_6 val_main_cst_16 val_main_cst_7 val_main_cst_17
    Cert.KerRefTail.RefTail Cert.KerRefTail.RefHalf
  rfl

/-- The run's result term is the tail of the two masked minima of the argument buffers. -/
theorem result_term (m : (ℓ : Loc nD τ sig) → Buf (Elt Ideal) ℓ) (c : Dev nD) :
    Cert.ReferenceIdeal.ValueP.res_main_v72 m c
      = Cert.KerRefTail.RefTail
          (fun j => Cert.Chamfer.nnMask (m ((c.tc : Thread nD τ).loc main_arg0)) (m ((c.tc : Thread nD τ).loc main_arg1))
            (m ((c.tc : Thread nD τ).loc main_arg3)) (j 0) (j 1))
          (fun j => Cert.Chamfer.nnMask (m ((c.tc : Thread nD τ).loc main_arg1)) (m ((c.tc : Thread nD τ).loc main_arg0))
            (m ((c.tc : Thread nD τ).loc main_arg2)) (j 0) (j 1))
          (m ((c.tc : Thread nD τ).loc main_arg2)) (m ((c.tc : Thread nD τ).loc main_arg3)) := by
  rw [val_main_v72_eq, tail_split, stage1, stage2]

/-- Every weakly fair execution of the reference terminates with its result at the tail of the two masked minima of
    its arguments, and with the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v72)
          = Cert.KerRefTail.RefTail
              (fun j => Cert.Chamfer.nnMask (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg3)) (j 0) (j 1))
              (fun j => Cert.Chamfer.nnMask (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg2)) (j 0) (j 1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c => ⟨(h c).1.trans (result_term m' c), (h c).2⟩)
    (run (F := Ideal) m' ρ')

end Cert.ReferenceIdeal.RefValue

end
-- ==== Proof.Finite.lean ====
/-
  From the precondition to real numbers.

  The precondition says that |x| < +∞ holds at every entry of the two point clouds: it is printed as two `jnp.all`
  reductions by `and` joined by one more `and`, and the claim states that the result is the bit 1.  Read back, every
  comparison bit is 1, so at every entry max x (−x) < +∞ on the extended reals, which excludes −∞ and +∞: every entry
  of the two clouds is the image of a real number.
-/
import proofs.«150336_j34505767256624_1_alg».proof.Defs
import proofs.«150336_j34505767256624_1_alg».proof.Proof.Gen.Pre_finite_inputs
import Idealize.ShloMosaic.Lib.ReduceAll
import Idealize.ShloMosaic.Lib.ValueIdx

noncomputable section

namespace Cert.Finite

open Idealize.ShloMosaic Idealize.SL.Sem Idealize.ShloMosaic.ValueIdx

/-- The scalar shape has one index. -/
instance : Subsingleton Cert.Pre_finite_inputs.S_.Idx := ⟨fun _ _ => funext fun d => d.elim0⟩

/-- An extended real whose absolute value max x (−x) lies below the value of the word 0x7F800000, +∞, is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | top => exact absurd h (by simp [Ideal.cmp])
  | coe r => exact ⟨r, rfl⟩

/-- The printed predicate, all ones, makes every entry of both clouds a real number. -/
theorem real_of_fn (x0 x1 : FVec Ideal Cert.Pre_finite_inputs.S8x4096x3 .f32) (a2 a3 : IVec Cert.Pre_finite_inputs.S8 32)
    (h : Cert.Pre_finite_inputs.fn (F := Ideal) x0 x1 a2 a3 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.mp h0
  exact ⟨fun i => real_of_abs_lt_inf (x0 i) (Host.reduce_andi_all _ _ _ _ ix0 ha i),
    fun i => real_of_abs_lt_inf (x1 i) (Host.reduce_andi_all _ _ _ _ ix0 hb i)⟩

/-- Under the kernel's precondition every entry of the two argument clouds, on every device, is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_fn _ _ _ _ (h c)

end Cert.Finite

end
-- ==== Proof.lean ====
/-
  The certificate of the chamfer-distance kernel against its reference.

  The program computes, for two batches of 8 point clouds x, y in ℝ³ (4096 points each, the first `len` of them
  admitted), the mean over the admitted points of a cloud, then over the batch, of each point's squared distance to its
  nearest admitted neighbour in the other cloud, in both directions, and adds the two. The nearest-neighbour distances
  are computed by two pallas regions over an 8 × 8 grid of (query tile, key tile) pairs, 512 points a tile: at a point
  the body forms (|x|² + |y|²) − 2·⟨x, y⟩ for the 512 × 512 pairs of the two tiles, adds a bias that is 0 on the admitted key
  points and +∞ on the others, takes the minimum over the key tile and lowers a running minimum kept in a scratch buffer
  (reset to +∞ at key tile 0, written out at key tile 7). The reference replaces the excluded entries by +∞ and takes
  one minimum over all 4096 key points.

  Frames (both printings of the kernel program, any float instance): each region's body is run symbolically in its three
  cases (reset / middle / write-out); the region's invariant holds the scratch at what the point before left; the regions
  are segments of @main between the host stretches, and the run ends with every unscoped buffer at a fold of the
  launch memory, which leaves the arguments alone. The reference's frame is its run with the result dropped.

  Values (extended reals): the running minimum after key tile b is the minimum over the key points of tiles 0 … b, so the
  region's result is the minimum over all key points of the biased distance; for finite coordinates — the
  precondition — a distance is a real number, d + 0 = d and d + ∞ = ∞, so the biased minimum is the reference's masked
  minimum. After the nearest-neighbour stage both programs apply the same host operations, kept as one unopened function.
  The idealization changes nothing in the program's text, so `preserves` has no conjunct.
-/
import proofs.«150336_j34505767256624_1_alg».proof.Defs
import proofs.«150336_j34505767256624_1_alg».proof.Proof.KB_Kept
import proofs.«150336_j34505767256624_1_alg».proof.Proof.KI_Value
import proofs.«150336_j34505767256624_1_alg».proof.Proof.KerRefTail
import proofs.«150336_j34505767256624_1_alg».proof.Proof.RefValue
import proofs.«150336_j34505767256624_1_alg».proof.Proof.Finite
import proofs.«150336_j34505767256624_1_alg».proof.Proof.SpecLaws

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

/-- For finite clouds the kernel program's result — the two directions' tails of the biased minima — is the
    reference's tail of the masked minima. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Fr.W11 m c Cert.KernelIdeal.main_v44 : (⟨Cert.KernelIdeal.S_, .f32⟩ : BufTy).Contents (Elt Ideal))
      = Cert.KerRefTail.RefTail
          (fun j => Cert.Chamfer.nnMask (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg3)) (j 0) (j 1))
          (fun j => Cert.Chamfer.nnMask (m ((c.tc : Thread Cert.KernelIdeal.nD Cert.KernelIdeal.τ).loc Cert.KernelIdeal.main_arg1))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2)) (j 0) (j 1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨hx, hy⟩ := Cert.Finite.finite_of_pre m hpre c
  rw [Cert.KernelIdeal.Fr.result m c, Cert.KerRefTail.kerTail_eq_refTail]
  have e1 : (fun j : Cert.KernelIdeal.S8x4096.Idx => Cert.Chamfer.nnBias (P := 4096) (Q := 4096)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (Cert.Chamfer.bias (m ((c.tc : Thread Cert.KernelIdeal.nD Cert.KernelIdeal.τ).loc Cert.KernelIdeal.main_arg3))) (j 0) (j 1))
      = fun j => Cert.Chamfer.nnMask (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) (j 0) (j 1) :=
    funext fun j => Cert.Chamfer.nnBias_bias_eq_nnMask _ _ _ hx hy (j 0) (j 1)
  have e2 : (fun j : Cert.KernelIdeal.S8x4096.Idx => Cert.Chamfer.nnBias (P := 4096) (Q := 4096)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (Cert.Chamfer.bias (m ((c.tc : Thread Cert.KernelIdeal.nD Cert.KernelIdeal.τ).loc Cert.KernelIdeal.main_arg2))) (j 0) (j 1))
      = fun j => Cert.Chamfer.nnMask (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)) (j 0) (j 1) :=
    funext fun j => Cert.Chamfer.nnBias_bias_eq_nnMask _ _ _ hy hx (j 0) (j 1)
  rw [e1, e2]

/-- From memories agreeing on the arguments both programs run, and end with equal results: the kernel program's run
    ends at the fold's last boundary, whose result buffer is (`value_eq`) the reference's term of the same arguments. -/
theorem algebraic : Cert.algebraic_KernelIdeal_ReferenceIdeal := by
  intro m ρ m' ρ' hpre hagree
  refine ⟨fun c => Cert.KernelIdeal.Fr.W11 m c Cert.KernelIdeal.main_v44, ?_, ?_⟩
  · exact (θ_run Cert.KernelIdeal.defs _ _).mono (fun r h c =>
      ⟨h c _ (Cert.KernelIdeal.Fr.mem_uc Cert.KernelIdeal.main_v44 (by decide)),
       (h c _ (Cert.KernelIdeal.Fr.mem_uc Cert.KernelIdeal.main_arg0 (by decide))).trans (Cert.KernelIdeal.Fr.W11_arg0 m c),
       (h c _ (Cert.KernelIdeal.Fr.mem_uc Cert.KernelIdeal.main_arg1 (by decide))).trans (Cert.KernelIdeal.Fr.W11_arg1 m c),
       (h c _ (Cert.KernelIdeal.Fr.mem_uc Cert.KernelIdeal.main_arg2 (by decide))).trans (Cert.KernelIdeal.Fr.W11_arg2 m c),
       (h c _ (Cert.KernelIdeal.Fr.mem_uc Cert.KernelIdeal.main_arg3 (by decide))).trans (Cert.KernelIdeal.Fr.W11_arg3 m c)⟩)
      (Cert.KernelIdeal.Fr.run_all m ρ)
  · refine (θ_run Cert.ReferenceIdeal.defs _ _).mono (fun r h c => ⟨(h c).1.trans ?_, (h c).2⟩)
      (Cert.ReferenceIdeal.RefValue.ref_run m' ρ')
    rw [(hagree c).1, (hagree c).2.1, (hagree c).2.2.1, (hagree c).2.2.2]
    exact (value_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
